-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x64 : Shape := ⟨2, ![524288, 64]⟩
abbrev S524288 : Shape := ⟨1, ![524288]⟩
abbrev S1x64 : Shape := ⟨2, ![1, 64]⟩
abbrev S1 : Shape := ⟨1, ![1]⟩
abbrev S1000x1x3 : Shape := ⟨3, ![1000, 1, 3]⟩
abbrev S1000x3 : Shape := ⟨2, ![1000, 3]⟩
abbrev S1000x3x1 : Shape := ⟨3, ![1000, 3, 1]⟩
abbrev S_ : Shape := ⟨0, ![]⟩

class Facts : Prop where
  bcast_S_S524288x64 : S_.BroadcastsInDim S524288x64 (![] : Fin 0 → Fin S524288x64.rank)
  reducesTo_S524288x64_S_d0_1 : S524288x64.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S1000x1x3 : S_.BroadcastsInDim S1000x1x3 (![] : Fin 0 → Fin S1000x1x3.rank)
  reducesTo_S1000x1x3_S_d0_1_2 : S1000x1x3.ReducesTo [0, 1, 2] S_
  bcast_S_S1000x3 : S_.BroadcastsInDim S1000x3 (![] : Fin 0 → Fin S1000x3.rank)
  reducesTo_S1000x3_S_d0_1 : S1000x3.ReducesTo [0, 1] S_
  bcast_S_S1000x3x1 : S_.BroadcastsInDim S1000x3x1 (![] : Fin 0 → Fin S1000x3x1.rank)
  reducesTo_S1000x3x1_S_d0_1_2 : S1000x3x1.ReducesTo [0, 1, 2] S_

variable [Facts]

def fn_part1 {F : FTy → Type} [FloatOps F] (main_arg5 : FVec F S1000x3 .f32) (main_arg6 : FVec F S1000x3x1 .f32) (main_v13 : IVec S_ 1) (main_v16 : IVec S1000x1x3 1) : IVec S_ 1 :=
  let main_c_5 : IVec S_ 1 := constantI S_ 1 1#1
  let main_v17 : IVec S_ 1 := (fun x v => Host.reduce IntOp.andi x v reducesTo_S1000x1x3_S_d0_1_2 h_S_) main_v16 main_c_5
  let main_v18 : IVec S_ 1 := andi main_v13 main_v17
  let main_v19 : FVec F S1000x3 .f32 := Host.absf main_arg5
  let main_cst_6 : FVec F S_ .f32 := constant S_ .f32 0x7F800000#32
  let main_v20 : FVec F S1000x3 .f32 := broadcastInDim S1000x3 ![] bcast_S_S1000x3 main_cst_6
  let main_v21 : IVec S1000x3 1 := cmpf .olt main_v19 main_v20
  let main_c_7 : IVec S_ 1 := constantI S_ 1 1#1
  let main_v22 : IVec S_ 1 := (fun x v => Host.reduce IntOp.andi x v reducesTo_S1000x3_S_d0_1 h_S_) main_v21 main_c_7
  let main_v23 : IVec S_ 1 := andi main_v18 main_v22
  let main_v24 : FVec F S1000x3x1 .f32 := Host.absf main_arg6
  let main_cst_8 : FVec F S_ .f32 := constant S_ .f32 0x7F800000#32
  let main_v25 : FVec F S1000x3x1 .f32 := broadcastInDim S1000x3x1 ![] bcast_S_S1000x3x1 main_cst_8
  let main_v26 : IVec S1000x3x1 1 := cmpf .olt main_v24 main_v25
  let main_c_9 : IVec S_ 1 := constantI S_ 1 1#1
  let main_v27 : IVec S_ 1 := (fun x v => Host.reduce IntOp.andi x v reducesTo_S1000x3x1_S_d0_1_2 h_S_) main_v26 main_c_9
  let main_v28 : IVec S_ 1 := andi main_v23 main_v27
  main_v28

def fn {F : FTy → Type} [FloatOps F] (main_arg0 : FVec F S524288x64 .f32) (main_arg1 : IVec S524288 32) (main_arg2 : FVec F S1x64 .f32) (main_arg3 : FVec F S1 .f32) (main_arg4 : FVec F S1000x1x3 .f32) (main_arg5 : FVec F S1000x3 .f32) (main_arg6 : FVec F S1000x3x1 .f32) : IVec S_ 1 :=
  let main_v0 : FVec F S524288x64 .f32 := Host.absf main_arg0
  let main_cst : FVec F S_ .f32 := constant S_ .f32 0x7F800000#32
  let main_v1 : FVec F S524288x64 .f32 := broadcastInDim S524288x64 ![] bcast_S_S524288x64 main_cst
  let main_v2 : IVec S524288x64 1 := cmpf .olt main_v0 main_v1
  let main_c : IVec S_ 1 := constantI S_ 1 1#1
  let main_v3 : IVec S_ 1 := (fun x v => Host.reduce IntOp.andi x v reducesTo_S524288x64_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1000x1x3 .f32 := Host.absf main_arg4
  let main_cst_4 : FVec F S_ .f32 := constant S_ .f32 0x7F800000#32
  let main_v15 : FVec F S1000x1x3 .f32 := broadcastInDim S1000x1x3 ![] bcast_S_S1000x1x3 main_cst_4
  let main_v16 : IVec S1000x1x3 1 := cmpf .olt main_v14 main_v15
  fn_part1 (F := F) main_arg5 main_arg6 main_v13 main_v16
-- ==== Kernel.lean ====
abbrev S524288x64 : Shape := ⟨2, ![524288, 64]⟩
abbrev S524288 : Shape := ⟨1, ![524288]⟩
abbrev S1x64 : Shape := ⟨2, ![1, 64]⟩
abbrev S1 : Shape := ⟨1, ![1]⟩
abbrev S1000x1x3 : Shape := ⟨3, ![1000, 1, 3]⟩
abbrev S1000x3 : Shape := ⟨2, ![1000, 3]⟩
abbrev S1000x3x1 : Shape := ⟨3, ![1000, 3, 1]⟩
abbrev S1000x9 : Shape := ⟨2, ![1000, 9]⟩
abbrev S_ : Shape := ⟨0, ![]⟩
abbrev S524288x1 : Shape := ⟨2, ![524288, 1]⟩
abbrev S524288x9 : Shape := ⟨2, ![524288, 9]⟩
abbrev S1x1 : Shape := ⟨2, ![1, 1]⟩
abbrev S16x128 : Shape := ⟨2, ![16, 128]⟩
abbrev S4096x64 : Shape := ⟨2, ![4096, 64]⟩
abbrev S4096x9 : Shape := ⟨2, ![4096, 9]⟩
abbrev S8x128 : Shape := ⟨2, ![8, 128]⟩
abbrev S4096 : Shape := ⟨1, ![4096]⟩
abbrev S4096x1 : Shape := ⟨2, ![4096, 1]⟩
abbrev S4096x3 : Shape := ⟨2, ![4096, 3]⟩

abbrev nBuf : Space → Nat
  | .hbm => 28
  | .vmem => 9
  | .smem => 0
  | _ => 0

abbrev bufTy : (tb : Table) → Fin (tcTables nBuf tb) → BufTy
  | .hbm, ⟨0, _⟩ => ⟨S524288x64, .f32⟩
  | .hbm, ⟨1, _⟩ => ⟨S524288, .i32⟩
  | .hbm, ⟨2, _⟩ => ⟨S1x64, .f32⟩
  | .hbm, ⟨3, _⟩ => ⟨S1, .f32⟩
  | .hbm, ⟨4, _⟩ => ⟨S1000x1x3, .f32⟩
  | .hbm, ⟨5, _⟩ => ⟨S1000x3, .f32⟩
  | .hbm, ⟨6, _⟩ => ⟨S1000x3x1, .f32⟩
  | .hbm, ⟨7, _⟩ => ⟨S1000x3, .f32⟩
  | .hbm, ⟨8, _⟩ => ⟨S1000x3, .f32⟩
  | .hbm, ⟨9, _⟩ => ⟨S1000x9, .f32⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S524288x1, .i32⟩
  | .hbm, ⟨18, _⟩ => ⟨S524288x9, .f32⟩
  | .hbm, ⟨19, _⟩ => ⟨S1x1, .f32⟩
  | .hbm, ⟨20, _⟩ => ⟨S16x128, .f32⟩
  | .hbm, ⟨21, _⟩ => ⟨S1x1, .f32⟩
  | .hbm, ⟨22, _⟩ => ⟨S_, .f32⟩
  | .hbm, ⟨23, _⟩ => ⟨S1x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S4096x9, .f32⟩
  | .local _ .vmem, ⟨3, _⟩ => ⟨S4096x9, .f32⟩
  | .local _ .vmem, ⟨4, _⟩ => ⟨S1x64, .f32⟩
  | .local _ .vmem, ⟨5, _⟩ => ⟨S1x1, .f32⟩
  | .local _ .vmem, ⟨6, _⟩ => ⟨S8x128, .f32⟩
  | .local _ .vmem, ⟨7, _⟩ => ⟨S8x128, .f32⟩
  | .local _ .vmem, ⟨8, _⟩ => ⟨S1x1, .f32⟩
  | _, _ => ⟨S524288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 64], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c63_i32 : BitVec 32 := 63#32
  let v57 : BitVec 1 := Scalar.cmpi .eq arg1 c63_i32
  let v58 : BitVec 32 := Scalar.extui v57
  let c0_i32_21 : BitVec 32 := 0#32
  let v59 : BitVec 1 := Scalar.cmpi .ne v58 c0_i32_21
  v59

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S1000x1x3_S1000x3 : S1000x1x3.ShapeCasts S1000x3
  shapeCasts_S1000x3x1_S1000x3 : S1000x3x1.ShapeCasts S1000x3
  concatenates_S1000x3_S1000x3_S1000x3_S1000x9_d1 : Shape.Concatenates [S1000x3, S1000x3, S1000x3] S1000x9 1
  bcast_S_S524288 : S_.BroadcastsInDim S524288 (![] : Fin 0 → Fin S524288.rank)
  bcast_S524288_S524288x1_0 : S524288.BroadcastsInDim S524288x1 (![0] : Fin 1 → Fin S524288x1.rank)
  shapeCasts_S1_S1x1 : S1.ShapeCasts S1x1
  inb_S8x128_S8x128_0_0 : ∀ a, (![0, 0] : Fin 2 → Nat) a + S8x128.size a ≤ S8x128.size a
  h_S8x128 : 0 < S8x128.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x64_S4096x64_0_0 : ∀ a, (![0, 0] : Fin 2 → Nat) a + S4096x64.size a ≤ S4096x64.size a
  h_S4096x64 : 0 < S4096x64.numel
  inb_S4096x9_S4096x9_0_0 : ∀ a, (![0, 0] : Fin 2 → Nat) a + S4096x9.size a ≤ S4096x9.size a
  h_S4096x9 : 0 < S4096x9.numel
  shapeCasts_S4096x9_S4096x9 : S4096x9.ShapeCasts S4096x9
  inb_S1x64_S1x64_0_0 : ∀ a, (![0, 0] : Fin 2 → Nat) a + S1x64.size a ≤ S1x64.size a
  h_S1x64 : 0 < S1x64.numel
  inpos_S1x1_p0_0 : ∀ a, (![0, 0] : Fin 2 → Nat) a < S1x1.size a
  broadcasts_S1x64_S4096x64 : S1x64.Broadcasts S4096x64
  reduces_S4096x64_S4096 : S4096x64.Reduces [1] S4096
  shapeCasts_S4096_S4096x1 : S4096.ShapeCasts S4096x1
  slices_S4096x9_o0_0_S4096x3 : S4096x9.Slices ![0, 0] S4096x3
  slices_S4096x9_o0_3_S4096x3 : S4096x9.Slices ![0, 3] S4096x3
  slices_S4096x9_o0_6_S4096x3 : S4096x9.Slices ![0, 6] S4096x3
  broadcasts_S4096x1_S4096x3 : S4096x1.Broadcasts S4096x3
  reduces_S4096x3_S4096 : S4096x3.Reduces [1] S4096
  reduces_S4096x1_S1 : S4096x1.Reduces [0] S1
  inb_S8x128_S1x1_0_0 : ∀ a, (![0, 0] : Fin 2 → Nat) a + S1x1.size a ≤ S8x128.size a
  slices_S16x128_S1x1_0_0 : S16x128.Slices ![0, 0] S1x1
  shapeCasts_S1x1_S_ : S1x1.ShapeCasts S_
  slices_S16x128_S1x1_8_0 : S16x128.Slices ![8, 0] S1x1
  gather_S1000x9_S524288x1_S524288x9_1_0_n_n_0_1_19_wf : GatherDims.WF S1000x9 S524288x1 S524288x9 [1] [0] [] [0] [] 1 ![1, 9]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S524288x64.size a
  hwx0_0 : ∀ i : grid0.Coords, EltTy.bits .f32 = 32 ∨ (Rect.block (s := S524288x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x9.size a ≤ S524288x9.size a
  hwx0_1 : ∀ i : grid0.Coords, EltTy.bits .f32 = 32 ∨ (Rect.block (s := S524288x9) S4096x9.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S16x128.size a
  hwx0_4 : ∀ i : grid0.Coords, EltTy.bits .f32 = 32 ∨ (Rect.block (s := S16x128) S8x128.size (cc0_transform_4 i) (hinb0_4 i)).WholeWords (EltTy.packing .f32)

variable [Facts₀]

def gather_S1000x9_S524288x1_S524288x9_1_0_n_n_0_1_19 : GatherDims S1000x9 S524288x1 S524288x9 where
  offsetDims := [1]
  collapsedSliceDims := [0]
  operandBatchingDims := []
  startIndicesBatchingDims := []
  startIndexMap := [0]
  indexVectorDim := 1
  sliceSizes := ![1, 9]
  wf := gather_S1000x9_S524288x1_S524288x9_1_0_n_n_0_1_19_wf

abbrev win0_0 : Pipeline.Window sig grid0 :=
  Pipeline.Window.ofSpec (Memref.whole main_arg0) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S4096x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S524288x64 : Shape := ⟨2, ![524288, 64]⟩
abbrev S524288 : Shape := ⟨1, ![524288]⟩
abbrev S1x64 : Shape := ⟨2, ![1, 64]⟩
abbrev S1 : Shape := ⟨1, ![1]⟩
abbrev S1000x1x3 : Shape := ⟨3, ![1000, 1, 3]⟩
abbrev S1000x3 : Shape := ⟨2, ![1000, 3]⟩
abbrev S1000x3x1 : Shape := ⟨3, ![1000, 3, 1]⟩
abbrev S64x1 : Shape := ⟨2, ![64, 1]⟩
abbrev S524288x1 : Shape := ⟨2, ![524288, 1]⟩
abbrev S1x1 : Shape := ⟨2, ![1, 1]⟩
abbrev S_ : Shape := ⟨0, ![]⟩
abbrev S524288x2 : Shape := ⟨2, ![524288, 2]⟩
abbrev S524288x3 : Shape := ⟨2, ![524288, 3]⟩

abbrev nBuf : Space → Nat
  | .hbm => 90
  | .vmem => 0
  | .smem => 0
  | _ => 0

abbrev bufTy : (tb : Table) → Fin (tcTables nBuf tb) → BufTy
  | .hbm, ⟨0, _⟩ => ⟨S524288x64, .f32⟩
  | .hbm, ⟨1, _⟩ => ⟨S524288, .i32⟩
  | .hbm, ⟨2, _⟩ => ⟨S1x64, .f32⟩
  | .hbm, ⟨3, _⟩ => ⟨S1, .f32⟩
  | .hbm, ⟨4, _⟩ => ⟨S1000x1x3, .f32⟩
  | .hbm, ⟨5, _⟩ => ⟨S1000x3, .f32⟩
  | .hbm, ⟨6, _⟩ => ⟨S1000x3x1, .f32⟩
  | .hbm, ⟨7, _⟩ => ⟨S64x1, .f32⟩
  | .hbm, ⟨8, _⟩ => ⟨S524288x1, .f32⟩
  | .hbm, ⟨9, _⟩ => ⟨S1x1, .f32⟩
  | .hbm, ⟨10, _⟩ => ⟨S524288x1, .f32⟩
  | .hbm, ⟨11, _⟩ => ⟨S524288x1, .f32⟩
  | .hbm, ⟨12, _⟩ => ⟨S_, .i32⟩
  | .hbm, ⟨13, _⟩ => ⟨S524288, .i32⟩
  | .hbm, ⟨14, _⟩ => ⟨S524288, .i1⟩
  | .hbm, ⟨15, _⟩ => ⟨S_, .i32⟩
  | .hbm, ⟨16, _⟩ => ⟨S524288, .i32⟩
  | .hbm, ⟨17, _⟩ => ⟨S524288, .i32⟩
  | .hbm, ⟨18, _⟩ => ⟨S524288, .i32⟩
  | .hbm, ⟨19, _⟩ => ⟨S_, .i32⟩
  | .hbm, ⟨20, _⟩ => ⟨S524288, .i32⟩
  | .hbm, ⟨21, _⟩ => ⟨S524288, .i32⟩
  | .hbm, ⟨22, _⟩ => ⟨S524288x1, .i32⟩
  | .hbm, ⟨23, _⟩ => ⟨S524288x1, .i32⟩
  | .hbm, ⟨24, _⟩ => ⟨S524288x2, .i32⟩
  | .hbm, ⟨25, _⟩ => ⟨S524288x3, .f32⟩
  | .hbm, ⟨26, _⟩ => ⟨S_, .i32⟩
  | .hbm, ⟨27, _⟩ => ⟨S524288, .i32⟩
  | .hbm, ⟨28, _⟩ => ⟨S524288, .i1⟩
  | .hbm, ⟨29, _⟩ => ⟨S_, .i32⟩
  | .hbm, ⟨30, _⟩ => ⟨S524288, .i32⟩
  | .hbm, ⟨31, _⟩ => ⟨S524288, .i32⟩
  | .hbm, ⟨32, _⟩ => ⟨S524288, .i32⟩
  | .hbm, ⟨33, _⟩ => ⟨S524288x1, .i32⟩
  | .hbm, ⟨34, _⟩ => ⟨S524288x3, .f32⟩
  | .hbm, ⟨35, _⟩ => ⟨S_, .i32⟩
  | .hbm, ⟨36, _⟩ => ⟨S524288, .i32⟩
  | .hbm, ⟨37, _⟩ => ⟨S524288, .i1⟩
  | .hbm, ⟨38, _⟩ => ⟨S_, .i32⟩
  | .hbm, ⟨39, _⟩ => ⟨S524288, .i32⟩
  | .hbm, ⟨40, _⟩ => ⟨S524288, .i32⟩
  | .hbm, ⟨41, _⟩ => ⟨S524288, .i32⟩
  | .hbm, ⟨42, _⟩ => ⟨S_, .i32⟩
  | .hbm, ⟨43, _⟩ => ⟨S524288, .i32⟩
  | .hbm, ⟨44, _⟩ => ⟨S524288, .i32⟩
  | .hbm, ⟨45, _⟩ => ⟨S524288x1, .i32⟩
  | .hbm, ⟨46, _⟩ => ⟨S524288x1, .i32⟩
  | .hbm, ⟨47, _⟩ => ⟨S524288x2, .i32⟩
  | .hbm, ⟨48, _⟩ => ⟨S524288x3, .f32⟩
  | .hbm, ⟨49, _⟩ => ⟨S524288x3, .f32⟩
  | .hbm, ⟨50, _⟩ => ⟨S524288x3, .f32⟩
  | .hbm, ⟨51, _⟩ => ⟨S524288x3, .f32⟩
  | .hbm, ⟨52, _⟩ => ⟨S_, .f32⟩
  | .hbm, ⟨53, _⟩ => ⟨S524288, .f32⟩
  | .hbm, ⟨54, _⟩ => ⟨S_, .f32⟩
  | .hbm, ⟨55, _⟩ => ⟨S524288, .f32⟩
  | .hbm, ⟨56, _⟩ => ⟨S524288, .f32⟩
  | .hbm, ⟨57, _⟩ => ⟨S524288x1, .f32⟩
  | .hbm, ⟨58, _⟩ => ⟨S524288x3, .f32⟩
  | .hbm, ⟨59, _⟩ => ⟨S524288x3, .f32⟩
  | .hbm, ⟨60, _⟩ => ⟨S524288x3, .f32⟩
  | .hbm, ⟨61, _⟩ => ⟨S_, .f32⟩
  | .hbm, ⟨62, _⟩ => ⟨S524288, .f32⟩
  | .hbm, ⟨63, _⟩ => ⟨S524288x1, .f32⟩
  | .hbm, ⟨64, _⟩ => ⟨S524288x3, .f32⟩
  | .hbm, ⟨65, _⟩ => ⟨S524288x3, .f32⟩
  | .hbm, ⟨66, _⟩ => ⟨S524288x64, .f32⟩
  | .hbm, ⟨67, _⟩ => ⟨S_, .f32⟩
  | .hbm, ⟨68, _⟩ => ⟨S524288, .f32⟩
  | .hbm, ⟨69, _⟩ => ⟨S524288x1, .f32⟩
  | .hbm, ⟨70, _⟩ => ⟨S_, .f32⟩
  | .hbm, ⟨71, _⟩ => ⟨S524288, .f32⟩
  | .hbm, ⟨72, _⟩ => ⟨S524288x1, .f32⟩
  | .hbm, ⟨73, _⟩ => ⟨S_, .f32⟩
  | .hbm, ⟨74, _⟩ => ⟨S524288x3, .f32⟩
  | .hbm, ⟨75, _⟩ => ⟨S524288x3, .f32⟩
  | .hbm, ⟨76, _⟩ => ⟨S524288x3, .f32⟩
  | .hbm, ⟨77, _⟩ => ⟨S524288x3, .f32⟩
  | .hbm, ⟨78, _⟩ => ⟨S524288x3, .f32⟩
  | .hbm, ⟨79, _⟩ => ⟨S524288x3, .f32⟩
  | .hbm, ⟨80, _⟩ => ⟨S_, .f32⟩
  | .hbm, ⟨81, _⟩ => ⟨S524288x3, .f32⟩
  | .hbm, ⟨82, _⟩ => ⟨S524288x3, .f32⟩
  | .hbm, ⟨83, _⟩ => ⟨S524288x3, .f32⟩
  | .hbm, ⟨84, _⟩ => ⟨S524288x3, .f32⟩
  | .hbm, ⟨85, _⟩ => ⟨S524288x3, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S524288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_cst_10 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_13 : Ref sig .tc := ⟨.hbm, 86, rfl⟩
abbrev main_v64 : Ref sig .tc := ⟨.hbm, 87, rfl⟩
abbrev main_cst_14 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  transposes_S1x64_S64x1_1_0 : S1x64.Transposes [1, 0] S64x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  bcast_S_S524288 : S_.BroadcastsInDim S524288 (![] : Fin 0 → Fin S524288.rank)
  bcast_S524288_S524288x1_0 : S524288.BroadcastsInDim S524288x1 (![0] : Fin 1 → Fin S524288x1.rank)
  concatenates_S524288x1_S524288x1_S524288x2_d1 : Shape.Concatenates [S524288x1, S524288x1] S524288x2 1
  bcast_S524288x1_S524288x3_0_1 : S524288x1.BroadcastsInDim S524288x3 (![0, 1] : Fin 2 → Fin S524288x3.rank)
  reducesTo_S524288x3_S524288_d1 : S524288x3.ReducesTo [1] S524288
  h_S_ : 0 < S_.numel
  reducesTo_S524288x64_S524288_d1 : S524288x64.ReducesTo [1] S524288
  bcast_S_S524288x3 : S_.BroadcastsInDim S524288x3 (![] : Fin 0 → Fin S524288x3.rank)
  reducesTo_S524288x3_S_d0_1 : S524288x3.ReducesTo [0, 1] S_
  dot_S524288x64_S64x1_S524288x1_1_0_0_1_n_n_wf : DotDims.WF S524288x64 S64x1 S524288x1 [1] [0] [0] [1] [] []
  gather_S1000x1x3_S524288x2_S524288x3_1_01_n_n_01_1_113_wf : GatherDims.WF S1000x1x3 S524288x2 S524288x3 [1] [0, 1] [] [0, 1] [] 1 ![1, 1, 3]
  gather_S1000x3_S524288x1_S524288x3_1_0_n_n_0_1_13_wf : GatherDims.WF S1000x3 S524288x1 S524288x3 [1] [0] [] [0] [] 1 ![1, 3]
  gather_S1000x3x1_S524288x2_S524288x3_1_02_n_n_02_1_131_wf : GatherDims.WF S1000x3x1 S524288x2 S524288x3 [1] [0, 2] [] [0, 2] [] 1 ![1, 3, 1]

variable [Facts₀]

def dot_S524288x64_S64x1_S524288x1_1_0_0_1_n_n : DotDims S524288x64 S64x1 S524288x1 where
  lhsContracting := [1]
  rhsContracting := [0]
  lhsNonContracting := [0]
  rhsNonContracting := [1]
  lhsBatch := []
  rhsBatch := []
  wf := dot_S524288x64_S64x1_S524288x1_1_0_0_1_n_n_wf
def gather_S1000x1x3_S524288x2_S524288x3_1_01_n_n_01_1_113 : GatherDims S1000x1x3 S524288x2 S524288x3 where
  offsetDims := [1]
  collapsedSliceDims := [0, 1]
  operandBatchingDims := []
  startIndicesBatchingDims := []
  startIndexMap := [0, 1]
  indexVectorDim := 1
  sliceSizes := ![1, 1, 3]
  wf := gather_S1000x1x3_S524288x2_S524288x3_1_01_n_n_01_1_113_wf
def gather_S1000x3_S524288x1_S524288x3_1_0_n_n_0_1_13 : GatherDims S1000x3 S524288x1 S524288x3 where
  offsetDims := [1]
  collapsedSliceDims := [0]
  operandBatchingDims := []
  startIndicesBatchingDims := []
  startIndexMap := [0]
  indexVectorDim := 1
  sliceSizes := ![1, 3]
  wf := gather_S1000x3_S524288x1_S524288x3_1_0_n_n_0_1_13_wf
def gather_S1000x3x1_S524288x2_S524288x3_1_02_n_n_02_1_131 : GatherDims S1000x3x1 S524288x2 S524288x3 where
  offsetDims := [1]
  collapsedSliceDims := [0, 2]
  operandBatchingDims := []
  startIndicesBatchingDims := []
  startIndexMap := [0, 2]
  indexVectorDim := 1
  sliceSizes := ![1, 3, 1]
  wf := gather_S1000x3x1_S524288x2_S524288x3_1_02_n_n_02_1_131_wf

class Facts : Prop extends Facts₀ where

variable [Facts]
-- ==== Proof.BitsFrameKit.lean ====
/-
  What the frame of the program Kernel is stated over. @main is thirteen host
  operations (two reshapes, a three-way concatenation into the [1000,9] table, the wrap of negative labels, the row
  gather, a reshape), ONE pipelined region over the grid 2 x 64, and seven host operations after it (two 1x1 slices of
  the [16,128] result, their sum, the division by 524288).

  Here: the contents of the device buffers when the region is entered (V0, V); @main as "region continued by the later
  lines"; that the later lines touch only unscoped buffers, allocate nothing and write no array of the pipeline; that no
  host line writes an argument array; each input window's block at a grid point; the two branch conditions of the body
  in closed form over the 128 grid points (the first holds where the inner coordinate is 0, the second where it is 63);
  where the output window is idle and where it is written back; the memrefs the body is called with.
-/
import proofs.«156799_j71476845740091_2_alg».proof.Proof.Gen.Kernel.Launch
import proofs.«156799_j71476845740091_2_alg».proof.Proof.Gen.Kernel.Skeleton
import proofs.«156799_j71476845740091_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The device buffers' contents when the region is entered: after the thirteen host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it: it reduces to the region continued
    by the later lines, entered at the contents V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, which is none of the five arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes the buffer b, given that b is none of the thirteen result buffers. -/
theorem V_of_not_written (c : Dev nD) (b : Ref sig .tc)
    (hb : b ≠ main_v0 ∧ b ≠ main_v1 ∧ b ≠ main_v2 ∧ b ≠ main_c ∧ b ≠ main_v3 ∧ b ≠ main_v4 ∧ b ≠ main_c_0 ∧ b ≠ main_v5
      ∧ b ≠ main_v6 ∧ b ≠ main_v7 ∧ b ≠ main_v8 ∧ b ≠ main_v9 ∧ b ≠ main_v10) :
    V m c b = m ((c : Thread nD τ).loc b) := by
  obtain ⟨h0, h1, h2, h3, h4, h5, h6, h7, h8, h9, h10, h11, h12⟩ := hb
  exact StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by assumption)))

/-- No host line after the region writes the buffer b, given that b is none of their seven result buffers and no array of
    the pipeline: it ends at what the region found. -/
theorem W_of_not_written (dats : (p : Fin _) → (c : Dev nD) → Dat τ (Elt F) Unit ℕ (UR sig nD τ) ℕ (cfgs p) c) (c : Dev nD)
    (b : Ref sig .tc)
    (hb : b ≠ main_v12 ∧ b ≠ main_v13 ∧ b ≠ main_v14 ∧ b ≠ main_v15 ∧ b ≠ main_v16 ∧ b ≠ main_cst ∧ b ≠ main_v17)
    (harr : ∀ w, Pipeline.arrRef spec0 w ≠ b) :
    Pipeline.afterTail₀ cfgs dats 0 (V0 m) [hostOps1] c b = V m c b := by
  obtain ⟨h0, h1, h2, h3, h4, h5, h6⟩ := hb
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by assumption))),
    Pipeline.withArrays_of_ne _ c (V0 m c) _ b harr]

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is V's and whose body leaves the block in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional of the body (reset the output block and the accumulator). -/
abbrev cond0_0 (i : grid0.Coords) : Prop := k0_cond1 i = 1#1
/-- It holds where the inner grid coordinate is 0: at the points ≡ 0 (mod 64). -/
theorem hcond0_0 : ∀ t : Fin cfg0.N, cond0_0 (grid0.coords t) ↔ t.val % 64 = 0 :=
  (by decide +kernel : ∀ t : Fin grid0.N, cond0_0 (grid0.coords t) ↔ t.val % 64 = 0)

/-- The second conditional of the body (copy the accumulator into the output block's corner). -/
abbrev cond0_1 (i : grid0.Coords) : Prop := k0_cond2 i = 1#1
/-- It holds where the inner grid coordinate is 63: at the points ≡ 63 (mod 64). -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the first conditional is taken the output window is live (the body stores its whole block). -/
theorem liveAt0_4_A : ∀ t : Fin cfg0.N, cond0_0 (grid0.coords t) → ¬cond0_1 (grid0.coords t) → cfg0.idle 4 (grid0.coords t) = false := by decide +kernel
/-- Where neither is taken the output window is idle: the body stores nothing into it, -/
theorem idleAt0_4_B : ∀ t : Fin cfg0.N, ¬cond0_0 (grid0.coords t) → ¬cond0_1 (grid0.coords t) → cfg0.idle 4 (grid0.coords t) = true := by decide +kernel
/-- and the pipeline does not write its block back there. -/
theorem noFlush0_4_B : ∀ t : Fin cfg0.N, ¬cond0_0 (grid0.coords t) → ¬cond0_1 (grid0.coords t) → (cfg0.win 4).flush t = false := by decide +kernel
/-- Where the second conditional is taken the output window is live. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S8x128 .f32 := (Memref.whole cc0_stg4_0 : Memref sig .tc .vmem S8x128 .f32).view
abbrev ms0_0 (t : Fin cfg0.N) : Memref sig .tc .vmem S4096x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x9 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
/-- The scratch operand: the 1x1 accumulator, a whole scoped buffer of the kernel's own. -/
abbrev scM0_0 : Memref sig .tc .vmem S1x1 .f32 := Memref.whole cc0_scratch0
abbrev VS0_0 : View sig .tc .vmem S1x1 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frm

end
-- ==== Proof.BitsRunFirst.lean ====
/-
  The kernel body of Kernel run symbolically on whole staging memrefs, at a point where the first conditional is taken and the second is not (the first of a core's 64 steps): the inputs' buffers at their contents, the output block's and the accumulator's at anything.
  The body first (only where the inner grid coordinate is 0) stores zeros over the whole 8x128 output block and over the
  1x1 accumulator; then loads the 4096x64 block of x, the 4096x9 block of gathered parameters, the 1x64 weight row and
  the 1x1 bias, reads the accumulator and stores back accumulator + (the block's partial sum); last (only where the
  inner coordinate is 63) copies the accumulator into the corner [0,0] of the output block.
  The statement names the PIECES each buffer ends with (last store first); they are found by the run itself.
-/
import proofs.«156799_j71476845740091_2_alg».proof.Proof.BitsFrameKit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first step of a core: the output block ends with zeros stored whole, the accumulator with zero and then
    zero + the block's partial sum. -/
noncomputable def kernelRun0_A (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : cond0_0 i) (hc1 : ¬cond0_1 i)
    (x0 : Vec F S4096x64 .f32) (x1 : Vec F S4096x9 .f32) (x2 : Vec F S1x64 .f32) (x3 : Vec F S1x1 .f32) :
    Σ' (L4 : List (View.Piece (Elt F) S8x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Frm

end
-- ==== Proof.BitsRunMiddle.lean ====
/-
  The kernel body of Kernel run symbolically on whole staging memrefs, at a point where neither conditional is taken (steps 1 to 62 of a core): the inputs' buffers at their contents, the output block's at contents handed back untouched, the accumulator's at the contents the step before left.
  The body first (only where the inner grid coordinate is 0) stores zeros over the whole 8x128 output block and over the
  1x1 accumulator; then loads the 4096x64 block of x, the 4096x9 block of gathered parameters, the 1x64 weight row and
  the 1x1 bias, reads the accumulator and stores back accumulator + (the block's partial sum); last (only where the
  inner coordinate is 63) copies the accumulator into the corner [0,0] of the output block.
  The statement names the PIECES each buffer ends with (last store first); they are found by the run itself.
-/
import proofs.«156799_j71476845740091_2_alg».proof.Proof.BitsRunFirst

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step: nothing is stored into the output block; the accumulator ends with its old contents + the block's
    partial sum. -/
noncomputable def kernelRun0_B (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : ¬cond0_1 i)
    (x0 : Vec F S4096x64 .f32) (x1 : Vec F S4096x9 .f32) (x2 : Vec F S1x64 .f32) (x3 : Vec F S1x1 .f32) (xs0 : Vec F S1x1 .f32) :
    { LS0 : List (View.Piece (Elt F) S1x1 .f32) //
      ∀ (xi4 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (arg7.view.loc (c : Thread nD τ) ↦[arg7.view.set]{fullShare} arg7.view.writes (Elt F) (harg7.unread xs0) LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexact HS0

end Cert.Kernel.Frm

end
-- ==== Proof.BitsRunLast.lean ====
/-
  The kernel body of Kernel run symbolically on whole staging memrefs, at a point where the second conditional is taken and the first is not (the last of a core's 64 steps): the inputs' buffers at their contents, the output block's at the contents the first step left and the middle steps kept, the accumulator's at the contents the step before left.
  The body first (only where the inner grid coordinate is 0) stores zeros over the whole 8x128 output block and over the
  1x1 accumulator; then loads the 4096x64 block of x, the 4096x9 block of gathered parameters, the 1x64 weight row and
  the 1x1 bias, reads the accumulator and stores back accumulator + (the block's partial sum); last (only where the
  inner coordinate is 63) copies the accumulator into the corner [0,0] of the output block.
  The statement names the PIECES each buffer ends with (last store first); they are found by the run itself.
-/
import proofs.«156799_j71476845740091_2_alg».proof.Proof.BitsRunMiddle

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last step of a core: the accumulator ends with its old contents + the block's partial sum, and the output block
    with that value stored at its corner [0,0] over what it held. -/
noncomputable def kernelRun0_C (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : cond0_1 i)
    (x0 : Vec F S4096x64 .f32) (x1 : Vec F S4096x9 .f32) (x2 : Vec F S1x64 .f32) (x3 : Vec F S1x1 .f32) (xo4 : Vec F S8x128 .f32) (xs0 : Vec F S1x1 .f32) :
    Σ' (L4 : List (View.Piece (Elt F) S8x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread xo4) L4) ∗ (arg7.view.loc (c : Thread nD τ) ↦[arg7.view.set]{fullShare} arg7.view.writes (Elt F) (harg7.unread xs0) LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    iexact HS0

end Cert.Kernel.Frm

end
-- ==== Proof.LibOverlay.lean ====
/-
  Pieces written over KNOWN contents, read back without a view.

  A list of unmasked rectangle writes (last first) over contents that read X leaves, at each index, the payload of the
  first piece of the list whose rectangle holds the index, and X at an index no piece holds. This is what a read of the
  written contents gives through ANY view of the shape — no cover of the shape by the pieces is needed, because the
  contents underneath are known. (The library's canon is the same function with an arbitrary value underneath, which is
  why it needs a cover or a junk base.)
-/
import Idealize.ShloMosaic.Lib.Pipeline.FrameBody

noncomputable section

namespace Idealize.ShloMosaic.View

variable {sig : RefSig} {κ : Kind} {sp : Space} {s : Shape} {e : EltTy} {Val : EltTy → Type}

/-- The contents the writes L (last first) leave over contents reading X. -/
def over (X : s.Idx → Val e) : List (Piece Val s e) → s.Idx → Val e
  | [] => X
  | p :: L => p.1.overlay (over X L) p.2

@[simp] theorem over_nil (X : s.Idx → Val e) : over X ([] : List (Piece Val s e)) = X := rfl
theorem over_cons (X : s.Idx → Val e) (p : Piece Val s e) (L : List (Piece Val s e)) :
    over X (p :: L) = p.1.overlay (over X L) p.2 := rfl

/-- Under the last write it is that write's payload; -/
theorem over_cons_emb (X : s.Idx → Val e) (r : Rect s) (w : r.shape.Idx → Val e) (L : List (Piece Val s e)) (x : r.shape.Idx) :
    over X (⟨r, w⟩ :: L) (r.emb x) = w x := by
  rw [over_cons]; exact r.overlay_emb _ _ x

/-- off it, what the earlier writes left. -/
theorem over_cons_of_not_mem (X : s.Idx → Val e) (p : Piece Val s e) (L : List (Piece Val s e)) {y : s.Idx}
    (h : y ∉ p.1.set) : over X (p :: L) y = over X L y := by
  rw [over_cons]; exact p.1.overlay_of_not_mem _ _ h

/-- A read of written contents, through any view and at any index, is the overlay of the pieces on what the prior
    contents read. -/
theorem read_writes_apply_eq_over (v : View sig κ sp s e) (f : v.ty.Contents Val) (y : s.Idx) :
    ∀ L : List (Piece Val s e), v.read Val (v.writes Val f L) y = over (v.read Val f) L y
  | [] => by rw [writes_nil, over_nil]
  | p :: L => by
    by_cases hy : y ∈ p.1.set
    · obtain ⟨r, w⟩ := p
      obtain ⟨x, rfl⟩ : ∃ x, r.emb x = y := r.exists_idx_of_mem hy
      rw [read_writes_cons_emb, over_cons_emb]
    · have hy' : y ∉ Finset.univ.map p.1.emb := by rwa [Rect.map_emb_univ]
      rw [writes_cons, read_slice_write_of_not_mem p.1 _ _ _ hy', over_cons_of_not_mem _ p L hy]
      exact read_writes_apply_eq_over v f y L

theorem read_writes_eq_over (v : View sig κ sp s e) (f : v.ty.Contents Val) (L : List (Piece Val s e)) :
    v.read Val (v.writes Val f L) = over (v.read Val f) L :=
  funext fun y => read_writes_apply_eq_over v f y L

end Idealize.ShloMosaic.View

end
-- ==== Proof.BitsFrame.lean ====
/-
  The frame of the program Kernel: every weakly fair execution of @main terminates without a fault and leaves the seven
  argument arrays unchanged — together with what the run leaves in the pipeline's result array, which a value claim reads.

  The grid has 128 points, 64 per core. At a core's first point the body zeroes the 8x128 output block and the 1x1
  accumulator, then adds the point's partial sum to the accumulator; at its middle points it only adds; at its last point
  it adds and then copies the accumulator into the output block's corner, and the pipeline writes the block back. So
  point by point the pair (output block's buffer, accumulator) is: at a first point the two lists of pieces the run found,
  read over nothing; at a middle point the block as the point before left it and the accumulator's pieces over what the
  point before left; at a last point both lists of pieces over what the point before left.
-/
import proofs.«156799_j71476845740091_2_alg».proof.Proof.BitsRunLast
import proofs.«156799_j71476845740091_2_alg».proof.Proof.LibOverlay

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first point the stores into the output block tile it (one store of the whole block). -/
theorem cover0_A_4 (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : cond0_0 i) (hc1 : ¬cond0_1 i)
    (x0 : Vec F S4096x64 .f32) (x1 : Vec F S4096x9 .f32) (x2 : Vec F S1x64 .f32) (x3 : Vec F S1x1 .f32) (y : S8x128.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S8x128.size (by sl_kernel_rfl) y

/-- What a first point leaves in the output block's buffer. -/
def out0_A_4 (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : cond0_0 i) (hc1 : ¬cond0_1 i)
    (x0 : Vec F S4096x64 .f32) (x1 : Vec F S4096x9 .f32) (x2 : Vec F S1x64 .f32) (x3 : Vec F S1x1 .f32) : Vec F S8x128 .f32 :=
  View.canon (kernelRun0_A c i arg2 harg2 arg3 harg3 arg4 harg4 arg5 harg5 arg6 harg6 arg7 harg7 hc0 hc1 x0 x1 x2 x3).1

/-- At a first point the stores into the accumulator tile it (two stores of the whole 1x1). -/
theorem scover0_A_0 (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : cond0_0 i) (hc1 : ¬cond0_1 i)
    (x0 : Vec F S4096x64 .f32) (x1 : Vec F S4096x9 .f32) (x2 : Vec F S1x64 .f32) (x3 : Vec F S1x1 .f32) (y : S1x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1x1.size (by sl_kernel_rfl) y

/-- What a first point leaves in the accumulator. -/
def sout0_A_0 (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : cond0_0 i) (hc1 : ¬cond0_1 i)
    (x0 : Vec F S4096x64 .f32) (x1 : Vec F S4096x9 .f32) (x2 : Vec F S1x64 .f32) (x3 : Vec F S1x1 .f32) : Vec F S1x1 .f32 :=
  View.canon (kernelRun0_A c i arg2 harg2 arg3 harg3 arg4 harg4 arg5 harg5 arg6 harg6 arg7 harg7 hc0 hc1 x0 x1 x2 x3).2.1

/-- What a middle point leaves in the accumulator: its pieces over what it held. -/
def sout0_B_0 (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : ¬cond0_1 i)
    (x0 : Vec F S4096x64 .f32) (x1 : Vec F S4096x9 .f32) (x2 : Vec F S1x64 .f32) (x3 : Vec F S1x1 .f32) (xs0 : Vec F S1x1 .f32) : Vec F S1x1 .f32 :=
  View.over xs0 (kernelRun0_B c i arg2 harg2 arg3 harg3 arg4 harg4 arg5 harg5 arg6 harg6 arg7 harg7 hc0 hc1 x0 x1 x2 x3 xs0).1

/-- What a last point leaves in the output block's buffer: its pieces over what the buffer held. -/
def out0_C_4 (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : cond0_1 i)
    (x0 : Vec F S4096x64 .f32) (x1 : Vec F S4096x9 .f32) (x2 : Vec F S1x64 .f32) (x3 : Vec F S1x1 .f32) (xo4 : Vec F S8x128 .f32) (xs0 : Vec F S1x1 .f32) : Vec F S8x128 .f32 :=
  View.over xo4 (kernelRun0_C c i arg2 harg2 arg3 harg3 arg4 harg4 arg5 harg5 arg6 harg6 arg7 harg7 hc0 hc1 x0 x1 x2 x3 xo4 xs0).1

/-- What a last point leaves in the accumulator. -/
def sout0_C_0 (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : cond0_1 i)
    (x0 : Vec F S4096x64 .f32) (x1 : Vec F S4096x9 .f32) (x2 : Vec F S1x64 .f32) (x3 : Vec F S1x1 .f32) (xo4 : Vec F S8x128 .f32) (xs0 : Vec F S1x1 .f32) : Vec F S1x1 .f32 :=
  View.over xs0 (kernelRun0_C c i arg2 harg2 arg3 harg3 arg4 harg4 arg5 harg5 arg6 harg6 arg7 harg7 hc0 hc1 x0 x1 x2 x3 xo4 xs0).2.1

/-! ## What the output block's buffer and the accumulator hold after each point -/

/-- The pair (output block's buffer, accumulator) after the body at position n, by recursion on n. -/
def outsAt0 (c : Dev nD) : (n : ℕ) → n < cfg0.N → Vec F S8x128 .f32 × Vec F S1x1 .f32
  | 0, hn =>
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 64 = 0 then
      if h1 : (n + 1) % 64 = 63 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 64 = 63 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2)
      else
        ((outsAt0 c n (Nat.lt_of_succ_lt hn)).1,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a first point. -/
theorem outsAt0_A (c : Dev nD) (t : Fin cfg0.N) (h0 : t.val % 64 = 0) (h1 : ¬t.val % 64 = 63) :
    outsAt0 m c t.val t.isLt =
      (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t),
       sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a middle point: the block as the point before left it, the accumulator's pieces over what the point before left. -/
theorem outsAt0_B (c : Dev nD) (t : Fin cfg0.N) (h0 : ¬t.val % 64 = 0) (h1 : ¬t.val % 64 = 63) :
    outsAt0 m c t.val t.isLt =
      ((outsAt0 m c (t.val - 1) (Nat.lt_of_le_of_lt (Nat.sub_le _ _) t.isLt)).1,
       sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point: both lists of pieces over what the point before left. -/
theorem outsAt0_C (c : Dev nD) (t : Fin cfg0.N) (h0 : ¬t.val % 64 = 0) (h1 : t.val % 64 = 63) :
    outsAt0 m c t.val t.isLt =
      (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2,
       sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's (the accumulator at anything); afterwards
    the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point t each input's buffer at its block and the output
    block's at the first component of the recursion; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Before any point but a core's first, the output block's buffer holds what the recursion says the point before left:
    the block is written back only after a core's last point, a first point stores it whole, and a middle point hands
    it back untouched. By induction on the point. -/
theorem before0_4_pos (c : Dev nD) : ∀ (n : ℕ) (hn : n < cfg0.N), n % 64 ≠ 0 → ∀ d,
    (dats m 0 c).before 4 ⟨n, hn⟩ d = (outsAt0 m c (n - 1) (Nat.lt_of_le_of_lt (Nat.sub_le _ _) hn)).1 := by
  intro n
  induction n using Nat.strong_induction_on with
  | _ n ih =>
    intro hn hmod d
    have hn0 : n ≠ 0 := by rintro rfl; exact hmod (Nat.zero_mod _)
    have hN : n < 128 := lt_of_lt_of_eq hn (show cfg0.N = 128 from N_0)
    have hn1 : n - 1 < cfg0.N := Nat.lt_of_le_of_lt (Nat.sub_le _ _) hn
    rw [(dats m 0 c).before_of_pos 4 ⟨n, hn⟩ hn0 ((cfg0.win 4).fetch_out rfl _)]
    have hfl : (cfg0.win 4).flush ⟨n - 1, hn1⟩ = false :=
      Bool.eq_false_iff.mpr fun h => by have := (flush0_4 _).mp h; dsimp only at this; omega
    rw [if_neg (by rw [hfl]; exact Bool.false_ne_true)]
    unfold Dat.left
    by_cases h1 : (n - 1) % 64 = 0
    · rw [liveAt0_4_A ⟨n - 1, hn1⟩ ((hcond0_0 _).mpr h1) (fun h => by have := (hcond0_1 _).mp h; dsimp only at this; omega)]
      dsimp only
      unfold Dat.kept
      rw [Pipeline.fill_of_clip_none 4 _ (fun _ => rfl) d ((dats m 0 c).after 4 ⟨n - 1, hn1⟩), Window.fill_cut]
      exact after0_4 m c ⟨n - 1, hn1⟩
    · rw [idleAt0_4_B ⟨n - 1, hn1⟩ (fun h => h1 ((hcond0_0 _).mp h)) (fun h => by have := (hcond0_1 _).mp h; dsimp only at this; omega)]
      dsimp only
      rw [ih (n - 1) (by omega) hn1 h1 d]
      have hB := outsAt0_B m c ⟨n - 1, hn1⟩ h1 (by dsimp only; omega)
      exact (congrArg Prod.fst hB).symm

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 4800000 in
/-- The body at any point: the inputs' buffers hold their blocks; the closed forms of the two conditions say which case
    the point is in; the case's run applies; the invariant hands the body the accumulator at what the point before left
    (at anything at the very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [(leaves_in m c t).1, (leaves_in m c t).2.1, (leaves_in m c t).2.2.1, (leaves_in m c t).2.2.2]
  have hN : t.val < 128 := lt_of_lt_of_eq t.isLt (show cfg0.N = 128 from N_0)
  by_cases h0 : t.val % 64 = 0
  · have h1 : ¬t.val % 64 = 63 := by omega
    rw [show (dats m 0 c).leavesExact 4 t = owns (c : Thread nD τ) (ms0_4 t) fullShare ((dats m 0 c).after 4 t) from by
      unfold Dat.leavesExact; rw [liveAt0_4_A t ((hcond0_0 t).mpr h0) (fun h => h1 ((hcond0_1 t).mp h))], after0_4]
    rw [outsAt0_A m c t h0 h1]
    unfold out0_A_4 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_eq_canon _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_eq_canon _ _ _ (cover0_A_4 c _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_eq_canon _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_eq_canon _ _ _ (cover0_A_4 c _ _ _ _ _ _ _ _ _ _ _ _ _ _ _ _ _ _ _)
  · have hz : t.val ≠ 0 := by rintro h; exact h0 (by rw [h])
    by_cases h1 : t.val % 64 = 63
    · rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      simp only [before0_4_pos m c t.val t.isLt h0]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _ _).2.2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · unfold owns; iexists _; isplitr
          swap; · iexact HS0
          ipureintro
          exact (View.read_writes_eq_over _ _ _).trans (congrArg (View.over · _) ((Memref.isWhole_whole _).read_unread _))
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_eq_over _ _ _).trans (congrArg (View.over · _) ((hs0_4 t).read_unread _))
    · rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · unfold owns; iexists _; isplitr
          swap; · iexact HS0
          ipureintro
          exact (View.read_writes_eq_over _ _ _).trans (congrArg (View.over · _) ((Memref.isWhole_whole _).read_unread _))
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has every array of the pipeline at what the
    proof data computes and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The seven argument arrays end as launched: x and the weight row are inputs the pipeline stages (their arrays end at
    the region-entry contents, which no earlier host line wrote); the other five bypass the region, and no host line
    writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hV : ∀ (c : Dev nD) (b : Ref sig .tc), (b = main_arg0 ∨ b = main_arg1 ∨ b = main_arg2 ∨ b = main_arg3 ∨ b = main_arg4 ∨ b = main_arg5 ∨ b = main_arg6) →
      V m c b = m ((c : Thread nD τ).loc b) := fun c b hb =>
    V_of_not_written m c b (by rcases hb with rfl | rfl | rfl | rfl | rfl | rfl | rfl <;> decide)
  have hW : ∀ (c : Dev nD) (b : Ref sig .tc), (b = main_arg1 ∨ b = main_arg3 ∨ b = main_arg4 ∨ b = main_arg5 ∨ b = main_arg6) →
      Pipeline.afterTail₀ cfgs (dats m) 0 (V0 m) [hostOps1] c b = m ((c : Thread nD τ).loc b) := fun c b hb =>
    (W_of_not_written m (dats m) c b (by rcases hb with rfl | rfl | rfl | rfl | rfl <;> decide)
      (by rcases hb with rfl | rfl | rfl | rfl | rfl <;> decide)).trans
      (hV c b (by rcases hb with rfl | rfl | rfl | rfl | rfl <;> simp))
  refine (θ_run defs _ _).mono (fun _ h c => ⟨?_, ?_, ?_, ?_, ?_, ?_, ?_⟩) (run_main m ρ)
  · exact ((h c).1 0).trans (((dats m 0 c).arrAt_in 0 rfl _).trans ((A_eq m c 0).trans (hV c main_arg0 (.inl rfl))))
  · exact ((h c).2 main_arg1 (Pipeline.mem_restRefs_of main_arg1 (by decide) (by decide))).trans (hW c main_arg1 (.inl rfl))
  · exact ((h c).1 2).trans (((dats m 0 c).arrAt_in 2 rfl _).trans ((A_eq m c 2).trans (hV c main_arg2 (.inr (.inr (.inl rfl))))))
  · exact ((h c).2 main_arg3 (Pipeline.mem_restRefs_of main_arg3 (by decide) (by decide))).trans (hW c main_arg3 (.inr (.inl rfl)))
  · exact ((h c).2 main_arg4 (Pipeline.mem_restRefs_of main_arg4 (by decide) (by decide))).trans (hW c main_arg4 (.inr (.inr (.inl rfl))))
  · exact ((h c).2 main_arg5 (Pipeline.mem_restRefs_of main_arg5 (by decide) (by decide))).trans (hW c main_arg5 (.inr (.inr (.inr (.inl rfl)))))
  · exact ((h c).2 main_arg6 (Pipeline.mem_restRefs_of main_arg6 (by decide) (by decide))).trans (hW c main_arg6 (.inr (.inr (.inr (.inr rfl)))))

end Cert.Kernel.Frm

end
-- ==== Proof.IdealFrameKit.lean ====
/-
  What the frame of the program KernelIdeal is stated over. @main is thirteen host
  operations (two reshapes, a three-way concatenation into the [1000,9] table, the wrap of negative labels, the row
  gather, a reshape), ONE pipelined region over the grid 2 x 64, and seven host operations after it (two 1x1 slices of
  the [16,128] result, their sum, the division by 524288).

  Here: the contents of the device buffers when the region is entered (V0, V); @main as "region continued by the later
  lines"; that the later lines touch only unscoped buffers, allocate nothing and write no array of the pipeline; that no
  host line writes an argument array; each input window's block at a grid point; the two branch conditions of the body
  in closed form over the 128 grid points (the first holds where the inner coordinate is 0, the second where it is 63);
  where the output window is idle and where it is written back; the memrefs the body is called with.
-/
import proofs.«156799_j71476845740091_2_alg».proof.Proof.Gen.KernelIdeal.Launch
import proofs.«156799_j71476845740091_2_alg».proof.Proof.Gen.KernelIdeal.Skeleton
import proofs.«156799_j71476845740091_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The device buffers' contents when the region is entered: after the thirteen host operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it: it reduces to the region continued
    by the later lines, entered at the contents V. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch the pipeline's arrays and the buffers that bypass the region only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline: each writes its own result buffer, which is none of the five arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the region writes the buffer b, given that b is none of the thirteen result buffers. -/
theorem V_of_not_written (c : Dev nD) (b : Ref sig .tc)
    (hb : b ≠ main_v0 ∧ b ≠ main_v1 ∧ b ≠ main_v2 ∧ b ≠ main_c ∧ b ≠ main_v3 ∧ b ≠ main_v4 ∧ b ≠ main_c_0 ∧ b ≠ main_v5
      ∧ b ≠ main_v6 ∧ b ≠ main_v7 ∧ b ≠ main_v8 ∧ b ≠ main_v9 ∧ b ≠ main_v10) :
    V m c b = m ((c : Thread nD τ).loc b) := by
  obtain ⟨h0, h1, h2, h3, h4, h5, h6, h7, h8, h9, h10, h11, h12⟩ := hb
  exact StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by assumption)))

/-- No host line after the region writes the buffer b, given that b is none of their seven result buffers and no array of
    the pipeline: it ends at what the region found. -/
theorem W_of_not_written (dats : (p : Fin _) → (c : Dev nD) → Dat τ (Elt F) Unit ℕ (UR sig nD τ) ℕ (cfgs p) c) (c : Dev nD)
    (b : Ref sig .tc)
    (hb : b ≠ main_v12 ∧ b ≠ main_v13 ∧ b ≠ main_v14 ∧ b ≠ main_v15 ∧ b ≠ main_v16 ∧ b ≠ main_cst ∧ b ≠ main_v17)
    (harr : ∀ w, Pipeline.arrRef spec0 w ≠ b) :
    Pipeline.afterTail₀ cfgs dats 0 (V0 m) [hostOps1] c b = V m c b := by
  obtain ⟨h0, h1, h2, h3, h4, h5, h6⟩ := hb
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by assumption))),
    Pipeline.withArrays_of_ne _ c (V0 m c) _ b harr]

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is V's and whose body leaves the block in place. One statement per input window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The first conditional of the body (reset the output block and the accumulator). -/
abbrev cond0_0 (i : grid0.Coords) : Prop := k0_cond1 i = 1#1
/-- It holds where the inner grid coordinate is 0: at the points ≡ 0 (mod 64). -/
theorem hcond0_0 : ∀ t : Fin cfg0.N, cond0_0 (grid0.coords t) ↔ t.val % 64 = 0 :=
  (by decide +kernel : ∀ t : Fin grid0.N, cond0_0 (grid0.coords t) ↔ t.val % 64 = 0)

/-- The second conditional of the body (copy the accumulator into the output block's corner). -/
abbrev cond0_1 (i : grid0.Coords) : Prop := k0_cond2 i = 1#1
/-- It holds where the inner grid coordinate is 63: at the points ≡ 63 (mod 64). -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Where the first conditional is taken the output window is live (the body stores its whole block). -/
theorem liveAt0_4_A : ∀ t : Fin cfg0.N, cond0_0 (grid0.coords t) → ¬cond0_1 (grid0.coords t) → cfg0.idle 4 (grid0.coords t) = false := by decide +kernel
/-- Where neither is taken the output window is idle: the body stores nothing into it, -/
theorem idleAt0_4_B : ∀ t : Fin cfg0.N, ¬cond0_0 (grid0.coords t) → ¬cond0_1 (grid0.coords t) → cfg0.idle 4 (grid0.coords t) = true := by decide +kernel
/-- and the pipeline does not write its block back there. -/
theorem noFlush0_4_B : ∀ t : Fin cfg0.N, ¬cond0_0 (grid0.coords t) → ¬cond0_1 (grid0.coords t) → (cfg0.win 4).flush t = false := by decide +kernel
/-- Where the second conditional is taken the output window is live. -/
theorem liveAt0_4_C : ∀ t : Fin cfg0.N, ¬cond0_0 (grid0.coords t) → cond0_1 (grid0.coords t) → cfg0.idle 4 (grid0.coords t) = false := by decide +kernel

/-! ## The memrefs the body is called with -/

/-- One staging buffer of the output window, through which its contents are stated. -/
abbrev VO0_4 : View sig .tc .vmem S8x128 .f32 := (Memref.whole cc0_stg4_0 : Memref sig .tc .vmem S8x128 .f32).view
abbrev ms0_0 (t : Fin cfg0.N) : Memref sig .tc .vmem S4096x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x9 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x128 .f32 := win0_4.stage (cfg0.slots t 4)
abbrev hs0_4 (t : Fin cfg0.N) : (ms0_4 t).IsWhole := hstage0_4 ((cfg0.slots t 4).cast nbuf0_4)
/-- The scratch operand: the 1x1 accumulator, a whole scoped buffer of the kernel's own. -/
abbrev scM0_0 : Memref sig .tc .vmem S1x1 .f32 := Memref.whole cc0_scratch0
abbrev VS0_0 : View sig .tc .vmem S1x1 .f32 := scM0_0.view

/-- The class invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frm

end
-- ==== Proof.IdealRunFirst.lean ====
/-
  The kernel body of KernelIdeal run symbolically on whole staging memrefs, at a point where the first conditional is taken and the second is not (the first of a core's 64 steps): the inputs' buffers at their contents, the output block's and the accumulator's at anything.
  The body first (only where the inner grid coordinate is 0) stores zeros over the whole 8x128 output block and over the
  1x1 accumulator; then loads the 4096x64 block of x, the 4096x9 block of gathered parameters, the 1x64 weight row and
  the 1x1 bias, reads the accumulator and stores back accumulator + (the block's partial sum); last (only where the
  inner coordinate is 63) copies the accumulator into the corner [0,0] of the output block.
  The statement names the PIECES each buffer ends with (last store first); they are found by the run itself.
-/
import proofs.«156799_j71476845740091_2_alg».proof.Proof.IdealFrameKit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first step of a core: the output block ends with zeros stored whole, the accumulator with zero and then
    zero + the block's partial sum. -/
noncomputable def kernelRun0_A (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : cond0_0 i) (hc1 : ¬cond0_1 i)
    (x0 : Vec F S4096x64 .f32) (x1 : Vec F S4096x9 .f32) (x2 : Vec F S1x64 .f32) (x3 : Vec F S1x1 .f32) :
    Σ' (L4 : List (View.Piece (Elt F) S8x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Frm

end
-- ==== Proof.IdealRunMiddle.lean ====
/-
  The kernel body of KernelIdeal run symbolically on whole staging memrefs, at a point where neither conditional is taken (steps 1 to 62 of a core): the inputs' buffers at their contents, the output block's at contents handed back untouched, the accumulator's at the contents the step before left.
  The body first (only where the inner grid coordinate is 0) stores zeros over the whole 8x128 output block and over the
  1x1 accumulator; then loads the 4096x64 block of x, the 4096x9 block of gathered parameters, the 1x64 weight row and
  the 1x1 bias, reads the accumulator and stores back accumulator + (the block's partial sum); last (only where the
  inner coordinate is 63) copies the accumulator into the corner [0,0] of the output block.
  The statement names the PIECES each buffer ends with (last store first); they are found by the run itself.
-/
import proofs.«156799_j71476845740091_2_alg».proof.Proof.IdealRunFirst

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A middle step: nothing is stored into the output block; the accumulator ends with its old contents + the block's
    partial sum. -/
noncomputable def kernelRun0_B (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : ¬cond0_1 i)
    (x0 : Vec F S4096x64 .f32) (x1 : Vec F S4096x9 .f32) (x2 : Vec F S1x64 .f32) (x3 : Vec F S1x1 .f32) (xs0 : Vec F S1x1 .f32) :
    { LS0 : List (View.Piece (Elt F) S1x1 .f32) //
      ∀ (xi4 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (arg7.view.loc (c : Thread nD τ) ↦[arg7.view.set]{fullShare} arg7.view.writes (Elt F) (harg7.unread xs0) LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, fun xi4 E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexact HS0

end Cert.KernelIdeal.Frm

end
-- ==== Proof.IdealRunLast.lean ====
/-
  The kernel body of KernelIdeal run symbolically on whole staging memrefs, at a point where the second conditional is taken and the first is not (the last of a core's 64 steps): the inputs' buffers at their contents, the output block's at the contents the first step left and the middle steps kept, the accumulator's at the contents the step before left.
  The body first (only where the inner grid coordinate is 0) stores zeros over the whole 8x128 output block and over the
  1x1 accumulator; then loads the 4096x64 block of x, the 4096x9 block of gathered parameters, the 1x64 weight row and
  the 1x1 bias, reads the accumulator and stores back accumulator + (the block's partial sum); last (only where the
  inner coordinate is 63) copies the accumulator into the corner [0,0] of the output block.
  The statement names the PIECES each buffer ends with (last store first); they are found by the run itself.
-/
import proofs.«156799_j71476845740091_2_alg».proof.Proof.IdealRunMiddle

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last step of a core: the accumulator ends with its old contents + the block's partial sum, and the output block
    with that value stored at its corner [0,0] over what it held. -/
noncomputable def kernelRun0_C (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : cond0_1 i)
    (x0 : Vec F S4096x64 .f32) (x1 : Vec F S4096x9 .f32) (x2 : Vec F S1x64 .f32) (x3 : Vec F S1x1 .f32) (xo4 : Vec F S8x128 .f32) (xs0 : Vec F S1x1 .f32) :
    Σ' (L4 : List (View.Piece (Elt F) S8x128 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (arg6.view.loc (c : Thread nD τ) ↦[arg6.view.set]{fullShare} arg6.view.writes (Elt F) (harg6.unread xo4) L4) ∗ (arg7.view.loc (c : Thread nD τ) ↦[arg7.view.set]{fullShare} arg7.view.writes (Elt F) (harg7.unread xs0) LS0)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexact H4
    iexact HS0

end Cert.KernelIdeal.Frm

end
-- ==== Proof.IdealFrame.lean ====
/-
  The frame of the program KernelIdeal: every weakly fair execution of @main terminates without a fault and leaves the seven
  argument arrays unchanged — together with what the run leaves in the pipeline's result array, which a value claim reads.

  The grid has 128 points, 64 per core. At a core's first point the body zeroes the 8x128 output block and the 1x1
  accumulator, then adds the point's partial sum to the accumulator; at its middle points it only adds; at its last point
  it adds and then copies the accumulator into the output block's corner, and the pipeline writes the block back. So
  point by point the pair (output block's buffer, accumulator) is: at a first point the two lists of pieces the run found,
  read over nothing; at a middle point the block as the point before left it and the accumulator's pieces over what the
  point before left; at a last point both lists of pieces over what the point before left.
-/
import proofs.«156799_j71476845740091_2_alg».proof.Proof.IdealRunLast
import proofs.«156799_j71476845740091_2_alg».proof.Proof.LibOverlay

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At a first point the stores into the output block tile it (one store of the whole block). -/
theorem cover0_A_4 (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : cond0_0 i) (hc1 : ¬cond0_1 i)
    (x0 : Vec F S4096x64 .f32) (x1 : Vec F S4096x9 .f32) (x2 : Vec F S1x64 .f32) (x3 : Vec F S1x1 .f32) (y : S8x128.Idx) :
    ∃ pc ∈ (kernelRun0_A c i arg2 harg2 arg3 harg3 arg4 harg4 arg5 harg5 arg6 harg6 arg7 harg7 hc0 hc1 x0 x1 x2 x3).1, y ∈ pc.1.set :=
  View.cover_of_tiledL (kernelRun0_A c i arg2 harg2 arg3 harg3 arg4 harg4 arg5 harg5 arg6 harg6 arg7 harg7 hc0 hc1 x0 x1 x2 x3).1 S8x128.size (by sl_kernel_rfl) y

/-- What a first point leaves in the output block's buffer. -/
def out0_A_4 (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : cond0_0 i) (hc1 : ¬cond0_1 i)
    (x0 : Vec F S4096x64 .f32) (x1 : Vec F S4096x9 .f32) (x2 : Vec F S1x64 .f32) (x3 : Vec F S1x1 .f32) : Vec F S8x128 .f32 :=
  View.canon (kernelRun0_A c i arg2 harg2 arg3 harg3 arg4 harg4 arg5 harg5 arg6 harg6 arg7 harg7 hc0 hc1 x0 x1 x2 x3).1

/-- At a first point the stores into the accumulator tile it (two stores of the whole 1x1). -/
theorem scover0_A_0 (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : cond0_0 i) (hc1 : ¬cond0_1 i)
    (x0 : Vec F S4096x64 .f32) (x1 : Vec F S4096x9 .f32) (x2 : Vec F S1x64 .f32) (x3 : Vec F S1x1 .f32) (y : S1x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1x1.size (by sl_kernel_rfl) y

/-- What a first point leaves in the accumulator. -/
def sout0_A_0 (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : cond0_0 i) (hc1 : ¬cond0_1 i)
    (x0 : Vec F S4096x64 .f32) (x1 : Vec F S4096x9 .f32) (x2 : Vec F S1x64 .f32) (x3 : Vec F S1x1 .f32) : Vec F S1x1 .f32 :=
  View.canon (kernelRun0_A c i arg2 harg2 arg3 harg3 arg4 harg4 arg5 harg5 arg6 harg6 arg7 harg7 hc0 hc1 x0 x1 x2 x3).2.1

/-- What a middle point leaves in the accumulator: its pieces over what it held. -/
def sout0_B_0 (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : ¬cond0_1 i)
    (x0 : Vec F S4096x64 .f32) (x1 : Vec F S4096x9 .f32) (x2 : Vec F S1x64 .f32) (x3 : Vec F S1x1 .f32) (xs0 : Vec F S1x1 .f32) : Vec F S1x1 .f32 :=
  View.over xs0 (kernelRun0_B c i arg2 harg2 arg3 harg3 arg4 harg4 arg5 harg5 arg6 harg6 arg7 harg7 hc0 hc1 x0 x1 x2 x3 xs0).1

/-- What a last point leaves in the output block's buffer: its pieces over what the buffer held. -/
def out0_C_4 (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : cond0_1 i)
    (x0 : Vec F S4096x64 .f32) (x1 : Vec F S4096x9 .f32) (x2 : Vec F S1x64 .f32) (x3 : Vec F S1x1 .f32) (xo4 : Vec F S8x128 .f32) (xs0 : Vec F S1x1 .f32) : Vec F S8x128 .f32 :=
  View.over xo4 (kernelRun0_C c i arg2 harg2 arg3 harg3 arg4 harg4 arg5 harg5 arg6 harg6 arg7 harg7 hc0 hc1 x0 x1 x2 x3 xo4 xs0).1

/-- What a last point leaves in the accumulator. -/
def sout0_C_0 (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : cond0_1 i)
    (x0 : Vec F S4096x64 .f32) (x1 : Vec F S4096x9 .f32) (x2 : Vec F S1x64 .f32) (x3 : Vec F S1x1 .f32) (xo4 : Vec F S8x128 .f32) (xs0 : Vec F S1x1 .f32) : Vec F S1x1 .f32 :=
  View.over xs0 (kernelRun0_C c i arg2 harg2 arg3 harg3 arg4 harg4 arg5 harg5 arg6 harg6 arg7 harg7 hc0 hc1 x0 x1 x2 x3 xo4 xs0).2.1

/-! ## What the output block's buffer and the accumulator hold after each point -/

/-- The pair (output block's buffer, accumulator) after the body at position n, by recursion on n. -/
def outsAt0 (c : Dev nD) : (n : ℕ) → n < cfg0.N → Vec F S8x128 .f32 × Vec F S1x1 .f32
  | 0, hn =>
    (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩),
     sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h0 : (n + 1) % 64 = 0 then
      if h1 : (n + 1) % 64 = 63 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩),
         sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩))
    else
      if h1 : (n + 1) % 64 = 63 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2,
         sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).1 (outsAt0 c n (Nat.lt_of_succ_lt hn)).2)
      else
        ((outsAt0 c n (Nat.lt_of_succ_lt hn)).1,
         sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At a first point. -/
theorem outsAt0_A (c : Dev nD) (t : Fin cfg0.N) (h0 : t.val % 64 = 0) (h1 : ¬t.val % 64 = 63) :
    outsAt0 m c t.val t.isLt =
      (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t),
       sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact (dif_pos h0).trans ((dif_neg h1).trans rfl)

/-- At a middle point: the block as the point before left it, the accumulator's pieces over what the point before left. -/
theorem outsAt0_B (c : Dev nD) (t : Fin cfg0.N) (h0 : ¬t.val % 64 = 0) (h1 : ¬t.val % 64 = 63) :
    outsAt0 m c t.val t.isLt =
      ((outsAt0 m c (t.val - 1) (Nat.lt_of_le_of_lt (Nat.sub_le _ _) t.isLt)).1,
       sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last point: both lists of pieces over what the point before left. -/
theorem outsAt0_C (c : Dev nD) (t : Fin cfg0.N) (h0 : ¬t.val % 64 = 0) (h1 : t.val % 64 = 63) :
    outsAt0 m c t.val t.isLt =
      (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2,
       sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position n: before the first point the class's (the accumulator at anything); afterwards
    the accumulator at what the point before left in it, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point t each input's buffer at its block and the output
    block's at the first component of the recursion; the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- Before any point but a core's first, the output block's buffer holds what the recursion says the point before left:
    the block is written back only after a core's last point, a first point stores it whole, and a middle point hands
    it back untouched. By induction on the point. -/
theorem before0_4_pos (c : Dev nD) : ∀ (n : ℕ) (hn : n < cfg0.N), n % 64 ≠ 0 → ∀ d,
    (dats m 0 c).before 4 ⟨n, hn⟩ d = (outsAt0 m c (n - 1) (Nat.lt_of_le_of_lt (Nat.sub_le _ _) hn)).1 := by
  intro n
  induction n using Nat.strong_induction_on with
  | _ n ih =>
    intro hn hmod d
    have hn0 : n ≠ 0 := by rintro rfl; exact hmod (Nat.zero_mod _)
    have hN : n < 128 := lt_of_lt_of_eq hn (show cfg0.N = 128 from N_0)
    have hn1 : n - 1 < cfg0.N := Nat.lt_of_le_of_lt (Nat.sub_le _ _) hn
    rw [(dats m 0 c).before_of_pos 4 ⟨n, hn⟩ hn0 ((cfg0.win 4).fetch_out rfl _)]
    have hfl : (cfg0.win 4).flush ⟨n - 1, hn1⟩ = false :=
      Bool.eq_false_iff.mpr fun h => by have := (flush0_4 _).mp h; dsimp only at this; omega
    rw [if_neg (by rw [hfl]; exact Bool.false_ne_true)]
    unfold Dat.left
    by_cases h1 : (n - 1) % 64 = 0
    · rw [liveAt0_4_A ⟨n - 1, hn1⟩ ((hcond0_0 _).mpr h1) (fun h => by have := (hcond0_1 _).mp h; dsimp only at this; omega)]
      dsimp only
      unfold Dat.kept
      rw [Pipeline.fill_of_clip_none 4 _ (fun _ => rfl) d ((dats m 0 c).after 4 ⟨n - 1, hn1⟩), Window.fill_cut]
      exact after0_4 m c ⟨n - 1, hn1⟩
    · rw [idleAt0_4_B ⟨n - 1, hn1⟩ (fun h => h1 ((hcond0_0 _).mp h)) (fun h => by have := (hcond0_1 _).mp h; dsimp only at this; omega)]
      dsimp only
      rw [ih (n - 1) (by omega) hn1 h1 d]
      have hB := outsAt0_B m c ⟨n - 1, hn1⟩ h1 (by dsimp only; omega)
      exact (congrArg Prod.fst hB).symm

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t) := by
  refine ⟨?_, ?_, ?_, ?_⟩
  · unfold Dat.leavesExact; rw [liveAt0_0 t, after0_0]
  · unfold Dat.leavesExact; rw [liveAt0_1 t, after0_1]
  · unfold Dat.leavesExact; rw [liveAt0_2 t, after0_2]
  · unfold Dat.leavesExact; rw [liveAt0_3 t, after0_3]

set_option maxHeartbeats 4800000 in
/-- The body at any point: the inputs' buffers hold their blocks; the closed forms of the two conditions say which case
    the point is in; the case's run applies; the invariant hands the body the accumulator at what the point before left
    (at anything at the very first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [(leaves_in m c t).1, (leaves_in m c t).2.1, (leaves_in m c t).2.2.1, (leaves_in m c t).2.2.2]
  have hN : t.val < 128 := lt_of_lt_of_eq t.isLt (show cfg0.N = 128 from N_0)
  by_cases h0 : t.val % 64 = 0
  · have h1 : ¬t.val % 64 = 63 := by omega
    rw [show (dats m 0 c).leavesExact 4 t = owns (c : Thread nD τ) (ms0_4 t) fullShare ((dats m 0 c).after 4 t) from by
      unfold Dat.leavesExact; rw [liveAt0_4_A t ((hcond0_0 t).mpr h0) (fun h => h1 ((hcond0_1 t).mp h))], after0_4]
    rw [outsAt0_A m c t h0 h1]
    unfold out0_A_4 sout0_A_0; (try dsimp only)
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_eq_canon _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_eq_canon _ _ _ (cover0_A_4 c _ _ _ _ _ _ _ _ _ _ _ _ _ _ _ _ _ _ _)
    · rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 Set.univ _)
      isplitl [H0]; · iexact H0
      isplitl [H1]; · iexact H1
      isplitl [H2]; · iexact H2
      isplitl [H3]; · iexact H3
      isplitl [H4]; · iexists _; iexact H4
      isplitl [HS0]; · iexists _; iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_eq_canon _ _ _ (scover0_A_0 c _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_eq_canon _ _ _ (cover0_A_4 c _ _ _ _ _ _ _ _ _ _ _ _ _ _ _ _ _ _ _)
  · have hz : t.val ≠ 0 := by rintro h; exact h0 (by rw [h])
    by_cases h1 : t.val % 64 = 63
    · rw [show (dats m 0 c).leavesExact 4 t = owns (c : Thread nD τ) (ms0_4 t) fullShare ((dats m 0 c).after 4 t) from by
        unfold Dat.leavesExact; rw [liveAt0_4_C t (fun h => h0 ((hcond0_0 t).mp h)) ((hcond0_1 t).mpr h1)], after0_4]
      rw [outsAt0_C m c t h0 h1]
      simp only [before0_4_pos m c t.val t.isLt h0]
      unfold out0_C_4 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _ _).2.2 Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · unfold owns; iexists _; isplitr
          swap; · iexact HS0
          ipureintro
          exact (View.read_writes_eq_over _ _ _).trans (congrArg (View.over · _) ((Memref.isWhole_whole _).read_unread _))
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro
      exact (View.read_writes_eq_over _ _ _).trans (congrArg (View.over · _) ((hs0_4 t).read_unread _))
    · rw [Dat.leavesExact_idle (dats m 0 c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B m c t h0 h1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, HS0⟩
      isplitl [HS0 Hg]
      · isplitl [HS0]
        · unfold owns; iexists _; isplitr
          swap; · iexact HS0
          ipureintro
          exact (View.read_writes_eq_over _ _ _).trans (congrArg (View.over · _) ((Memref.isWhole_whole _).read_unread _))
        iexact Hg
      isplitl [Ho]; · iexact Ho
      isplitl [H0]; · iexact H0
      isplitl [H1]; · iexact H1
      isplitl [H2]; · iexact H2
      isplitl [H3]; · iexact H3
      iexists _; iexact H4

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

set_option backward.isDefEq.respectTransparency.types false in
/-- Every weakly fair execution of @main terminates, and every final state has every array of the pipeline at what the
    proof data computes and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The seven argument arrays end as launched: x and the weight row are inputs the pipeline stages (their arrays end at
    the region-entry contents, which no earlier host line wrote); the other five bypass the region, and no host line
    writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hV : ∀ (c : Dev nD) (b : Ref sig .tc), (b = main_arg0 ∨ b = main_arg1 ∨ b = main_arg2 ∨ b = main_arg3 ∨ b = main_arg4 ∨ b = main_arg5 ∨ b = main_arg6) →
      V m c b = m ((c : Thread nD τ).loc b) := fun c b hb =>
    V_of_not_written m c b (by rcases hb with rfl | rfl | rfl | rfl | rfl | rfl | rfl <;> decide)
  have hW : ∀ (c : Dev nD) (b : Ref sig .tc), (b = main_arg1 ∨ b = main_arg3 ∨ b = main_arg4 ∨ b = main_arg5 ∨ b = main_arg6) →
      Pipeline.afterTail₀ cfgs (dats m) 0 (V0 m) [hostOps1] c b = m ((c : Thread nD τ).loc b) := fun c b hb =>
    (W_of_not_written m (dats m) c b (by rcases hb with rfl | rfl | rfl | rfl | rfl <;> decide)
      (by rcases hb with rfl | rfl | rfl | rfl | rfl <;> decide)).trans
      (hV c b (by rcases hb with rfl | rfl | rfl | rfl | rfl <;> simp))
  refine (θ_run defs _ _).mono (fun _ h c => ⟨?_, ?_, ?_, ?_, ?_, ?_, ?_⟩) (run_main m ρ)
  · exact ((h c).1 0).trans (((dats m 0 c).arrAt_in 0 rfl _).trans ((A_eq m c 0).trans (hV c main_arg0 (.inl rfl))))
  · exact ((h c).2 main_arg1 (Pipeline.mem_restRefs_of main_arg1 (by decide) (by decide))).trans (hW c main_arg1 (.inl rfl))
  · exact ((h c).1 2).trans (((dats m 0 c).arrAt_in 2 rfl _).trans ((A_eq m c 2).trans (hV c main_arg2 (.inr (.inr (.inl rfl))))))
  · exact ((h c).2 main_arg3 (Pipeline.mem_restRefs_of main_arg3 (by decide) (by decide))).trans (hW c main_arg3 (.inr (.inl rfl)))
  · exact ((h c).2 main_arg4 (Pipeline.mem_restRefs_of main_arg4 (by decide) (by decide))).trans (hW c main_arg4 (.inr (.inr (.inl rfl))))
  · exact ((h c).2 main_arg5 (Pipeline.mem_restRefs_of main_arg5 (by decide) (by decide))).trans (hW c main_arg5 (.inr (.inr (.inr (.inl rfl)))))
  · exact ((h c).2 main_arg6 (Pipeline.mem_restRefs_of main_arg6 (by decide) (by decide))).trans (hW c main_arg6 (.inr (.inr (.inr (.inr rfl)))))

end Cert.KernelIdeal.Frm

end
-- ==== Proof.IdealRun.lean ====
/-
  The frame run of KernelIdeal read at the result buffer as well: every weakly fair execution terminates with the scalar
  result at what the host lines after the region compute from the pipeline's final arrays, and the seven arguments as launched.
-/
import proofs.«156799_j71476845740091_2_alg».proof.Proof.IdealFrame

set_option maxRecDepth 16384

noncomputable section

namespace Cert.KernelIdeal.Frm

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem run_result : θ_run defs (onTc (τ := τ) (main (F := F))) ⟨m, fun _ => 0, ρ⟩ (fun r => ∀ c : Dev nD,
      r.2.mem ((c.tc : Thread nD τ).loc main_v17) = Pipeline.afterTail₀ cfgs (dats m) 0 (V0 m) [hostOps1] c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hV : ∀ (c : Dev nD) (b : Ref sig .tc), (b = main_arg0 ∨ b = main_arg1 ∨ b = main_arg2 ∨ b = main_arg3 ∨ b = main_arg4 ∨ b = main_arg5 ∨ b = main_arg6) →
      V m c b = m ((c : Thread nD τ).loc b) := fun c b hb =>
    V_of_not_written m c b (by rcases hb with rfl | rfl | rfl | rfl | rfl | rfl | rfl <;> decide)
  have hW : ∀ (c : Dev nD) (b : Ref sig .tc), (b = main_arg1 ∨ b = main_arg3 ∨ b = main_arg4 ∨ b = main_arg5 ∨ b = main_arg6) →
      Pipeline.afterTail₀ cfgs (dats m) 0 (V0 m) [hostOps1] c b = m ((c : Thread nD τ).loc b) := fun c b hb =>
    (W_of_not_written m (dats m) c b (by rcases hb with rfl | rfl | rfl | rfl | rfl <;> decide)
      (by rcases hb with rfl | rfl | rfl | rfl | rfl <;> decide)).trans
      (hV c b (by rcases hb with rfl | rfl | rfl | rfl | rfl <;> simp))
  refine (θ_run defs _ _).mono (fun _ h c => ⟨?_, ?_, ?_, ?_, ?_, ?_, ?_, ?_⟩) (run_main m ρ)
  · exact (h c).2 main_v17 (Pipeline.mem_restRefs_of main_v17 (by decide) (by decide))
  · exact ((h c).1 0).trans (((dats m 0 c).arrAt_in 0 rfl _).trans ((A_eq m c 0).trans (hV c main_arg0 (.inl rfl))))
  · exact ((h c).2 main_arg1 (Pipeline.mem_restRefs_of main_arg1 (by decide) (by decide))).trans (hW c main_arg1 (.inl rfl))
  · exact ((h c).1 2).trans (((dats m 0 c).arrAt_in 2 rfl _).trans ((A_eq m c 2).trans (hV c main_arg2 (.inr (.inr (.inl rfl))))))
  · exact ((h c).2 main_arg3 (Pipeline.mem_restRefs_of main_arg3 (by decide) (by decide))).trans (hW c main_arg3 (.inr (.inl rfl)))
  · exact ((h c).2 main_arg4 (Pipeline.mem_restRefs_of main_arg4 (by decide) (by decide))).trans (hW c main_arg4 (.inr (.inr (.inl rfl))))
  · exact ((h c).2 main_arg5 (Pipeline.mem_restRefs_of main_arg5 (by decide) (by decide))).trans (hW c main_arg5 (.inr (.inr (.inr (.inl rfl)))))
  · exact ((h c).2 main_arg6 (Pipeline.mem_restRefs_of main_arg6 (by decide) (by decide))).trans (hW c main_arg6 (.inr (.inr (.inr (.inr rfl)))))

end Cert.KernelIdeal.Frm

end
-- ==== Proof.IdealPieces.lean ====
/-
  What each case of the body leaves, through the payloads.

  The pieces the symbolic runs found are: at a first point one whole-block store of zeros into the output block, and into
  the accumulator the store of zero followed by the store of (what was just read back) + (the block's partial sum); at a
  middle point one store into the accumulator of (what it held) + (the partial sum); at a last point the same store, and
  into the output block's corner [0,0] the accumulator as just stored. A load through the whole-buffer rectangle reads the
  contents, and a store through it leaves its payload, so each of these is the payload term with the loaded blocks in place.
-/
import proofs.«156799_j71476845740091_2_alg».proof.Proof.IdealFrame
import Idealize.ShloMosaic.Lib.Pipeline.Value
import Idealize.ShloMosaic.Lib.ValueIdx

set_option maxRecDepth 16384

noncomputable section

namespace Idealize.ShloMosaic.View

variable {Val : EltTy → Type} {S : Shape} {e : EltTy}

/-- ONE store through the whole-shape rectangle at zero offsets, over any contents, leaves its payload. -/
theorem over_unit_zero {off : Fin S.rank → Nat} (h : off = fun _ => 0) (inb : ∀ a, off a + S.size a ≤ S.size a)
    (X w : S.Idx → Val e) : View.over X [(⟨Rect.unit off S.size inb, w⟩ : Piece Val S e)] = w := by
  subst h; funext y
  have e := over_cons_emb (Val := Val) X (Rect.whole S) w [] y
  rw [Rect.emb_whole_apply] at e
  exact e

end Idealize.ShloMosaic.View

namespace Cert.KernelIdeal.Val

open Cert.KernelIdeal Cert.KernelIdeal.Gen Cert.KernelIdeal.Frm
open Idealize.ShloMosaic Idealize.ShloMosaic.TcCoe Idealize.ShloMosaic.Tactic Idealize.SL.Sem Idealize.ShloMosaic.ValueIdx

variable {F : FTy → Type} [FloatOps F]

theorem hz2 : (![0, 0] : Fin 2 → Nat) = fun _ => 0 := funext fun a => by fin_cases a <;> rfl

/-- The accumulator's new contents from the loaded blocks and its old contents. -/
def accNew (x0 : Vec F S4096x64 .f32) (x1 : Vec F S4096x9 .f32) (x2 : Vec F S1x64 .f32) (x3 : Vec F S1x1 .f32)
    (acc : Vec F S1x1 .f32) : Vec F S1x1 .f32 :=
  k0_pay1 (k0_pay5 x1) (k0_pay6 x0 x1 x2 x3) (k0_pay7 x0) (k0_pay8 x1) (k0_pay9 x0) acc

theorem out0_A_4_eq (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : cond0_0 i) (hc1 : ¬cond0_1 i)
    (x0 : Vec F S4096x64 .f32) (x1 : Vec F S4096x9 .f32) (x2 : Vec F S1x64 .f32) (x3 : Vec F S1x1 .f32) :
    out0_A_4 c i arg2 harg2 arg3 harg3 arg4 harg4 arg5 harg5 arg6 harg6 arg7 harg7 hc0 hc1 x0 x1 x2 x3 = k0_pay2 := by
  unfold out0_A_4 kernelRun0_A
  dsimp only
  sl_unfold_words
  rw [View.canon_unit_zero hz2]

theorem sout0_A_0_eq (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : cond0_0 i) (hc1 : ¬cond0_1 i)
    (x0 : Vec F S4096x64 .f32) (x1 : Vec F S4096x9 .f32) (x2 : Vec F S1x64 .f32) (x3 : Vec F S1x1 .f32) :
    sout0_A_0 c i arg2 harg2 arg3 harg3 arg4 harg4 arg5 harg5 arg6 harg6 arg7 harg7 hc0 hc1 x0 x1 x2 x3 = accNew x0 x1 x2 x3 k0_pay3 := by
  unfold sout0_A_0 kernelRun0_A
  dsimp only
  sl_unfold_words
  rw [View.canon_cons_unit_zero hz2]
  simp only [View.readCov_unit_zero (S := S1x1) _ hz2, View.readAt_eq_ld, harg2.read_unread, harg3.read_unread, harg4.read_unread, harg5.read_unread,
    View.ld_unit_zero (S := S4096x64) hz2, View.ld_unit_zero (S := S4096x9) hz2, View.ld_unit_zero (S := S1x64) hz2, View.ld_unit_zero (S := S1x1) hz2]
  rfl

theorem sout0_B_0_eq (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : ¬cond0_1 i)
    (x0 : Vec F S4096x64 .f32) (x1 : Vec F S4096x9 .f32) (x2 : Vec F S1x64 .f32) (x3 : Vec F S1x1 .f32) (xs0 : Vec F S1x1 .f32) :
    sout0_B_0 c i arg2 harg2 arg3 harg3 arg4 harg4 arg5 harg5 arg6 harg6 arg7 harg7 hc0 hc1 x0 x1 x2 x3 xs0 = accNew x0 x1 x2 x3 xs0 := by
  unfold sout0_B_0 kernelRun0_B
  dsimp only
  sl_unfold_words
  rw [View.over_unit_zero hz2]
  simp only [View.readAt_eq_ld, harg2.read_unread, harg3.read_unread, harg4.read_unread, harg5.read_unread, harg7.read_unread,
    View.ld_unit_zero (S := S4096x64) hz2, View.ld_unit_zero (S := S4096x9) hz2, View.ld_unit_zero (S := S1x64) hz2, View.ld_unit_zero (S := S1x1) hz2]
  rfl

theorem sout0_C_0_eq (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : cond0_1 i)
    (x0 : Vec F S4096x64 .f32) (x1 : Vec F S4096x9 .f32) (x2 : Vec F S1x64 .f32) (x3 : Vec F S1x1 .f32) (xo4 : Vec F S8x128 .f32) (xs0 : Vec F S1x1 .f32) :
    sout0_C_0 c i arg2 harg2 arg3 harg3 arg4 harg4 arg5 harg5 arg6 harg6 arg7 harg7 hc0 hc1 x0 x1 x2 x3 xo4 xs0 = accNew x0 x1 x2 x3 xs0 := by
  unfold sout0_C_0 kernelRun0_C
  dsimp only
  sl_unfold_words
  rw [View.over_unit_zero hz2]
  simp only [View.readAt_eq_ld, harg2.read_unread, harg3.read_unread, harg4.read_unread, harg5.read_unread, harg7.read_unread,
    View.ld_unit_zero (S := S4096x64) hz2, View.ld_unit_zero (S := S4096x9) hz2, View.ld_unit_zero (S := S1x64) hz2, View.ld_unit_zero (S := S1x1) hz2]
  rfl

/-- At a last point the output block's corner holds the accumulator as just stored. -/
theorem out0_C_4_corner (c : Dev nD) (i : grid0.Coords) (arg2 : Memref sig .tc .vmem S4096x64 .f32) (harg2 : arg2.IsWhole) (arg3 : Memref sig .tc .vmem S4096x9 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S8x128 .f32) (harg6 : arg6.IsWhole) (arg7 : Memref sig .tc .vmem S1x1 .f32) (harg7 : arg7.IsWhole) (hc0 : ¬cond0_0 i) (hc1 : cond0_1 i)
    (x0 : Vec F S4096x64 .f32) (x1 : Vec F S4096x9 .f32) (x2 : Vec F S1x64 .f32) (x3 : Vec F S1x1 .f32) (xo4 : Vec F S8x128 .f32) (xs0 : Vec F S1x1 .f32) :
    out0_C_4 c i arg2 harg2 arg3 harg3 arg4 harg4 arg5 harg5 arg6 harg6 arg7 harg7 hc0 hc1 x0 x1 x2 x3 xo4 xs0 (ix2 (0 : Fin 8) (0 : Fin 128))
      = accNew x0 x1 x2 x3 xs0 (ix2 (0 : Fin 1) (0 : Fin 1)) := by
  unfold out0_C_4 kernelRun0_C
  dsimp only
  sl_unfold_words
  have hemb : (ix2 (0 : Fin 8) (0 : Fin 128) : S8x128.Idx)
      = (Rect.unit (s := S8x128) ![0, 0] ![1, 1] inb_S8x128_S1x1_0_0).emb (ix2 (0 : Fin 1) (0 : Fin 1)) :=
    funext fun a => Fin.ext (by
      match a with
      | ⟨0, _⟩ => rfl
      | ⟨1, _⟩ => rfl)
  rw [hemb, View.over_cons_emb]
  simp only [View.readCov_unit_zero (S := S1x1) _ hz2, View.readAt_eq_ld, harg2.read_unread, harg3.read_unread, harg4.read_unread, harg5.read_unread, harg7.read_unread,
    View.ld_unit_zero (S := S4096x64) hz2, View.ld_unit_zero (S := S4096x9) hz2, View.ld_unit_zero (S := S1x64) hz2, View.ld_unit_zero (S := S1x1) hz2]
  rfl

end Cert.KernelIdeal.Val

end
-- ==== Proof.IdealBlocks.lean ====
/-
  The input windows' blocks at a grid point, read at an index of their arrays.

  Point t of the 128 (core t / 64, step t % 64) fetches rows 4096·t … 4096·t + 4095 of the feature array and of the
  gathered-parameter array, and the whole weight row and bias; it writes back block t / 64 of the [16,128] result. So
  entry (r, j) of the point's feature block is entry (4096·t + r, j) of the array, and likewise for the parameters.
-/
import proofs.«156799_j71476845740091_2_alg».proof.Proof.IdealFrame
import Idealize.ShloMosaic.Lib.ValueIdx

set_option maxRecDepth 16384

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The printed index maps, decided over the grid. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 64 ∧ win0_4.index t (1 : Fin 2) = 0 :=
  (by decide +kernel : ∀ t : Fin grid0.N, _)

theorem row_lt (t : Fin cfg0.N) (r : Fin 4096) : t.val * 4096 + r.val < 524288 := by
  have := lt_of_lt_of_eq t.isLt (show cfg0.N = 128 from N_0); have := r.isLt; omega

theorem iblk0_apply (c : Dev nD) (t : Fin cfg0.N) (r : Fin 4096) (j : Fin 64) :
    iblk m c 0 t (ix2 r j) = (V m c main_arg0 : S524288x64.Idx → Elt F .f32) (ix2 ⟨t.val * 4096 + r.val, row_lt t r⟩ j) := by
  obtain ⟨e0, e1, -⟩ := idx_facts t
  show V m c main_arg0 (((cfg0.win 0).blk t).view.emb (ix2 r j)) = _
  refine congrArg _ (funext fun a => Fin.ext ?_)
  match a with
  | ⟨0, _⟩ => show win0_0.index t (0 : Fin 2) * 4096 + 1 * r.val = t.val * 4096 + r.val; rw [e0]; omega
  | ⟨1, _⟩ => show win0_0.index t (1 : Fin 2) * 64 + 1 * j.val = j.val; rw [e1]; omega

theorem iblk1_apply (c : Dev nD) (t : Fin cfg0.N) (r : Fin 4096) (q : Fin 9) :
    iblk m c 1 t (ix2 r q) = (V m c main_v9 : S524288x9.Idx → Elt F .f32) (ix2 ⟨t.val * 4096 + r.val, row_lt t r⟩ q) := by
  obtain ⟨-, -, e0, e1, -⟩ := idx_facts t
  show V m c main_v9 (((cfg0.win 1).blk t).view.emb (ix2 r q)) = _
  refine congrArg _ (funext fun a => Fin.ext ?_)
  match a with
  | ⟨0, _⟩ => show win0_1.index t (0 : Fin 2) * 4096 + 1 * r.val = t.val * 4096 + r.val; rw [e0]; omega
  | ⟨1, _⟩ => show win0_1.index t (1 : Fin 2) * 9 + 1 * q.val = q.val; rw [e1]; omega

theorem iblk2_apply (c : Dev nD) (t : Fin cfg0.N) (j : Fin 64) :
    iblk m c 2 t (ix2 (0 : Fin 1) j) = (V m c main_arg2 : S1x64.Idx → Elt F .f32) (ix2 (0 : Fin 1) j) := by
  obtain ⟨-, -, -, -, e0, e1, -⟩ := idx_facts t
  show V m c main_arg2 (((cfg0.win 2).blk t).view.emb (ix2 (0 : Fin 1) j)) = _
  refine congrArg _ (funext fun a => Fin.ext ?_)
  match a with
  | ⟨0, _⟩ => show win0_2.index t (0 : Fin 2) * 1 + 1 * 0 = 0; rw [e0]
  | ⟨1, _⟩ => show win0_2.index t (1 : Fin 2) * 64 + 1 * j.val = j.val; rw [e1]; omega

theorem iblk3_apply (c : Dev nD) (t : Fin cfg0.N) :
    iblk m c 3 t (ix2 (0 : Fin 1) (0 : Fin 1)) = (V m c main_v10 : S1x1.Idx → Elt F .f32) (ix2 (0 : Fin 1) (0 : Fin 1)) := by
  obtain ⟨-, -, -, -, -, -, e0, e1, -⟩ := idx_facts t
  show V m c main_v10 (((cfg0.win 3).blk t).view.emb (ix2 (0 : Fin 1) (0 : Fin 1))) = _
  refine congrArg _ (funext fun a => Fin.ext ?_)
  match a with
  | ⟨0, _⟩ => show win0_3.index t (0 : Fin 2) * 1 + 1 * 0 = 0; rw [e0]
  | ⟨1, _⟩ => show win0_3.index t (1 : Fin 2) * 1 + 1 * 0 = 0; rw [e1]

end Cert.KernelIdeal.Val

end
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.LibRowOps.lean ====
/-
  Two row operations read at an index, on the extended reals.

  A matrix product `[a, k] × [b, k] → [a, b]` that contracts the SECOND axis of both operands ("left times the
  transpose of right"), into the zero accumulator, is at entry `(p, c)` the sum over `j` of `lhs (p, j) · rhs (c, j)` —
  stated from four facts about the dimension record's operand indices, which each use proves by evaluating its record.
  A maximum over the last axis of an `[a, b]` array from the accumulator `−∞` is at row `r` the fold of `max` from `⊥`
  over the row's entries.
-/
import Idealize.ShloMosaic.Lib.ValueIdx
import Idealize.ShloMosaic.PureOps.Ideal.Laws

noncomputable section

namespace Idealize.ShloMosaic.RowOps

open Idealize.ShloMosaic Idealize.ShloMosaic.ValueIdx

variable {a k b : ℕ} {φ₁ φ₂ : FTy}

/-- The contraction sum of "left times right transposed" at entry `(p, c)`, re-indexed by the contracted coordinate. -/
theorem sumT_eq (D : DotDims ⟨2, ![a, k]⟩ ⟨2, ![b, k]⟩ ⟨2, ![a, b]⟩)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    ∑ q : D.contr.Idx, lhs (D.lhsIdx (ix2 p c) q) * rhs (D.rhsIdx (ix2 p c) q)
      = ∑ j : Fin k, lhs (ix2 p j) * rhs (ix2 c j) := by
  rw [← Equiv.sum_comp (contrEquiv1 D k hr hs).symm]
  refine Finset.sum_congr rfl fun j _ => ?_
  have hk := contrEquiv1_symm_val D k hr hs j
  have el : D.lhsIdx (ix2 p c) ((contrEquiv1 D k hr hs).symm j) = ix2 p j := funext fun ax => Fin.ext (by
    match ax with
    | ⟨0, _⟩ => exact hl0 _ _
    | ⟨1, _⟩ => exact (hl1 _ _).trans hk)
  have er : D.rhsIdx (ix2 p c) ((contrEquiv1 D k hr hs).symm j) = ix2 c j := funext fun ax => Fin.ext (by
    match ax with
    | ⟨0, _⟩ => exact hr0 _ _
    | ⟨1, _⟩ => exact (hr1 _ _).trans hk)
  rw [el, er]

/-- The matrix unit into the zero accumulator, "left times right transposed", at entry `(p, c)`. -/
theorem matmulT_zero_apply (D : DotDims ⟨2, ![a, k]⟩ ⟨2, ![b, k]⟩ ⟨2, ![a, b]⟩) (prec : Option ContractPrecision)
    (hr : D.contr.rank = 1) (hs : D.contr.size ⟨0, by omega⟩ = k)
    (hl0 : ∀ i q, (D.lhsIdx i q 0).val = (i 0).val)
    (hl1 : ∀ i q, (D.lhsIdx i q 1).val = (q ⟨0, by omega⟩).val)
    (hr0 : ∀ i q, (D.rhsIdx i q 0).val = (i 1).val)
    (hr1 : ∀ i q, (D.rhsIdx i q 1).val = (q ⟨0, by omega⟩).val)
    (lhs : FVec Ideal ⟨2, ![a, k]⟩ φ₁) (rhs : FVec Ideal ⟨2, ![b, k]⟩ φ₂) (p : Fin a) (c : Fin b) :
    matmul D prec lhs rhs (constant (F := Ideal) ⟨2, ![a, b]⟩ .f32 0x00000000#32) (ix2 p c)
      = ∑ j : Fin k, lhs (ix2 p j) * rhs (ix2 c j) :=
  (Ideal.matmul_constant_zero_apply D prec lhs rhs (ix2 p c)).trans (sumT_eq D hr hs hl0 hl1 hr0 hr1 lhs rhs p c)

/-- The binary32 word of `−∞` denotes `⊥`. -/
theorem ofBits_neg_inf : Ideal.ofBits .f32 0xFF800000#32 = (⊥ : EReal) := by
  simp [Ideal.ofBits, Ideal.ieee]

/-- The lane maximum of an `[a, b]` array from the accumulator `−∞`, at row `r`, is the fold of `max` from `⊥` over the
    row's entries. -/
theorem rowMax_apply (v : FVec Ideal ⟨2, ![a, b]⟩ .f32) (h : (⟨2, ![a, b]⟩ : Shape).Reduces [1] ⟨1, ![a]⟩)
    (hacc : (0xFF800000#32 : BitVec 32) = FKind.maximumf.neutral .f32 (.inl rfl)) (r : Fin a) :
    multiReduction .maximumf [1] ⟨1, ![a]⟩ v 0xFF800000#32 h (.inl rfl) hacc (ix1 r)
      = (Finset.univ : Finset (Fin b)).fold max ⊥ (fun k => v (ix2 r k)) := by
  refine (Ideal.multiReduction_maximumf_single v 0xFF800000#32 h (.inl rfl) hacc (ix1 r)).trans ?_
  rw [show (FloatOps.ofBits (F := Ideal) .f32 0xFF800000#32 : EReal) = ⊥ from ofBits_neg_inf]
  refine congrArg (fun f => (Finset.univ : Finset (Fin b)).fold max ⊥ f) (funext fun k => ?_)
  exact congrArg v (funext fun ax => Fin.ext (by
    match ax with
    | ⟨0, _⟩ => rfl
    | ⟨1, _⟩ => rfl))

end Idealize.ShloMosaic.RowOps

end
-- ==== Proof.LibColSum.lean ====
/-
  Three readings at an index, beside the keep-dims ones.

  A sum over the FIRST axis of an `[a, b]` array (the sublanes) into the zero accumulator is, at column `c`, the
  sum of that column's entries; a `[1, 1, 1]` scalar broadcast over `b` lanes reads the scalar everywhere; and a
  sum over the index set of a rank-1 shape is the sum over its one coordinate.
-/
import Idealize.ShloMosaic.Lib.Pipeline.Value
import Idealize.ShloMosaic.Lib.ValueIdx
import Idealize.ShloMosaic.PureOps.Ideal.Laws

noncomputable section

namespace Idealize.ShloMosaic.ColSum

open Idealize.ShloMosaic Idealize.ShloMosaic.ValueIdx

variable {α : Type}

/-- The sum over the rows of an `[a, b]` array into the zero accumulator, at column `c`, is the sum of the
    column's entries. -/
theorem colSum_apply {a b : ℕ} (v : FVec Ideal ⟨2, ![a, b]⟩ .f32) (h : (⟨2, ![a, b]⟩ : Shape).Reduces [0] ⟨1, ![b]⟩)
    (hacc : (0x00000000#32 : BitVec 32) = 0x00000000#32) (c : Fin b) :
    multiReduction .add [0] ⟨1, ![b]⟩ v 0x00000000#32 h (.inl rfl) hacc (ix1 c) = ∑ k : Fin a, v (ix2 k c) :=
  (Ideal.multiReduction_add_single v 0x00000000#32 h (.inl rfl) hacc (ix1 c)).trans
    (Finset.sum_congr rfl fun k _ => congrArg v (funext fun ax => Fin.ext (by
      match ax with
      | ⟨0, _⟩ => rfl
      | ⟨1, _⟩ => rfl)))

/-- A `[1, 1, 1]` scalar broadcast over `b` lanes reads, at every index, the scalar. -/
theorem broadcastTo_111_11b_apply {b : ℕ} (v : (⟨3, ![1, 1, 1]⟩ : Shape).Idx → α)
    (h : (⟨3, ![1, 1, 1]⟩ : Shape).Broadcasts ⟨3, ![1, 1, b]⟩) (y : (⟨3, ![1, 1, b]⟩ : Shape).Idx) :
    broadcastTo ⟨3, ![1, 1, b]⟩ v h y = v (ix3 (0 : Fin 1) (0 : Fin 1) (0 : Fin 1)) := by
  refine broadcastTo_apply v h y (ix3 (0 : Fin 1) (0 : Fin 1) (0 : Fin 1)) fun ax => ?_
  match ax with
  | ⟨0, _⟩ => rfl
  | ⟨1, _⟩ => rfl
  | ⟨2, _⟩ => rfl

/-- A rank-1 index set is its one coordinate's range … -/
def idxEquiv1 {n : ℕ} : (⟨1, ![n]⟩ : Shape).Idx ≃ Fin n where
  toFun i := i 0
  invFun t := ix1 t
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ t : Fin n, f (ix1 t) :=
  ((idxEquiv1 (n := n)).symm.sum_comp f).symm

end Idealize.ShloMosaic.ColSum

end
-- ==== Proof.LibNestMin.lean ====
/-
  A minimum written as a left-nested chain of binary minima, and three facts about it.

  A body that keeps a running minimum over a short, fixed family of terms writes
  `min (… (min (min (f 0) (f 1)) (f 2)) …) (f n)`; a reduction over an axis is the fold of `min` from the top
  element.  The two are one value (`nest_min_eq_fold`); a monotone map may be applied before or after the
  nested minimum (`map_nest_min`), and the square root of the extended reals is monotone on the whole line
  (`sqrt_mono`: below zero it is `⊥`, the least element), so `√(min …) = min (√ …)` with no condition on the
  terms.  Last, a sum over `B · K` indices is the sum over `B` blocks of the sums over the `K` indices of each.
-/
import Idealize.ShloMosaic.PureOps.Ideal
import Mathlib.Algebra.BigOperators.Fin
import Mathlib.Data.Finset.Fold
import Mathlib.Data.Fintype.Basic

noncomputable section

namespace Idealize.ShloMosaic.NestMin

open Idealize.ShloMosaic

/-- `op (… (op (f 0) (f 1)) …) (f n)`: the `n + 1` terms of `f` combined from the left. -/
def nest {α : Type*} (op : α → α → α) : (n : ℕ) → (Fin (n + 1) → α) → α
  | 0, f => f 0
  | n + 1, f => op (nest op n fun i => f i.castSucc) (f (Fin.last (n + 1)))

theorem nest_zero {α : Type*} (op : α → α → α) (f : Fin 1 → α) : nest op 0 f = f 0 := rfl

theorem nest_succ {α : Type*} (op : α → α → α) (n : ℕ) (f : Fin (n + 2) → α) :
    nest op (n + 1) f = op (nest op n fun i => f i.castSucc) (f (Fin.last (n + 1))) := rfl

/-- Functions combined pointwise, read at a point: the values at that point combined. -/
theorem nest_apply {ι α : Type*} (op : α → α → α) (n : ℕ) (F : Fin (n + 1) → ι → α) (i : ι) :
    nest (fun a b : ι → α => fun j => op (a j) (b j)) n F i = nest op n fun k => F k i := by
  induction n with
  | zero => rfl
  | succ n ih =>
    rw [nest_succ, nest_succ]
    show op (nest (fun a b : ι → α => fun j => op (a j) (b j)) n (fun k => F k.castSucc) i) (F (Fin.last (n + 1)) i) = _
    rw [ih]

/-- A monotone map of a nested minimum is the nested minimum of the mapped terms. -/
theorem map_nest_min {α β : Type*} [LinearOrder α] [LinearOrder β] {g : α → β} (hg : Monotone g) (n : ℕ)
    (f : Fin (n + 1) → α) : g (nest min n f) = nest min n fun k => g (f k) := by
  induction n with
  | zero => rfl
  | succ n ih => rw [nest_succ, nest_succ, hg.map_min, ih]

/-- A nested minimum is the fold of `min` from the top element over all its terms. -/
theorem nest_min_eq_fold {α : Type*} [LinearOrder α] [OrderTop α] (n : ℕ) (f : Fin (n + 1) → α) :
    nest min n f = (Finset.univ : Finset (Fin (n + 1))).fold min ⊤ f := by
  induction n with
  | zero =>
    rw [nest_zero, Fin.univ_castSuccEmb, Finset.fold_cons, Finset.fold_map, Finset.univ_eq_empty,
      Finset.fold_empty, min_top_right]
    rfl
  | succ n ih =>
    rw [nest_succ, Fin.univ_castSuccEmb, Finset.fold_cons, Finset.fold_map, ih, min_comm]
    rfl

/-- The square root of the extended reals (`⊥` below zero, `√r` at a real `r ≥ 0`, `⊤` at `⊤`) is monotone. -/
theorem sqrt_mono : Monotone Ideal.sqrt := by
  intro x y hxy
  induction x using EReal.rec with
  | bot => exact bot_le
  | top =>
    have hy : y = ⊤ := top_le_iff.mp hxy
    subst hy
    exact le_rfl
  | coe r =>
    induction y using EReal.rec with
    | bot => exact absurd (le_bot_iff.mp hxy) (EReal.coe_ne_bot r)
    | top => exact le_top
    | coe s =>
      have hrs : r ≤ s := EReal.coe_le_coe_iff.mp hxy
      rw [Ideal.sqrt_coe, Ideal.sqrt_coe]
      by_cases h1 : r < 0
      · rw [if_pos h1]; exact bot_le
      · have h2 : ¬ s < 0 := fun h => h1 (lt_of_le_of_lt hrs h)
        rw [if_neg h1, if_neg h2]
        exact EReal.coe_le_coe_iff.mpr (Real.sqrt_le_sqrt hrs)

/-- The square root of a nested minimum is the nested minimum of the square roots. -/
theorem sqrt_nest_min (n : ℕ) (f : Fin (n + 1) → EReal) :
    Ideal.sqrt (nest min n f) = nest min n fun k => Ideal.sqrt (f k) :=
  map_nest_min sqrt_mono n f

/-- A sum over `N = B · K` indices, cut into `B` consecutive blocks of `K`. -/
theorem sum_blocks {M : Type*} [AddCommMonoid M] (B K N : ℕ) (h : B * K = N) (f : Fin N → M) :
    ∑ n : Fin N, f n = ∑ t : Fin B, ∑ q : Fin K, f ⟨t.val * K + q.val, by
      rw [← h]
      exact Nat.lt_of_lt_of_le (Nat.add_lt_add_left q.isLt _)
        (by rw [← Nat.succ_mul]; exact Nat.mul_le_mul_right _ t.isLt)⟩ := by
  subst h
  rw [← finProdFinEquiv.sum_comp f, Fintype.sum_prod_type]
  refine Finset.sum_congr rfl fun t _ => Finset.sum_congr rfl fun q _ => congrArg f (Fin.ext ?_)
  show q.val + K * t.val = t.val * K + q.val
  rw [Nat.mul_comm, Nat.add_comm]

end Idealize.ShloMosaic.NestMin

end
-- ==== Proof.Spec.lean ====
/-
  The loss both programs compute, as one function on the extended reals.

  For a row with features xr (64 of them), the shared weight row w and bias β, and the row's class parameters
  lin, bia, cen (3 each, looked up by the row's label):
    maps    = Σ_j xr j · w j + β
    logit n = maps · lin n + bia n
    top     = max(−∞, max_n logit n)                       (the softmax's shift)
    γ n     = exp(logit n − top) / Σ_k exp(logit k − top)  (softmax over the 3 centers)
    sq n    = (Σ_j xr j² − (2·cen n)·Σ_j xr j) + (64·cen n)·cen n
    term n  = γ n · sq n
  and the loss is (Σ_rows Σ_n term) / 524288. The constants 2, 64 and 524288 stay as the float words the programs
  print (the same word on both sides is never evaluated); the quotient is the library's extended-real one.

  The sum over the 524288 rows is regrouped as the kernel walks it: two halves (one per core), each 64 blocks of 4096
  consecutive rows. Addition of extended reals is commutative and associative, so no finiteness is needed.
-/
import Idealize.ShloMosaic.PureOps.Ideal
import Mathlib.Algebra.BigOperators.Fin
import Mathlib.Data.Finset.Fold
import proofs.«156799_j71476845740091_2_alg».proof.Proof.LibNestMin

noncomputable section

namespace Cert.CenterLoss

open Idealize.ShloMosaic

/-- The float words for 2, 64 and 524288, read at the ideal instance. -/
abbrev two : EReal := Ideal.ofBits .f32 0x40000000#32
abbrev c64 : EReal := Ideal.ofBits .f32 0x42800000#32
abbrev rows : EReal := Ideal.ofBits .f32 0x49000000#32

def maps (xr w : Fin 64 → EReal) (β : EReal) : EReal := (∑ j, xr j * w j) + β

def logit (xr w : Fin 64 → EReal) (β : EReal) (lin bia : Fin 3 → EReal) (n : Fin 3) : EReal :=
  maps xr w β * lin n + bia n

def top (z : Fin 3 → EReal) : EReal := max ⊥ ((Finset.univ : Finset (Fin 3)).fold max ⊥ z)

def gamma (z : Fin 3 → EReal) (n : Fin 3) : EReal :=
  Ideal.div (Ideal.exp (z n - top z)) (∑ k, Ideal.exp (z k - top z))

def sqdist (xr : Fin 64 → EReal) (cen : Fin 3 → EReal) (n : Fin 3) : EReal :=
  ((∑ j, xr j * xr j) - (two * cen n) * (∑ j, xr j)) + (c64 * cen n) * cen n

def term (xr w : Fin 64 → EReal) (β : EReal) (lin bia cen : Fin 3 → EReal) (n : Fin 3) : EReal :=
  gamma (logit xr w β lin bia) n * sqdist xr cen n

/-- One row's contribution. -/
def rowSum (xr w : Fin 64 → EReal) (β : EReal) (lin bia cen : Fin 3 → EReal) : EReal :=
  ∑ n, term xr w β lin bia cen n

/-- Row 4096·t + r: row r of block t. -/
theorem row_lt (t : Fin 128) (r : Fin 4096) : t.val * 4096 + r.val < 524288 := by
  have := t.isLt; have := r.isLt; omega

/-- Block 64·c + i: step i of core c. -/
theorem blk_lt (c : Fin 2) (i : Fin 64) : c.val * 64 + i.val < 128 := by
  have := c.isLt; have := i.isLt; omega

/-- A sum over the 524288 rows is the sum over core 0's 64 blocks plus the sum over core 1's, each block 4096 rows. -/
theorem sum_rows_split (f : Fin 524288 → EReal) :
    ∑ b, f b
      = (∑ i : Fin 64, ∑ r : Fin 4096, f ⟨(⟨(0 : Fin 2).val * 64 + i.val, blk_lt 0 i⟩ : Fin 128).val * 4096 + r.val, row_lt _ r⟩)
        + (∑ i : Fin 64, ∑ r : Fin 4096, f ⟨(⟨(1 : Fin 2).val * 64 + i.val, blk_lt 1 i⟩ : Fin 128).val * 4096 + r.val, row_lt _ r⟩) := by
  rw [NestMin.sum_blocks 128 4096 524288 (by norm_num) f]
  rw [NestMin.sum_blocks 2 64 128 (by norm_num)
    (fun t : Fin 128 => ∑ q : Fin 4096, f ⟨t.val * 4096 + q.val, row_lt t q⟩)]
  rw [Fin.sum_univ_two]

end Cert.CenterLoss

end
-- ==== Proof.IdealPayload.lean ====
/-
  The kernel body's arithmetic at the ideal instance, read at an index.

  From the loaded blocks — x0 : [4096,64] rows of features, x1 : [4096,9] rows of gathered parameters (lanes 0-2 the
  linear coefficients, 3-5 the biases, 6-8 the centers), x2 : [1,64] the weight row, x3 : [1,1] the bias — the body forms,
  per row r: maps = Σ_j x0(r,j)·x2(0,j) + x3(0,0); the three logits maps·lin + bia; their softmax (shifted by
  max(−∞, max of the logits)); the three squared distances (Σx² − (2·cen)·Σx) + (64·cen)·cen; the products γ·sq; their sum
  over the three lanes; and then the sum of these row sums over the 4096 rows, which it adds to the accumulator it read.
  Each lemma reads one stage at an index; the last says the stored accumulator is the old one plus the sum over the
  block's rows of the specification's row sum.
-/
import proofs.«156799_j71476845740091_2_alg».proof.Proof.Gen.KernelIdeal.Skeleton
import proofs.«156799_j71476845740091_2_alg».proof.Proof.LibKeepdims
import proofs.«156799_j71476845740091_2_alg».proof.Proof.LibRowOps
import proofs.«156799_j71476845740091_2_alg».proof.Proof.LibColSum
import proofs.«156799_j71476845740091_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Val

open Cert.KernelIdeal Cert.KernelIdeal.Facts₀
open Cert.KernelIdeal.Gen (k0_pay1 k0_pay4 k0_pay5 k0_pay6 k0_pay7 k0_pay8 k0_pay9)
open Idealize.ShloMosaic Idealize.ShloMosaic.ValueIdx Idealize.ShloMosaic.Keepdims Idealize.ShloMosaic.RowOps
  Idealize.ShloMosaic.ColSum
open Cert.CenterLoss

/-- The three groups of lanes of a parameter row. -/
def lane0 (n : Fin 3) : Fin 9 := ⟨n.val, by omega⟩
def lane3 (n : Fin 3) : Fin 9 := ⟨3 + n.val, by omega⟩
def lane6 (n : Fin 3) : Fin 9 := ⟨6 + n.val, by omega⟩

/-- Row r of a block, as functions of the lane. -/
abbrev xrow (x0 : FVec Ideal S4096x64 .f32) (r : Fin 4096) : Fin 64 → EReal := fun j => x0 (ix2 r j)
abbrev wrow (x2 : FVec Ideal S1x64 .f32) : Fin 64 → EReal := fun j => x2 (ix2 (0 : Fin 1) j)
abbrev lin (x1 : FVec Ideal S4096x9 .f32) (r : Fin 4096) : Fin 3 → EReal := fun n => x1 (ix2 r (lane0 n))
abbrev bia (x1 : FVec Ideal S4096x9 .f32) (r : Fin 4096) : Fin 3 → EReal := fun n => x1 (ix2 r (lane3 n))
abbrev cen (x1 : FVec Ideal S4096x9 .f32) (r : Fin 4096) : Fin 3 → EReal := fun n => x1 (ix2 r (lane6 n))

/-! ## Layout steps -/

theorem slice0_apply (x1 : FVec Ideal S4096x9 .f32) (r : Fin 4096) (n : Fin 3) :
    extractStridedSlice S4096x3 ![0, 0] (k0_pay4 (F := Ideal) x1) slices_S4096x9_o0_0_S4096x3 (ix2 r n) = x1 (ix2 r (lane0 n)) := by
  unfold k0_pay4
  rw [shapeCast_self]
  refine extractStridedSlice_apply _ _ _ _ (ix2 r (lane0 n)) fun a => ?_
  match a with
  | ⟨0, _⟩ => show r.val = 0 + r.val; omega
  | ⟨1, _⟩ => show n.val = 0 + n.val; omega

theorem slice3_apply (x1 : FVec Ideal S4096x9 .f32) (r : Fin 4096) (n : Fin 3) :
    extractStridedSlice S4096x3 ![0, 3] (k0_pay4 (F := Ideal) x1) slices_S4096x9_o0_3_S4096x3 (ix2 r n) = x1 (ix2 r (lane3 n)) := by
  unfold k0_pay4
  rw [shapeCast_self]
  refine extractStridedSlice_apply _ _ _ _ (ix2 r (lane3 n)) fun a => ?_
  match a with
  | ⟨0, _⟩ => show r.val = 0 + r.val; omega
  | ⟨1, _⟩ => show 3 + n.val = 3 + n.val; rfl

theorem slice6_apply (x1 : FVec Ideal S4096x9 .f32) (r : Fin 4096) (n : Fin 3) :
    extractStridedSlice S4096x3 ![0, 6] (k0_pay4 (F := Ideal) x1) slices_S4096x9_o0_6_S4096x3 (ix2 r n) = x1 (ix2 r (lane6 n)) := by
  unfold k0_pay4
  rw [shapeCast_self]
  refine extractStridedSlice_apply _ _ _ _ (ix2 r (lane6 n)) fun a => ?_
  match a with
  | ⟨0, _⟩ => show r.val = 0 + r.val; omega
  | ⟨1, _⟩ => show 6 + n.val = 6 + n.val; rfl

/-- The weight row broadcast down the rows reads the row's entry. -/
theorem wbcast_apply (x2 : FVec Ideal S1x64 .f32) (r : Fin 4096) (k : Fin 64) :
    broadcastTo S4096x64 x2 broadcasts_S1x64_S4096x64 (ix2 r k) = x2 (ix2 (0 : Fin 1) k) := by
  refine broadcastTo_apply x2 _ (ix2 r k) (ix2 (0 : Fin 1) k) fun ax => ?_
  match ax with
  | ⟨0, _⟩ => rfl
  | ⟨1, _⟩ => rfl

/-- The scalar taken out of the 1x1 bias block. -/
theorem bias_apply (x3 : FVec Ideal S1x1 .f32) : extractAt ![0, 0] x3 inpos_S1x1_p0_0 = x3 (ix2 (0 : Fin 1) (0 : Fin 1)) :=
  congrArg x3 (funext fun a => Fin.ext (by
    match a with
    | ⟨0, _⟩ => rfl
    | ⟨1, _⟩ => rfl))

/-- A row sum kept as a column and laid over the three lanes reads the row's sum. -/
theorem keep3_apply (v : FVec Ideal S4096 .f32) (r : Fin 4096) (n : Fin 3) :
    broadcastTo S4096x3 (shapeCast S4096x1 v shapeCasts_S4096_S4096x1) broadcasts_S4096x1_S4096x3 (ix2 r n) = v (ix1 r) := by
  rw [broadcastTo_a1_ab_apply, shapeCast_a_a1_apply]

/-- The word for −∞ is the neutral element the maximum reduction starts from. -/
theorem hneutral : (0xFF800000#32 : BitVec 32) = FKind.maximumf.neutral .f32 (.inl rfl) := rfl

/-! ## The stages -/

/-- maps, kept as a column. -/
theorem maps_apply (x0 : FVec Ideal S4096x64 .f32) (x2 : FVec Ideal S1x64 .f32) (x3 : FVec Ideal S1x1 .f32) (r : Fin 4096) (u : Fin 1) :
    addf (shapeCast S4096x1 (multiReduction .add [1] S4096 (mulf x0 (broadcastTo S4096x64 x2 broadcasts_S1x64_S4096x64)) 0x00000000#32 reduces_S4096x64_S4096 (.inl rfl) rfl) shapeCasts_S4096_S4096x1)
        (broadcast S4096x1 (extractAt ![0, 0] x3 inpos_S1x1_p0_0)) (ix2 r u)
      = maps (xrow x0 r) (wrow x2) (x3 (ix2 (0 : Fin 1) (0 : Fin 1))) := by
  show shapeCast S4096x1 _ shapeCasts_S4096_S4096x1 (ix2 r u) + extractAt ![0, 0] x3 inpos_S1x1_p0_0 = _
  rw [shapeCast_a_a1_apply, rowSum_apply, bias_apply]
  unfold maps
  refine congrArg (· + _) (Finset.sum_congr rfl fun k _ => ?_)
  show x0 (ix2 r k) * broadcastTo S4096x64 x2 broadcasts_S1x64_S4096x64 (ix2 r k) = _
  rw [wbcast_apply]

/-- The logits: v20 of the body. -/
def logitsV (x0 : FVec Ideal S4096x64 .f32) (x1 : FVec Ideal S4096x9 .f32) (x2 : FVec Ideal S1x64 .f32) (x3 : FVec Ideal S1x1 .f32) : FVec Ideal S4096x3 .f32 :=
  addf (mulf (broadcastTo S4096x3 (addf (shapeCast S4096x1 (multiReduction .add [1] S4096 (mulf x0 (broadcastTo S4096x64 x2 broadcasts_S1x64_S4096x64)) 0x00000000#32 reduces_S4096x64_S4096 (.inl rfl) rfl) shapeCasts_S4096_S4096x1)
        (broadcast S4096x1 (extractAt ![0, 0] x3 inpos_S1x1_p0_0))) broadcasts_S4096x1_S4096x3)
      (extractStridedSlice S4096x3 ![0, 0] (k0_pay4 (F := Ideal) x1) slices_S4096x9_o0_0_S4096x3))
    (extractStridedSlice S4096x3 ![0, 3] (k0_pay4 (F := Ideal) x1) slices_S4096x9_o0_3_S4096x3)

theorem logitsV_apply (x0 : FVec Ideal S4096x64 .f32) (x1 : FVec Ideal S4096x9 .f32) (x2 : FVec Ideal S1x64 .f32) (x3 : FVec Ideal S1x1 .f32)
    (r : Fin 4096) (n : Fin 3) :
    logitsV x0 x1 x2 x3 (ix2 r n) = logit (xrow x0 r) (wrow x2) (x3 (ix2 (0 : Fin 1) (0 : Fin 1))) (lin x1 r) (bia x1 r) n := by
  unfold logitsV
  show broadcastTo S4096x3 _ broadcasts_S4096x1_S4096x3 (ix2 r n) * extractStridedSlice S4096x3 ![0, 0] (k0_pay4 (F := Ideal) x1) slices_S4096x9_o0_0_S4096x3 (ix2 r n)
      + extractStridedSlice S4096x3 ![0, 3] (k0_pay4 (F := Ideal) x1) slices_S4096x9_o0_3_S4096x3 (ix2 r n) = _
  rw [broadcastTo_a1_ab_apply, maps_apply, slice0_apply, slice3_apply]
  rfl

/-- The softmax of a [4096,3] array along its lanes, as the body spells it: v31 from v20. -/
def softmaxV (z : FVec Ideal S4096x3 .f32) : FVec Ideal S4096x3 .f32 :=
  divf (exp (subf z (broadcastTo S4096x3 (shapeCast S4096x1 (maximumf (broadcast S4096 (Scalar.ofBits .f32 0xFF800000#32)) (multiReduction .maximumf [1] S4096 z 0xFF800000#32 reduces_S4096x3_S4096 (.inl rfl) hneutral)) shapeCasts_S4096_S4096x1) broadcasts_S4096x1_S4096x3)))
    (broadcastTo S4096x3 (shapeCast S4096x1 (multiReduction .add [1] S4096 (exp (subf z (broadcastTo S4096x3 (shapeCast S4096x1 (maximumf (broadcast S4096 (Scalar.ofBits .f32 0xFF800000#32)) (multiReduction .maximumf [1] S4096 z 0xFF800000#32 reduces_S4096x3_S4096 (.inl rfl) hneutral)) shapeCasts_S4096_S4096x1) broadcasts_S4096x1_S4096x3))) 0x00000000#32 reduces_S4096x3_S4096 (.inl rfl) rfl) shapeCasts_S4096_S4096x1) broadcasts_S4096x1_S4096x3)

/-- The shift: max(−∞, max of the row). -/
theorem shift_apply (z : FVec Ideal S4096x3 .f32) (r : Fin 4096) :
    maximumf (broadcast S4096 (Scalar.ofBits .f32 0xFF800000#32)) (multiReduction .maximumf [1] S4096 z 0xFF800000#32 reduces_S4096x3_S4096 (.inl rfl) hneutral) (ix1 r)
      = top (fun k => z (ix2 r k)) := by
  show max (Ideal.ofBits .f32 0xFF800000#32) (multiReduction .maximumf [1] S4096 z 0xFF800000#32 reduces_S4096x3_S4096 (.inl rfl) hneutral (ix1 r)) = _
  rw [rowMax_apply, ofBits_neg_inf]
  rfl

/-- The shifted exponentials. -/
theorem expshift_apply (z : FVec Ideal S4096x3 .f32) (r : Fin 4096) (n : Fin 3) :
    exp (subf z (broadcastTo S4096x3 (shapeCast S4096x1 (maximumf (broadcast S4096 (Scalar.ofBits .f32 0xFF800000#32)) (multiReduction .maximumf [1] S4096 z 0xFF800000#32 reduces_S4096x3_S4096 (.inl rfl) hneutral)) shapeCasts_S4096_S4096x1) broadcasts_S4096x1_S4096x3)) (ix2 r n)
      = Ideal.exp (z (ix2 r n) - top (fun k => z (ix2 r k))) := by
  show Ideal.exp (z (ix2 r n) - broadcastTo S4096x3 _ broadcasts_S4096x1_S4096x3 (ix2 r n)) = _
  rw [keep3_apply, shift_apply]

theorem softmaxV_apply (z : FVec Ideal S4096x3 .f32) (r : Fin 4096) (n : Fin 3) :
    softmaxV z (ix2 r n) = gamma (fun k => z (ix2 r k)) n := by
  unfold softmaxV
  show Ideal.div (exp (F := Ideal) _ (ix2 r n)) (broadcastTo S4096x3 _ broadcasts_S4096x1_S4096x3 (ix2 r n)) = _
  rw [keep3_apply, rowSum_apply, expshift_apply]
  unfold gamma
  refine congrArg (Ideal.div _) (Finset.sum_congr rfl fun k _ => ?_)
  rw [expshift_apply]

/-- The squared distances: v46 of the body, from the sums of squares and the sums, kept as columns. -/
theorem sq_apply (x0 : FVec Ideal S4096x64 .f32) (x1 : FVec Ideal S4096x9 .f32) (r : Fin 4096) (n : Fin 3) :
    addf (subf (broadcastTo S4096x3 (k0_pay7 (F := Ideal) x0) broadcasts_S4096x1_S4096x3) (mulf (k0_pay8 (F := Ideal) x1) (k0_pay9 (F := Ideal) x0)))
        (mulf (mulf (broadcast S4096x3 (Scalar.ofBits .f32 0x42800000#32)) (k0_pay5 (F := Ideal) x1)) (k0_pay5 (F := Ideal) x1)) (ix2 r n)
      = sqdist (xrow x0 r) (cen x1 r) n := by
  show (broadcastTo S4096x3 (k0_pay7 (F := Ideal) x0) broadcasts_S4096x1_S4096x3 (ix2 r n) - k0_pay8 (F := Ideal) x1 (ix2 r n) * k0_pay9 (F := Ideal) x0 (ix2 r n))
      + (Ideal.ofBits .f32 0x42800000#32 * k0_pay5 (F := Ideal) x1 (ix2 r n)) * k0_pay5 (F := Ideal) x1 (ix2 r n) = _
  have h5 : k0_pay5 (F := Ideal) x1 (ix2 r n) = x1 (ix2 r (lane6 n)) := slice6_apply x1 r n
  have h7 : broadcastTo S4096x3 (k0_pay7 (F := Ideal) x0) broadcasts_S4096x1_S4096x3 (ix2 r n) = ∑ j, x0 (ix2 r j) * x0 (ix2 r j) := by
    unfold k0_pay7
    rw [keep3_apply, rowSum_apply]
    rfl
  have h9 : k0_pay9 (F := Ideal) x0 (ix2 r n) = ∑ j, x0 (ix2 r j) := by
    unfold k0_pay9
    rw [keep3_apply, rowSum_apply]
  have h8 : k0_pay8 (F := Ideal) x1 (ix2 r n) = Ideal.ofBits .f32 0x40000000#32 * x1 (ix2 r (lane6 n)) := by
    unfold k0_pay8
    show Ideal.ofBits .f32 0x40000000#32 * k0_pay5 (F := Ideal) x1 (ix2 r n) = _
    rw [h5]
  rw [h7, h8, h9, h5]
  rfl

/-- The body's γ is the softmax of its logits. -/
theorem pay6_eq (x0 : FVec Ideal S4096x64 .f32) (x1 : FVec Ideal S4096x9 .f32) (x2 : FVec Ideal S1x64 .f32) (x3 : FVec Ideal S1x1 .f32) :
    k0_pay6 (F := Ideal) x0 x1 x2 x3 = softmaxV (logitsV x0 x1 x2 x3) := rfl

/-- One block's partial sum: the sum over its rows of the specification's row sum. -/
def blockSum (x0 : FVec Ideal S4096x64 .f32) (x1 : FVec Ideal S4096x9 .f32) (x2 : FVec Ideal S1x64 .f32) (x3 : FVec Ideal S1x1 .f32) : EReal :=
  ∑ r : Fin 4096, rowSum (xrow x0 r) (wrow x2) (x3 (ix2 (0 : Fin 1) (0 : Fin 1))) (lin x1 r) (bia x1 r) (cen x1 r)

set_option maxHeartbeats 1600000 in
/-- What the body stores into the accumulator: what it read there plus the block's partial sum. -/
theorem pay1_apply (x0 : FVec Ideal S4096x64 .f32) (x1 : FVec Ideal S4096x9 .f32) (x2 : FVec Ideal S1x64 .f32) (x3 : FVec Ideal S1x1 .f32)
    (v52 : FVec Ideal S1x1 .f32) :
    k0_pay1 (F := Ideal) (k0_pay5 (F := Ideal) x1) (k0_pay6 (F := Ideal) x0 x1 x2 x3) (k0_pay7 (F := Ideal) x0) (k0_pay8 (F := Ideal) x1) (k0_pay9 (F := Ideal) x0) v52 (ix2 (0 : Fin 1) (0 : Fin 1))
      = v52 (ix2 (0 : Fin 1) (0 : Fin 1)) + blockSum x0 x1 x2 x3 := by
  unfold k0_pay1
  rw [shapeCast_self]
  show v52 (ix2 (0 : Fin 1) (0 : Fin 1)) + shapeCast S1x1 _ shapeCasts_S1_S1x1 (ix2 (0 : Fin 1) (0 : Fin 1)) = _
  refine congrArg (v52 (ix2 (0 : Fin 1) (0 : Fin 1)) + ·) ?_
  rw [shapeCast_a_a1_apply, colSum_apply]
  unfold blockSum
  refine Finset.sum_congr rfl fun r _ => ?_
  rw [shapeCast_a_a1_apply, rowSum_apply]
  unfold rowSum
  refine Finset.sum_congr rfl fun n _ => ?_
  show k0_pay6 (F := Ideal) x0 x1 x2 x3 (ix2 r n) * _ = _
  rw [pay6_eq, softmaxV_apply, sq_apply]
  unfold term
  refine congrArg (· * _) (congrArg (fun z => gamma z n) (funext fun k => ?_))
  exact logitsV_apply x0 x1 x2 x3 r k

end Cert.KernelIdeal.Val

end
-- ==== Proof.IdealResult.lean ====
/-
  The kernel's result at the ideal instance.

  The accumulator after a core's first point is 0 + (that point's partial sum) and after every later point what it was plus
  that point's partial sum: after step k of core q it is the sum of the partial sums of blocks 64q … 64q + k. At a core's
  last point the output block's corner takes that value, and the pipeline writes the block back to rows 8q … 8q + 7 of the
  [16,128] result; the two cores' blocks are disjoint, so the result array ends with core q's total at (8q, 0). The seven
  host lines after the region add the entries (0,0) and (8,0) and divide by 524288.
-/
import proofs.«156799_j71476845740091_2_alg».proof.Proof.IdealPieces
import proofs.«156799_j71476845740091_2_alg».proof.Proof.IdealBlocks
import proofs.«156799_j71476845740091_2_alg».proof.Proof.IdealPayload
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Frm Cert.KernelIdeal.Facts₀
open Cert.KernelIdeal.Gen (hostOps1 launch0 N_0 flush0_4 k0_pay2 k0_pay3)
open Idealize.ShloMosaic Idealize.ShloMosaic.TcCoe Idealize.SL.Sem Idealize.ShloMosaic.StableHlo Idealize.ShloMosaic.ValueIdx
open Idealize.ShloMosaic.Pipeline (Dat)

variable (m : (ℓ : Loc nD τ sig) → Buf (Elt Ideal) ℓ)

/-- The partial sum of the block point t fetches. -/
def partialAt (c : Dev nD) (t : Fin cfg0.N) : EReal :=
  blockSum (iblk m c 0 t) (iblk m c 1 t) (iblk m c 2 t) (iblk m c 3 t)

/-- The same by position, zero past the grid. -/
def partialN (c : Dev nD) (n : ℕ) : EReal := if h : n < cfg0.N then partialAt m c ⟨n, h⟩ else 0

theorem pay3_zero (y : S1x1.Idx) : k0_pay3 (F := Ideal) y = 0 := by
  unfold k0_pay3
  rw [shapeCast_self]
  exact Ideal.ofBits_zero_f32

theorem outsAt0_congr (c : Dev nD) {n n' : ℕ} (e : n = n') (h : n < cfg0.N) (h' : n' < cfg0.N) :
    outsAt0 m c n h = outsAt0 m c n' h' := by subst e; rfl

/-- After a core's first point. -/
theorem acc_first (c : Dev nD) (t : Fin cfg0.N) (h0 : t.val % 64 = 0) :
    (outsAt0 m c t.val t.isLt).2 (ix2 (0 : Fin 1) (0 : Fin 1)) = 0 + partialAt m c t := by
  have h1 : ¬t.val % 64 = 63 := by omega
  rw [outsAt0_A m c t h0 h1]
  dsimp only
  rw [sout0_A_0_eq]
  unfold accNew
  rw [pay1_apply, pay3_zero]
  rfl

/-- After any later point. -/
theorem acc_next (c : Dev nD) (t : Fin cfg0.N) (h0 : ¬t.val % 64 = 0) :
    (outsAt0 m c t.val t.isLt).2 (ix2 (0 : Fin 1) (0 : Fin 1))
      = (outsAt0 m c (t.val - 1) (Nat.lt_of_le_of_lt (Nat.sub_le _ _) t.isLt)).2 (ix2 (0 : Fin 1) (0 : Fin 1)) + partialAt m c t := by
  by_cases h1 : t.val % 64 = 63
  · rw [outsAt0_C m c t h0 h1]
    dsimp only
    rw [sout0_C_0_eq]
    unfold accNew
    rw [pay1_apply]
    rfl
  · rw [outsAt0_B m c t h0 h1]
    dsimp only
    rw [sout0_B_0_eq]
    unfold accNew
    rw [pay1_apply]
    rfl

theorem pt_lt (q : Fin 2) (k : ℕ) (hk : k < 64) : q.val * 64 + k < cfg0.N := by
  have hN : cfg0.N = 128 := N_0
  have := q.isLt; omega

/-- After step k of core q: the sum of the partial sums of blocks 64q … 64q + k. -/
theorem acc_sum (c : Dev nD) (q : Fin 2) : ∀ (k : ℕ) (hk : k < 64),
    (outsAt0 m c (q.val * 64 + k) (pt_lt q k hk)).2 (ix2 (0 : Fin 1) (0 : Fin 1))
      = ∑ j ∈ Finset.range (k + 1), partialN m c (q.val * 64 + j) := by
  intro k
  induction k with
  | zero =>
    intro hk
    have h := acc_first m c ⟨q.val * 64 + 0, pt_lt q 0 hk⟩ (by show (q.val * 64 + 0) % 64 = 0; omega)
    rw [Finset.sum_range_one]
    unfold partialN
    rw [dif_pos (pt_lt q 0 hk), ← zero_add (partialAt m c _)]
    exact h
  | succ k ih =>
    intro hk
    have h := acc_next m c ⟨q.val * 64 + (k + 1), pt_lt q (k + 1) hk⟩ (by show ¬(q.val * 64 + (k + 1)) % 64 = 0; omega)
    rw [Finset.sum_range_succ, ← ih (by omega)]
    have e : outsAt0 m c (q.val * 64 + (k + 1) - 1) (Nat.lt_of_le_of_lt (Nat.sub_le _ _) (pt_lt q (k + 1) hk))
        = outsAt0 m c (q.val * 64 + k) (pt_lt q k (by omega)) := outsAt0_congr m c (by omega) _ _
    rw [e] at h
    rw [h]
    unfold partialN
    rw [dif_pos (pt_lt q (k + 1) hk)]

/-- Core q's total: the sum over its 64 blocks. -/
theorem acc_total (c : Dev nD) (q : Fin 2) :
    (outsAt0 m c (q.val * 64 + 63) (pt_lt q 63 (by norm_num))).2 (ix2 (0 : Fin 1) (0 : Fin 1))
      = ∑ i : Fin 64, partialAt m c ⟨q.val * 64 + i.val, pt_lt q i.val i.isLt⟩ := by
  rw [acc_sum m c q 63 (by norm_num), Finset.sum_range (fun j => partialN m c (q.val * 64 + j))]
  refine Finset.sum_congr rfl fun i _ => ?_
  unfold partialN
  rw [dif_pos (pt_lt q i.val i.isLt)]

/-- At a core's last point the output block's corner holds the accumulator. -/
theorem corner_eq (c : Dev nD) (t : Fin cfg0.N) (h1 : t.val % 64 = 63) :
    (outsAt0 m c t.val t.isLt).1 (ix2 (0 : Fin 8) (0 : Fin 128)) = (outsAt0 m c t.val t.isLt).2 (ix2 (0 : Fin 1) (0 : Fin 1)) := by
  have h0 : ¬t.val % 64 = 0 := by omega
  rw [outsAt0_C m c t h0 h1]
  dsimp only
  rw [out0_C_4_corner, sout0_C_0_eq]

/-! ## The result array -/

/-- An index of the [16,128] array is in point t's block iff its row is among the block's eight. -/
theorem mem_blk4 (t : Fin cfg0.N) (i : S16x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v11).slice (win0_4.rect t)).set ↔ _
  rw [View.set_slice_whole, Rect.mem_set_unit]; exact Iff.rfl

/-- The two points that write back (the cores' last) write disjoint blocks. -/
theorem hdisj4 : ∀ t t' : Fin cfg0.N, (cfg0.win 4).flush t = true → (cfg0.win 4).flush t' = true → t ≠ t' →
    Disjoint ((cfg0.win 4).blk t).view.set ((cfg0.win 4).blk t').view.set := by
  intro t t' hf hf' hne
  rw [Finset.disjoint_left]
  intro i hi hi'
  have h := (mem_blk4 t i).mp hi 0
  have h' := (mem_blk4 t' i).mp hi' 0
  obtain ⟨-, -, -, -, -, -, -, -, e, -⟩ := idx_facts t
  obtain ⟨-, -, -, -, -, -, -, -, e', -⟩ := idx_facts t'
  rw [e] at h; rw [e'] at h'
  have hm := (flush0_4 t).mp hf
  have hm' := (flush0_4 t').mp hf'
  have hs : S8x128.size (0 : Fin 2) = 8 := rfl
  rw [hs] at h h'
  exact hne (Fin.ext (by omega))

/-- The corner of the block a core's last point wrote back, in the final array. -/
theorem arr_corner (c : Dev nD) (t : Fin cfg0.N) (h1 : t.val % 64 = 63) :
    (dats m 0 c).arrAt 4 cfg0.N (((cfg0.win 4).blk t).view.emb (ix2 (0 : Fin 8) (0 : Fin 128)))
      = (outsAt0 m c t.val t.isLt).1 (ix2 (0 : Fin 8) (0 : Fin 128)) := by
  have h := (dats m 0 c).arrAt_emb_eq_flushed 4 hdisj4 t ((flush0_4 t).mpr h1) (ix2 (0 : Fin 8) (0 : Fin 128))
  rw [h]
  show (cfg0.win 4).cut (grid0.coords t) ((dats m 0 c).after 4 t) (ix2 (0 : Fin 8) (0 : Fin 128)) = _
  rw [after0_4]
  rfl

theorem emb_corner (t : Fin cfg0.N) :
    ((cfg0.win 4).blk t).view.emb (ix2 (0 : Fin 8) (0 : Fin 128)) = (ix2 ⟨t.val / 64 * 8, by
      have hN : cfg0.N = 128 := N_0
      have := t.isLt; omega⟩ (0 : Fin 128) : S16x128.Idx) := by
  obtain ⟨-, -, -, -, -, -, -, -, e0, e1⟩ := idx_facts t
  funext a; refine Fin.ext ?_
  match a with
  | ⟨0, _⟩ => show win0_4.index t (0 : Fin 2) * 8 + 1 * 0 = t.val / 64 * 8; rw [e0]; omega
  | ⟨1, _⟩ => show win0_4.index t (1 : Fin 2) * 128 + 1 * 0 = 0; rw [e1]

end Cert.KernelIdeal.Val

end
-- ==== Proof.IdealTail.lean ====
/-
  The seven host lines after the region, at the ideal instance: the scalar result is
  (A(0,0) + A(8,0)) / 524288 for the [16,128] array A the pipeline wrote back — the two 1x1 slices reshaped to scalars,
  added, divided by the constant.
-/
import proofs.«156799_j71476845740091_2_alg».proof.Proof.IdealResult

set_option maxRecDepth 16384

noncomputable section

namespace Cert.KernelIdeal.Val

open Cert.KernelIdeal Cert.KernelIdeal.Frm Cert.KernelIdeal.Facts₀
open Cert.KernelIdeal.Gen (hostOps1 launch0 N_0)
open Idealize.ShloMosaic Idealize.ShloMosaic.TcCoe Idealize.SL.Sem Idealize.ShloMosaic.StableHlo Idealize.ShloMosaic.ValueIdx

variable (m : (ℓ : Loc nD τ sig) → Buf (Elt Ideal) ℓ)

/-- Entry (a, b) of the result array as the later lines find it. -/
def finalAt (c : Dev nD) (a : Fin 16) (b : Fin 128) : EReal := (dats m 0 c).arrAt 4 cfg0.N (ix2 a b)

theorem scalar_of_11 (v : S1x1.Idx → EReal) (i : S_.Idx) :
    shapeCast S_ v shapeCasts_S1x1_S_ i = v (ix2 (0 : Fin 1) (0 : Fin 1)) := by
  refine shapeCast_apply v _ i (ix2 (0 : Fin 1) (0 : Fin 1)) ?_
  rw [Shape.rowMajor_val_two]
  have h := (S_.rowMajor i).isLt
  have hn : S_.numel = 1 := by decide
  show (0 : ℕ) * 1 + 0 = _
  omega

/-- The later lines' arithmetic on an array A: the two corner entries added and divided by the constant. -/
theorem tail_fun (A : S16x128.Idx → EReal) (i : S_.Idx) :
    Host.divf (F := Ideal) (addf (F := Ideal)
        (shapeCast S_ (extractStridedSlice S1x1 ![0, 0] A slices_S16x128_S1x1_0_0) shapeCasts_S1x1_S_)
        (shapeCast S_ (extractStridedSlice S1x1 ![8, 0] A slices_S16x128_S1x1_8_0) shapeCasts_S1x1_S_))
      (constant (F := Ideal) S_ .f32 0x49000000#32) i
      = Ideal.div (A (ix2 (0 : Fin 16) (0 : Fin 128)) + A (ix2 (8 : Fin 16) (0 : Fin 128))) (Ideal.ofBits .f32 0x49000000#32) := by
  show Ideal.div (shapeCast S_ (extractStridedSlice S1x1 ![0, 0] A slices_S16x128_S1x1_0_0) shapeCasts_S1x1_S_ i
      + shapeCast S_ (extractStridedSlice S1x1 ![8, 0] A slices_S16x128_S1x1_8_0) shapeCasts_S1x1_S_ i)
      (Ideal.ofBits .f32 0x49000000#32) = _
  rw [scalar_of_11, scalar_of_11]
  refine congrArg (Ideal.div · _) (congrArg₂ (· + ·) ?_ ?_)
  · refine extractStridedSlice_apply _ _ _ _ (ix2 (0 : Fin 16) (0 : Fin 128)) fun a => ?_
    match a with
    | ⟨0, _⟩ => rfl
    | ⟨1, _⟩ => rfl
  · refine extractStridedSlice_apply _ _ _ _ (ix2 (8 : Fin 16) (0 : Fin 128)) fun a => ?_
    match a with
    | ⟨0, _⟩ => rfl
    | ⟨1, _⟩ => rfl

/-- The later lines from any contents of the device buffers: the scalar is (A(0,0) + A(8,0)) / 524288 for A the contents
    of the pipeline's result buffer. -/
theorem tail_of (Vv : Valuation τ sig (Elt Ideal)) (i : S_.Idx) :
    (StableHlo.after hostOps1 Vv (Proc.devRef .tc main_v17) : S_.Idx → EReal) i
      = Ideal.div (@id EReal (Vv (Proc.devRef .tc main_v11) (ix2 (0 : Fin 16) (0 : Fin 128)))
          + @id EReal (Vv (Proc.devRef .tc main_v11) (ix2 (8 : Fin 16) (0 : Fin 128))))
          (Ideal.ofBits .f32 0x49000000#32) := by
  after_results
  exact tail_fun (Vv (Proc.devRef .tc main_v11)) i

theorem tail_result (c : Dev nD) (i : S_.Idx) :
    (Pipeline.afterTail₀ cfgs (dats m) 0 (V0 m) [hostOps1] c main_v17 : S_.Idx → EReal) i
      = Ideal.div (finalAt m c 0 0 + finalAt m c 8 0) (Ideal.ofBits .f32 0x49000000#32) := by
  have hA : Pipeline.withArrays (cfgs 0).spec c (V0 m c) (fun w => (dats m 0 c).arrAt w (cfgs 0).N) (Proc.devRef .tc main_v11)
      = (dats m 0 c).arrAt 4 cfg0.N := Pipeline.withArrays_arr spec0 launch0.win.arr_inj c _ _ 4
  unfold Pipeline.afterTail₀ finalAt
  refine (tail_of (Pipeline.withArrays (cfgs 0).spec c (V0 m c) (fun w => (dats m 0 c).arrAt w (cfgs 0).N)) i).trans ?_
  rw [hA]
  rfl

end Cert.KernelIdeal.Val

end
-- ==== Proof.LibNary3.lean ====
/-
  The result of a host operation over a literal family of THREE operand buffers (a concatenation of three arrays) with
  each operand's contents read at its own buffer: the composed function applied to the three contents in order. With the
  operands spelt this way the contents of each can be computed further, which the general statement (the operand read at
  an index of the family, under a binder) does not allow.
-/
import Idealize.ShloMosaic.Lib.StableHlo.Run

noncomputable section

namespace Idealize.ShloMosaic.StableHlo

variable {τ : Topo} {sig : RefSig} {Val : EltTy → Type} {x a b y : Ref sig .tc}

/-- A three-operand operation's result at its result buffer: its function of the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, in the form a single simplification pass uses (the result buffer not indexed). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo

end
-- ==== Proof.LibRowTake.lean ====
/-
  Row lookups and row accumulations with one integer index per row, read at an index.

  `x[idx]` for a table `x : [N]` or `x : [N, C]` and an index column `idx : [R, 1]` lowers to a gather whose start
  index is the column's entry, read signed and clamped into `[0, N - 1]`; the accumulation `.at[idx].add(u)` of
  rows `u : [R, C]` into `[N, C]` lowers to a scatter whose start index is the column's entry, read signed and NOT
  clamped: a row whose index falls outside `[0, N)` is dropped.  The lemmas below say which table element a result
  element reads, and which row an update row lands in.
-/
import Idealize.ShloMosaic.Lib.ValueIdx

noncomputable section

namespace Idealize.ShloMosaic.RowTake

open Idealize.ShloMosaic Idealize.ShloMosaic.ValueIdx

/-- A signed integer clamped into the rows `[0, N - 1]` of a table with `N > 0` rows. -/
def clampRow (N : Nat) (hN : 0 < N) (v : Int) : Fin N := ⟨min v.toNat (N - 1), by omega⟩

/-- An integer that already is a row is its own clamp. -/
theorem clampRow_of_eq {N : Nat} (hN : 0 < N) (v : Int) (r : Fin N) (h : v = (r.val : Int)) : clampRow N hN v = r := by
  refine Fin.ext ?_
  show min v.toNat (N - 1) = r.val
  have := r.isLt
  subst h
  rw [Int.toNat_natCast]
  omega

/-! ## A flat table `[N]` looked up at a column `[R, 1]` of indices -/

/-- The dimension numbers of `x[idx]` for `x : [N]`, `idx : [R, 1]`, result `[R]`. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `e` reads the table at the clamp of the column's entry `e`. -/
theorem flat_operandIdx {N R w : Nat} (hN : 0 < N)
    (wf : GatherDims.WF ⟨1, ![N]⟩ ⟨2, ![R, 1]⟩ ⟨1, ![R]⟩ [] [0] [] [0] [] 1 ![1])
    (idx : IVec ⟨2, ![R, 1]⟩ w) (e : Fin R) :
    (flatDims N R wf).operandIdx (ix1 e) idx = ix1 (clampRow N hN (idx (ix2 e (0 : Fin 1))).toInt) := by
  funext a
  obtain rfl : a = 0 := Subsingleton.elim _ _
  refine Fin.ext ?_
  show (flatDims N R wf).start (ix1 e) idx 0 + (flatDims N R wf).batchCoord (ix1 e) 0
    + (flatDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 e) ⟨List.idxOf (0 : Fin 1) (flatDims N R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## A table of rows `[N, C]` looked up at a column `[R, 1]` of indices -/

/-- The dimension numbers of `x[idx]` for `x : [N, C]`, `idx : [R, 1]`, result `[R, C]`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- On the row axis the operand index is the clamp of the column's entry. -/
theorem row_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (0 : Fin 2)).val = (clampRow N hN (idx (ix2 e (0 : Fin 1))).toInt).val := by
  show (rowDims N C R wf).start (ix2 e c) idx (0 : Fin 2) + (rowDims N C R wf).batchCoord (ix2 e c) (0 : Fin 2)
    + (rowDims N C R wf).offCoord (ix2 e c) (0 : Fin 2) = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N C R wf).startIndexMap from List.mem_singleton.mpr rfl)]
  have hsi : (rowDims N C R wf).siIdx (ix2 e c) ⟨List.idxOf (0 : Fin 2) (rowDims N C R wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- On the lane axis the operand index is the result's lane. -/
theorem row_operandIdx_lane {N C R w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    ((rowDims N C R wf).operandIdx (ix2 e c) idx (1 : Fin 2)).val = c.val := by
  show (rowDims N C R wf).start (ix2 e c) idx (1 : Fin 2) + (rowDims N C R wf).batchCoord (ix2 e c) (1 : Fin 2)
    + (rowDims N C R wf).offCoord (ix2 e c) (1 : Fin 2) = _
  have h10 : (1 : Fin 2) ∉ ([0] : List (Fin 2)) := by decide
  have hs : (rowDims N C R wf).start (ix2 e c) idx (1 : Fin 2) = 0 := by
    unfold GatherDims.start
    rw [dif_neg (show (1 : Fin 2) ∉ (rowDims N C R wf).startIndexMap from h10)]
  have ho : (rowDims N C R wf).offCoord (ix2 e c) (1 : Fin 2) = c.val := by
    unfold GatherDims.offCoord
    rw [dif_pos ((GatherDims.mem_sKept _ _).mpr ⟨h10, List.not_mem_nil⟩)]
    rfl
  rw [GatherDims.batchCoord_eq_zero _ _ _ List.not_mem_nil, hs, ho]; omega

/-- Result element `(e, c)` reads the table's row at the clamp of the column's entry `e`, in lane `c`. -/
theorem row_operandIdx {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowDims N C R wf).operandIdx (ix2 e c) idx = ix2 (clampRow N hN (idx (ix2 e (0 : Fin 1))).toInt) c := by
  funext a
  refine Fin.ext ?_
  match a with
  | ⟨0, _⟩ => exact row_operandIdx_row hN wf idx e c
  | ⟨1, _⟩ => exact row_operandIdx_lane wf idx e c

/-! ## Rows `[R, C]` accumulated into a table `[N, C]` at a column `[R, 1]` of indices -/

/-- The dimension numbers of `x.at[idx].add(u)` for `x : [N, C]`, `idx : [R, 1]`, `u : [R, C]`. -/
abbrev rowScatterDims (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- An update element `(e, c)` that lands on table element `i` has the column's entry `e`, read signed, equal to
    `i`'s row: the row index is not clamped, and a row outside the table lands nowhere. -/
theorem rowScatter_row_of_some {N C R w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (i : (⟨2, ![N, C]⟩ : Shape).Idx)
    (h : (rowScatterDims N C R wf).resultIdx? (ix2 e c) idx = some i) :
    (idx (ix2 e (0 : Fin 1))).toInt = ((i 0).val : Int) := by
  have hs : (rowScatterDims N C R wf).start (ix2 e c) idx (0 : Fin 2) = (idx (ix2 e (0 : Fin 1))).toInt := by
    unfold ScatterDims.start
    rw [dif_pos (show (0 : Fin 2) ∈ (rowScatterDims N C R wf).scatterDimsToOperandDims from List.mem_singleton.mpr rfl)]
    have hsi : (rowScatterDims N C R wf).siIdx (ix2 e c) ⟨List.idxOf (0 : Fin 2) (rowScatterDims N C R wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw : (rowScatterDims N C R wf).window (ix2 e c) (0 : Fin 2) = 0 := by
    unfold ScatterDims.window
    rw [dif_neg (show (0 : Fin 2) ∉ (rowScatterDims N C R wf).sKept from
      (by decide : (0 : Fin 2) ∉ (List.finRange 2).filter (fun a => a ∉ ([0] : List (Fin 2)))))]
  unfold ScatterDims.resultIdx? at h
  split at h
  · rename_i hin
    have h0 := congrArg (fun f => (f (0 : Fin 2)).val) (Option.some.inj h)
    have hb := hin (0 : Fin 2)
    rw [hs, hw] at hb
    simp only [hs, hw] at h0
    have h0' : ((idx (ix2 e (0 : Fin 1))).toInt + ((0 : Nat) : Int)).toNat = (i 0).val := h0
    omega
  · exact absurd h (by simp)

end Idealize.ShloMosaic.RowTake

end
-- ==== Proof.IdealHostIn.lean ====
/-
  What the region finds in the two arrays the host lines before it compute, at the ideal instance or any other.

  The thirteen lines build the [1000,9] table by joining, along the lanes, the linear coefficients [1000,1,3] reshaped to
  [1000,3], the biases [1000,3] and the centers [1000,3,1] reshaped to [1000,3]; wrap each negative label by +1000; lay the
  labels as a column [524288,1]; gather the table's rows at that column; and reshape the bias [1] to [1,1].
  A gathered entry (b, q) is the table at row (the column's entry b, read signed and clamped into [0, 999]), lane q.
-/
import proofs.«156799_j71476845740091_2_alg».proof.Proof.IdealFrame
import proofs.«156799_j71476845740091_2_alg».proof.Proof.LibNary3
import proofs.«156799_j71476845740091_2_alg».proof.Proof.LibRowTake
import Idealize.ShloMosaic.Lib.StableHlo.Run
import Idealize.ShloMosaic.Lib.Pipeline.Value
import Idealize.ShloMosaic.Lib.ValueIdx

set_option maxRecDepth 16384

noncomputable section

namespace Cert.KernelIdeal.Val

open Cert.KernelIdeal Cert.KernelIdeal.Frm Cert.KernelIdeal.Facts₀
open Cert.KernelIdeal.Gen (hostOps0)
open Idealize.ShloMosaic Idealize.ShloMosaic.TcCoe Idealize.SL.Sem Idealize.ShloMosaic.StableHlo Idealize.ShloMosaic.ValueIdx
  Idealize.ShloMosaic.RowTake

variable {F : FTy → Type} [FloatOps F]
variable (m : (ℓ : Loc nD τ sig) → Buf (Elt F) ℓ)

/-- Each operation's result at its own result buffer, a three-operand one with each operand read at its own buffer. -/
macro "after_results3" : tactic =>
  `(tactic| (simp only [StableHlo.after_cons, StableHlo.after_nil]
             repeat (first
               | rw [StableHlo.nullary_result] | rw [StableHlo.unary_result] | rw [StableHlo.binary_result] | rw [StableHlo.ternary_result]
               | rw [StableHlo.reshape_result] | rw [StableHlo.nary3_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

/-- The [1000,9] parameter table. -/
def tableOf (x4 : S1000x1x3.Idx → Elt F .f32) (x5 : S1000x3.Idx → Elt F .f32) (x6 : S1000x3x1.Idx → Elt F .f32) : S1000x9.Idx → Elt F .f32 :=
  concatenate S1000x9 1 [⟨S1000x3, shapeCast S1000x3 x4 shapeCasts_S1000x1x3_S1000x3⟩, ⟨S1000x3, x5⟩,
    ⟨S1000x3, shapeCast S1000x3 x6 shapeCasts_S1000x3x1_S1000x3⟩] concatenates_S1000x3_S1000x3_S1000x3_S1000x9_d1

/-- The labels, negative ones wrapped by +1000, laid as a column. -/
def idxCol (x1 : IVec S524288 32) : IVec S524288x1 32 :=
  broadcastInDim S524288x1 ![0] bcast_S524288_S524288x1_0
    (select (cmpi CmpIPredicate.slt x1 (broadcastInDim S524288 ![] bcast_S_S524288 (constantI S_ 32 0#32)))
      (addi x1 (broadcastInDim S524288 ![] bcast_S_S524288 (constantI S_ 32 1000#32))) x1)

theorem V_v10 (c : Dev nD) :
    (V m c main_v10 : S1x1.Idx → Elt F .f32) = shapeCast S1x1 (m ((c : Thread nD τ).loc main_arg3) : S1.Idx → Elt F .f32) shapeCasts_S1_S1x1 := by
  show StableHlo.after hostOps0 (fun b => m (c, b)) (Proc.devRef .tc main_v10) = _
  after_results3
  rfl

theorem V_v9 (c : Dev nD) :
    (V m c main_v9 : S524288x9.Idx → Elt F .f32)
      = Host.gather gather_S1000x9_S524288x1_S524288x9_1_0_n_n_0_1_19
          (tableOf (m ((c : Thread nD τ).loc main_arg4)) (m ((c : Thread nD τ).loc main_arg5)) (m ((c : Thread nD τ).loc main_arg6)))
          (idxCol (m ((c : Thread nD τ).loc main_arg1))) := by
  show StableHlo.after hostOps0 (fun b => m (c, b)) (Proc.devRef .tc main_v9) = _
  after_results3
  rfl

theorem V_arg0 (c : Dev nD) : V m c main_arg0 = m ((c : Thread nD τ).loc main_arg0) :=
  V_of_not_written m c main_arg0 (by decide)
theorem V_arg2 (c : Dev nD) : V m c main_arg2 = m ((c : Thread nD τ).loc main_arg2) :=
  V_of_not_written m c main_arg2 (by decide)

/-- The row a label selects: the column's entry, read signed and clamped into [0, 999]. -/
def classOf (col : IVec S524288x1 32) (b : Fin 524288) : Fin 1000 :=
  clampRow 1000 (by norm_num) (col (ix2 b (0 : Fin 1))).toInt

/-- A gathered entry is the table at the label's row, same lane. -/
theorem gather_apply (tab : S1000x9.Idx → Elt F .f32) (col : IVec S524288x1 32) (b : Fin 524288) (q : Fin 9) :
    Host.gather gather_S1000x9_S524288x1_S524288x9_1_0_n_n_0_1_19 tab col (ix2 b q) = tab (ix2 (classOf col b) q) := by
  show tab ((gather_S1000x9_S524288x1_S524288x9_1_0_n_n_0_1_19).operandIdx (ix2 b q) col) = _
  exact congrArg tab (row_operandIdx (N := 1000) (C := 9) (R := 524288) (by norm_num)
    gather_S1000x9_S524288x1_S524288x9_1_0_n_n_0_1_19_wf col b q)

end Cert.KernelIdeal.Val

end
-- ==== Proof.IdealTable.lean ====
/-
  The [1000,9] parameter table read at an index: lanes 0-2 of row c are the linear coefficients x4(c, 0, ·), lanes 3-5 the
  biases x5(c, ·), lanes 6-8 the centers x6(c, ·, 0). The table joins three [1000,3] pieces along the lanes; two of them
  are reshapes of arrays with a unit axis, which keep the row-major position.
-/
import proofs.«156799_j71476845740091_2_alg».proof.Proof.IdealHostIn
import proofs.«156799_j71476845740091_2_alg».proof.Proof.IdealPayload

set_option maxRecDepth 16384

noncomputable section

namespace Cert.KernelIdeal.Val

open Cert.KernelIdeal Cert.KernelIdeal.Facts₀
open Idealize.ShloMosaic Idealize.ShloMosaic.ValueIdx

variable {F : FTy → Type} [FloatOps F]

theorem table_lin (x4 : S1000x1x3.Idx → Elt F .f32) (x5 : S1000x3.Idx → Elt F .f32) (x6 : S1000x3x1.Idx → Elt F .f32)
    (row : Fin 1000) (n : Fin 3) :
    tableOf x4 x5 x6 (ix2 row (lane0 n)) = x4 (ix3 row (0 : Fin 1) n) := by
  unfold tableOf
  refine (concatenate_apply_piece (t := S1000x9) (1 : Fin 2) [⟨S1000x3, shapeCast S1000x3 x4 shapeCasts_S1000x1x3_S1000x3⟩, ⟨S1000x3, x5⟩, ⟨S1000x3, shapeCast S1000x3 x6 shapeCasts_S1000x3x1_S1000x3⟩] concatenates_S1000x3_S1000x3_S1000x3_S1000x9_d1 (ix2 row (lane0 n)) 0 (show (0 : ℕ) < 3 from by decide) S1000x3
    (shapeCast S1000x3 x4 shapeCasts_S1000x1x3_S1000x3) rfl rfl 0 rfl (ix2 row n)
    (fun b hb => by
      match b with
      | ⟨0, _⟩ => rfl
      | ⟨1, _⟩ => exact absurd rfl hb) (by show 0 + n.val = n.val; omega)).trans ?_
  refine shapeCast_apply x4 _ (ix2 row n) (ix3 row (0 : Fin 1) n) ?_
  rw [Shape.rowMajor_val_three, Shape.rowMajor_val_two]
  show (row.val * 1 + 0) * 3 + n.val = row.val * 3 + n.val
  omega

theorem table_bia (x4 : S1000x1x3.Idx → Elt F .f32) (x5 : S1000x3.Idx → Elt F .f32) (x6 : S1000x3x1.Idx → Elt F .f32)
    (row : Fin 1000) (n : Fin 3) :
    tableOf x4 x5 x6 (ix2 row (lane3 n)) = x5 (ix2 row n) := by
  unfold tableOf
  exact concatenate_apply_piece (t := S1000x9) (1 : Fin 2) [⟨S1000x3, shapeCast S1000x3 x4 shapeCasts_S1000x1x3_S1000x3⟩, ⟨S1000x3, x5⟩, ⟨S1000x3, shapeCast S1000x3 x6 shapeCasts_S1000x3x1_S1000x3⟩] concatenates_S1000x3_S1000x3_S1000x3_S1000x9_d1 (ix2 row (lane3 n)) 1 (show (1 : ℕ) < 3 from by decide) S1000x3 x5 rfl rfl 3 rfl (ix2 row n)
    (fun b hb => by
      match b with
      | ⟨0, _⟩ => rfl
      | ⟨1, _⟩ => exact absurd rfl hb) (by show 3 + n.val = 3 + n.val; rfl)

theorem table_cen (x4 : S1000x1x3.Idx → Elt F .f32) (x5 : S1000x3.Idx → Elt F .f32) (x6 : S1000x3x1.Idx → Elt F .f32)
    (row : Fin 1000) (n : Fin 3) :
    tableOf x4 x5 x6 (ix2 row (lane6 n)) = x6 (ix3 row n (0 : Fin 1)) := by
  unfold tableOf
  refine (concatenate_apply_piece (t := S1000x9) (1 : Fin 2) [⟨S1000x3, shapeCast S1000x3 x4 shapeCasts_S1000x1x3_S1000x3⟩, ⟨S1000x3, x5⟩, ⟨S1000x3, shapeCast S1000x3 x6 shapeCasts_S1000x3x1_S1000x3⟩] concatenates_S1000x3_S1000x3_S1000x3_S1000x9_d1 (ix2 row (lane6 n)) 2 (show (2 : ℕ) < 3 from by decide) S1000x3
    (shapeCast S1000x3 x6 shapeCasts_S1000x3x1_S1000x3) rfl rfl 6 rfl (ix2 row n)
    (fun b hb => by
      match b with
      | ⟨0, _⟩ => rfl
      | ⟨1, _⟩ => exact absurd rfl hb) (by show 6 + n.val = 6 + n.val; rfl)).trans ?_
  refine shapeCast_apply x6 _ (ix2 row n) (ix3 row n (0 : Fin 1)) ?_
  rw [Shape.rowMajor_val_three, Shape.rowMajor_val_two]
  show (row.val * 3 + n.val) * 1 + 0 = row.val * 3 + n.val
  omega

end Cert.KernelIdeal.Val

end
-- ==== Proof.IdealBridge.lean ====
/-
  The kernel's result at the ideal instance is the loss.

  A point's partial sum is the sum, over the 4096 rows of its block, of the specification's row sum of that row: the block
  entries are the arrays' entries at row 4096·t + r, the bias block is the bias, and the gathered parameters are the
  tables' rows at the row's class. The two cores' totals are the sums over blocks 0-63 and 64-127; together, by regrouping,
  the sum over all 524288 rows. The host lines after the region divide it by 524288.
-/
import proofs.«156799_j71476845740091_2_alg».proof.Proof.IdealTail
import proofs.«156799_j71476845740091_2_alg».proof.Proof.IdealTable

set_option maxRecDepth 16384

noncomputable section

namespace Cert.KernelIdeal.Val

open Cert.KernelIdeal Cert.KernelIdeal.Frm Cert.KernelIdeal.Facts₀
open Cert.KernelIdeal.Gen (hostOps1 launch0 N_0)
open Idealize.ShloMosaic Idealize.ShloMosaic.TcCoe Idealize.SL.Sem Idealize.ShloMosaic.ValueIdx Idealize.ShloMosaic.Keepdims
open Cert.CenterLoss

variable (m : (ℓ : Loc nD τ sig) → Buf (Elt Ideal) ℓ)

/-- The argument arrays on core c. -/
abbrev aX (c : Dev nD) : S524288x64.Idx → EReal := m ((c : Thread nD τ).loc main_arg0)
abbrev aL (c : Dev nD) : IVec S524288 32 := m ((c : Thread nD τ).loc main_arg1)
abbrev aW (c : Dev nD) : S1x64.Idx → EReal := m ((c : Thread nD τ).loc main_arg2)
abbrev aB (c : Dev nD) : S1.Idx → EReal := m ((c : Thread nD τ).loc main_arg3)
abbrev aP4 (c : Dev nD) : S1000x1x3.Idx → EReal := m ((c : Thread nD τ).loc main_arg4)
abbrev aP5 (c : Dev nD) : S1000x3.Idx → EReal := m ((c : Thread nD τ).loc main_arg5)
abbrev aP6 (c : Dev nD) : S1000x3x1.Idx → EReal := m ((c : Thread nD τ).loc main_arg6)

/-- Row B's class. -/
abbrev clsK (c : Dev nD) (B : Fin 524288) : Fin 1000 := classOf (idxCol (aL m c)) B

/-- Row B's contribution to the loss. -/
def rowOf (c : Dev nD) (B : Fin 524288) : EReal :=
  rowSum (fun j => aX m c (ix2 B j)) (fun j => aW m c (ix2 (0 : Fin 1) j)) (aB m c (ix1 (0 : Fin 1)))
    (fun n => aP4 m c (ix3 (clsK m c B) (0 : Fin 1) n)) (fun n => aP5 m c (ix2 (clsK m c B) n))
    (fun n => aP6 m c (ix3 (clsK m c B) n (0 : Fin 1)))

theorem rowSum_congr {a a' b b' : Fin 64 → EReal} {β β' : EReal} {l l' bi bi' ce ce' : Fin 3 → EReal}
    (h1 : a = a') (h2 : b = b') (h3 : β = β') (h4 : l = l') (h5 : bi = bi') (h6 : ce = ce') :
    rowSum a b β l bi ce = rowSum a' b' β' l' bi' ce' := by
  subst h1 h2 h3 h4 h5 h6; rfl

/-- A gathered entry of the point's block. -/
theorem gathered_at (c : Dev nD) (t : Fin cfg0.N) (r : Fin 4096) (q : Fin 9) :
    iblk m c 1 t (ix2 r q)
      = tableOf (aP4 m c) (aP5 m c) (aP6 m c) (ix2 (clsK m c ⟨t.val * 4096 + r.val, row_lt t r⟩) q) := by
  rw [iblk1_apply, V_v9, gather_apply]

theorem partialAt_eq (c : Dev nD) (t : Fin cfg0.N) :
    partialAt m c t = ∑ r : Fin 4096, rowOf m c ⟨t.val * 4096 + r.val, row_lt t r⟩ := by
  unfold partialAt blockSum
  refine Finset.sum_congr rfl fun r _ => ?_
  unfold rowOf
  refine rowSum_congr ?_ ?_ ?_ ?_ ?_ ?_
  · exact funext fun j => (iblk0_apply m c t r j).trans (congrFun (V_arg0 m c) _)
  · exact funext fun j => (iblk2_apply m c t j).trans (congrFun (V_arg2 m c) _)
  · rw [iblk3_apply, V_v10]
    exact shapeCast_a_a1_apply (aB m c) _ (0 : Fin 1) (0 : Fin 1)
  · exact funext fun n => (gathered_at m c t r (lane0 n)).trans (table_lin _ _ _ _ n)
  · exact funext fun n => (gathered_at m c t r (lane3 n)).trans (table_bia _ _ _ _ n)
  · exact funext fun n => (gathered_at m c t r (lane6 n)).trans (table_cen _ _ _ _ n)

theorem row8_lt (q : Fin 2) : q.val * 8 < 16 := by have := q.isLt; omega

/-- The result array at (8q, 0): core q's total. -/
theorem final_at (c : Dev nD) (q : Fin 2) :
    finalAt m c ⟨q.val * 8, row8_lt q⟩ 0
      = ∑ i : Fin 64, partialAt m c ⟨q.val * 64 + i.val, pt_lt q i.val i.isLt⟩ := by
  obtain ⟨t, ht⟩ : ∃ t : Fin cfg0.N, t.val = q.val * 64 + 63 := ⟨⟨_, pt_lt q 63 (by norm_num)⟩, rfl⟩
  have h1 : t.val % 64 = 63 := by rw [ht]; omega
  have hrow : t.val / 64 * 8 = q.val * 8 := by rw [ht]; have := q.isLt; omega
  have he : ((cfg0.win 4).blk t).view.emb (ix2 (0 : Fin 8) (0 : Fin 128)) = ix2 ⟨q.val * 8, row8_lt q⟩ (0 : Fin 128) :=
    (emb_corner t).trans (congrArg (fun a => (ix2 a (0 : Fin 128) : S16x128.Idx)) (Fin.ext hrow))
  unfold finalAt
  rw [← he, arr_corner m c t h1, corner_eq m c t h1, outsAt0_congr m c ht t.isLt (pt_lt q 63 (by norm_num))]
  exact acc_total m c q

/-- Core q's total as a sum over its rows. -/
theorem core_total (c : Dev nD) (q : Fin 2) :
    finalAt m c ⟨q.val * 8, row8_lt q⟩ 0
      = ∑ i : Fin 64, ∑ r : Fin 4096,
          rowOf m c ⟨(⟨q.val * 64 + i.val, CenterLoss.blk_lt q i⟩ : Fin 128).val * 4096 + r.val, CenterLoss.row_lt _ r⟩ := by
  rw [final_at]
  refine Finset.sum_congr rfl fun i _ => ?_
  rw [partialAt_eq]

/-- The two cores' totals together: the sum over all rows. -/
theorem total_eq (c : Dev nD) :
    finalAt m c 0 0 + finalAt m c 8 0 = ∑ B : Fin 524288, rowOf m c B := by
  rw [sum_rows_split (rowOf m c), ← core_total m c 0, ← core_total m c 1]
  rfl

/-- The kernel's scalar result is the loss. -/
theorem kernel_result (c : Dev nD) (i : S_.Idx) :
    (Pipeline.afterTail₀ cfgs (dats m) 0 (V0 m) [hostOps1] c main_v17 : S_.Idx → EReal) i
      = Ideal.div (∑ B : Fin 524288, rowOf m c B) rows := by
  rw [tail_result, total_eq]

end Cert.KernelIdeal.Val

end
-- ==== Proof.LibHostLastMax.lean ====
/-
  The host's maximum over the LAST axis, read at an index, on the extended reals: for an `[a, b]` array at row `r`, and
  for an `[a, b, c]` array at `(p, q)`, it is the fold of `max` from the initial value over the last coordinate.
-/
import Idealize.ShloMosaic.Lib.ValueIdx
import Idealize.ShloMosaic.PureOps.Ideal.Laws

noncomputable section

namespace Idealize.ShloMosaic.HostLastMax

open Idealize.ShloMosaic Idealize.ShloMosaic.ValueIdx

variable {a b c : ℕ}

/-- The host's maximum of an `[a, b]` array over its last axis from an initial value, at row `r`. -/
theorem apply2 {u : Shape} (x : FVec Ideal ⟨2, ![a, b]⟩ .f32) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  refine congrArg (fun f => (Finset.univ : Finset (Fin b)).fold max (init (Shape.Idx.first hu)) f) (funext fun k => ?_)
  exact congrArg x (funext fun ax => Fin.ext (by
    match ax with
    | ⟨0, _⟩ => rfl
    | ⟨1, _⟩ => rfl))

/-- The host's maximum of an `[a, b, c]` array over its last axis from an initial value, at `(p, q)`. -/
theorem apply3 {u : Shape} (x : FVec Ideal ⟨3, ![a, b, c]⟩ .f32) (init : u.Idx → EReal)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single (FloatOps.maximumf (F := Ideal) (φ := .f32)) x init h' h hu (ix2 p q)).trans ?_
  refine congrArg (fun f => (Finset.univ : Finset (Fin c)).fold max (init (Shape.Idx.first hu)) f) (funext fun k => ?_)
  exact congrArg x (funext fun ax => Fin.ext (by
    match ax with
    | ⟨0, _⟩ => rfl
    | ⟨1, _⟩ => rfl
    | ⟨2, _⟩ => rfl))

end Idealize.ShloMosaic.HostLastMax

end
-- ==== Proof.LibUnitAxisTake.lean ====
/-
  Row lookups in tables with a unit axis, read at an index.

  x[idx, 0, :] for a table x : [N, 1, C] and x[idx, :, 0] for a table x : [N, C, 1] lower to gathers whose start indices
  are rows of a two-column array [R, 2]: the first column holds the row's index, the second the index on the unit axis.
  Each start index is read signed and clamped so that the slice fits: the first into [0, N - 1], the second into
  [0, 0]. So result element (e, c) reads the table at row clamp(idx(e, 0)), unit coordinate 0, lane c — whatever the
  second column holds.
-/
import Idealize.ShloMosaic.Lib.ValueIdx
import proofs.«156799_j71476845740091_2_alg».proof.Proof.LibRowTake

noncomputable section

namespace Idealize.ShloMosaic.UnitAxisTake

open Idealize.ShloMosaic Idealize.ShloMosaic.ValueIdx Idealize.ShloMosaic.RowTake

/-! ## A table [N, 1, C] -/

/-- The dimension numbers of x[idx, 0, :] for x : [N, 1, C], start indices [R, 2], result [R, C]. -/
abbrev midDims (N C R : Nat)
    (wf : GatherDims.WF ⟨3, ![N, 1, C]⟩ ⟨2, ![R, 2]⟩ ⟨2, ![R, C]⟩ [1] [0, 1] [] [0, 1] [] 1 ![1, 1, C]) :
    GatherDims ⟨3, ![N, 1, C]⟩ ⟨2, ![R, 2]⟩ ⟨2, ![R, C]⟩ where
  offsetDims := [1]
  collapsedSliceDims := [0, 1]
  operandBatchingDims := []
  startIndicesBatchingDims := []
  startIndexMap := [0, 1]
  indexVectorDim := 1
  sliceSizes := ![1, 1, C]
  wf := wf

theorem mid_operandIdx_row {N C R w : Nat} (hN : 0 < N)
    (wf : GatherDims.WF ⟨3, ![N, 1, C]⟩ ⟨2, ![R, 2]⟩ ⟨2, ![R, C]⟩ [1] [0, 1] [] [0, 1] [] 1 ![1, 1, C])
    (idx : IVec ⟨2, ![R, 2]⟩ w) (e : Fin R) (c : Fin C) :
    ((midDims N C R wf).operandIdx (ix2 e c) idx (0 : Fin 3)).val = (clampRow N hN (idx (ix2 e (0 : Fin 2))).toInt).val := by
  show (midDims N C R wf).start (ix2 e c) idx (0 : Fin 3) + (midDims N C R wf).batchCoord (ix2 e c) (0 : Fin 3)
    + (midDims N C R wf).offCoord (ix2 e c) (0 : Fin 3) = _
  rw [GatherDims.batchCoord_eq_zero _ _ _ List.not_mem_nil,
    GatherDims.offCoord_eq_zero _ _ _ (fun h => ((GatherDims.mem_sKept _ _).mp h).1 (show (0 : Fin 3) ∈ ([0, 1] : List (Fin 3)) from by decide))]
  simp only [Nat.add_zero]
  unfold GatherDims.start
  rw [dif_pos (show (0 : Fin 3) ∈ (midDims N C R wf).startIndexMap from (show (0 : Fin 3) ∈ ([0, 1] : List (Fin 3)) from by decide))]
  have hsi : (midDims N C R wf).siIdx (ix2 e c) ⟨List.idxOf (0 : Fin 3) (midDims N C R wf).startIndexMap,
      List.idxOf_lt_length_iff.2 (show (0 : Fin 3) ∈ ([0, 1] : List (Fin 3)) from by decide)⟩ = ix2 e (0 : Fin 2) := by
    funext b; refine Fin.ext ?_
    match b with
    | ⟨0, _⟩ => rfl
    | ⟨1, _⟩ => rfl
  rw [hsi]
  rfl

theorem mid_operandIdx_unit {N C R w : Nat}
    (wf : GatherDims.WF ⟨3, ![N, 1, C]⟩ ⟨2, ![R, 2]⟩ ⟨2, ![R, C]⟩ [1] [0, 1] [] [0, 1] [] 1 ![1, 1, C])
    (idx : IVec ⟨2, ![R, 2]⟩ w) (e : Fin R) (c : Fin C) :
    ((midDims N C R wf).operandIdx (ix2 e c) idx (1 : Fin 3)).val = 0 := by
  have := ((midDims N C R wf).operandIdx (ix2 e c) idx (1 : Fin 3)).isLt
  have h1 : (⟨3, ![N, 1, C]⟩ : Shape).size (1 : Fin 3) = 1 := rfl
  omega

theorem mid_operandIdx_lane {N C R w : Nat}
    (wf : GatherDims.WF ⟨3, ![N, 1, C]⟩ ⟨2, ![R, 2]⟩ ⟨2, ![R, C]⟩ [1] [0, 1] [] [0, 1] [] 1 ![1, 1, C])
    (idx : IVec ⟨2, ![R, 2]⟩ w) (e : Fin R) (c : Fin C) :
    ((midDims N C R wf).operandIdx (ix2 e c) idx (2 : Fin 3)).val = c.val := by
  show (midDims N C R wf).start (ix2 e c) idx (2 : Fin 3) + (midDims N C R wf).batchCoord (ix2 e c) (2 : Fin 3)
    + (midDims N C R wf).offCoord (ix2 e c) (2 : Fin 3) = _
  have h2 : (2 : Fin 3) ∉ ([0, 1] : List (Fin 3)) := by decide
  have hs : (midDims N C R wf).start (ix2 e c) idx (2 : Fin 3) = 0 := by
    unfold GatherDims.start
    rw [dif_neg (show (2 : Fin 3) ∉ (midDims N C R wf).startIndexMap from h2)]
  have ho : (midDims N C R wf).offCoord (ix2 e c) (2 : Fin 3) = c.val := by
    unfold GatherDims.offCoord
    rw [dif_pos ((GatherDims.mem_sKept _ _).mpr ⟨h2, List.not_mem_nil⟩)]
    rfl
  rw [GatherDims.batchCoord_eq_zero _ _ _ List.not_mem_nil, hs, ho]; omega

/-- Result element (e, c) reads the table at row clamp(idx(e, 0)), unit coordinate 0, lane c. -/
theorem mid_operandIdx {N C R w : Nat} (hN : 0 < N)
    (wf : GatherDims.WF ⟨3, ![N, 1, C]⟩ ⟨2, ![R, 2]⟩ ⟨2, ![R, C]⟩ [1] [0, 1] [] [0, 1] [] 1 ![1, 1, C])
    (idx : IVec ⟨2, ![R, 2]⟩ w) (e : Fin R) (c : Fin C) :
    (midDims N C R wf).operandIdx (ix2 e c) idx
      = ix3 (clampRow N hN (idx (ix2 e (0 : Fin 2))).toInt) (0 : Fin 1) c := by
  funext a
  refine Fin.ext ?_
  match a with
  | ⟨0, _⟩ => exact mid_operandIdx_row hN wf idx e c
  | ⟨1, _⟩ => exact mid_operandIdx_unit wf idx e c
  | ⟨2, _⟩ => exact mid_operandIdx_lane wf idx e c

/-! ## A table [N, C, 1] -/

/-- The dimension numbers of x[idx, :, 0] for x : [N, C, 1], start indices [R, 2], result [R, C]. -/
abbrev lastDims (N C R : Nat)
    (wf : GatherDims.WF ⟨3, ![N, C, 1]⟩ ⟨2, ![R, 2]⟩ ⟨2, ![R, C]⟩ [1] [0, 2] [] [0, 2] [] 1 ![1, C, 1]) :
    GatherDims ⟨3, ![N, C, 1]⟩ ⟨2, ![R, 2]⟩ ⟨2, ![R, C]⟩ where
  offsetDims := [1]
  collapsedSliceDims := [0, 2]
  operandBatchingDims := []
  startIndicesBatchingDims := []
  startIndexMap := [0, 2]
  indexVectorDim := 1
  sliceSizes := ![1, C, 1]
  wf := wf

theorem last_operandIdx_row {N C R w : Nat} (hN : 0 < N)
    (wf : GatherDims.WF ⟨3, ![N, C, 1]⟩ ⟨2, ![R, 2]⟩ ⟨2, ![R, C]⟩ [1] [0, 2] [] [0, 2] [] 1 ![1, C, 1])
    (idx : IVec ⟨2, ![R, 2]⟩ w) (e : Fin R) (c : Fin C) :
    ((lastDims N C R wf).operandIdx (ix2 e c) idx (0 : Fin 3)).val = (clampRow N hN (idx (ix2 e (0 : Fin 2))).toInt).val := by
  show (lastDims N C R wf).start (ix2 e c) idx (0 : Fin 3) + (lastDims N C R wf).batchCoord (ix2 e c) (0 : Fin 3)
    + (lastDims N C R wf).offCoord (ix2 e c) (0 : Fin 3) = _
  rw [GatherDims.batchCoord_eq_zero _ _ _ List.not_mem_nil,
    GatherDims.offCoord_eq_zero _ _ _ (fun h => ((GatherDims.mem_sKept _ _).mp h).1 (show (0 : Fin 3) ∈ ([0, 2] : List (Fin 3)) from by decide))]
  simp only [Nat.add_zero]
  unfold GatherDims.start
  rw [dif_pos (show (0 : Fin 3) ∈ (lastDims N C R wf).startIndexMap from (show (0 : Fin 3) ∈ ([0, 2] : List (Fin 3)) from by decide))]
  have hsi : (lastDims N C R wf).siIdx (ix2 e c) ⟨List.idxOf (0 : Fin 3) (lastDims N C R wf).startIndexMap,
      List.idxOf_lt_length_iff.2 (show (0 : Fin 3) ∈ ([0, 2] : List (Fin 3)) from by decide)⟩ = ix2 e (0 : Fin 2) := by
    funext b; refine Fin.ext ?_
    match b with
    | ⟨0, _⟩ => rfl
    | ⟨1, _⟩ => rfl
  rw [hsi]
  rfl

theorem last_operandIdx_lane {N C R w : Nat}
    (wf : GatherDims.WF ⟨3, ![N, C, 1]⟩ ⟨2, ![R, 2]⟩ ⟨2, ![R, C]⟩ [1] [0, 2] [] [0, 2] [] 1 ![1, C, 1])
    (idx : IVec ⟨2, ![R, 2]⟩ w) (e : Fin R) (c : Fin C) :
    ((lastDims N C R wf).operandIdx (ix2 e c) idx (1 : Fin 3)).val = c.val := by
  show (lastDims N C R wf).start (ix2 e c) idx (1 : Fin 3) + (lastDims N C R wf).batchCoord (ix2 e c) (1 : Fin 3)
    + (lastDims N C R wf).offCoord (ix2 e c) (1 : Fin 3) = _
  have h1 : (1 : Fin 3) ∉ ([0, 2] : List (Fin 3)) := by decide
  have hs : (lastDims N C R wf).start (ix2 e c) idx (1 : Fin 3) = 0 := by
    unfold GatherDims.start
    rw [dif_neg (show (1 : Fin 3) ∉ (lastDims N C R wf).startIndexMap from h1)]
  have ho : (lastDims N C R wf).offCoord (ix2 e c) (1 : Fin 3) = c.val := by
    unfold GatherDims.offCoord
    rw [dif_pos ((GatherDims.mem_sKept _ _).mpr ⟨h1, List.not_mem_nil⟩)]
    rfl
  rw [GatherDims.batchCoord_eq_zero _ _ _ List.not_mem_nil, hs, ho]; omega

theorem last_operandIdx_unit {N C R w : Nat}
    (wf : GatherDims.WF ⟨3, ![N, C, 1]⟩ ⟨2, ![R, 2]⟩ ⟨2, ![R, C]⟩ [1] [0, 2] [] [0, 2] [] 1 ![1, C, 1])
    (idx : IVec ⟨2, ![R, 2]⟩ w) (e : Fin R) (c : Fin C) :
    ((lastDims N C R wf).operandIdx (ix2 e c) idx (2 : Fin 3)).val = 0 := by
  have := ((lastDims N C R wf).operandIdx (ix2 e c) idx (2 : Fin 3)).isLt
  have h1 : (⟨3, ![N, C, 1]⟩ : Shape).size (2 : Fin 3) = 1 := rfl
  omega

/-- Result element (e, c) reads the table at row clamp(idx(e, 0)), lane c, unit coordinate 0. -/
theorem last_operandIdx {N C R w : Nat} (hN : 0 < N)
    (wf : GatherDims.WF ⟨3, ![N, C, 1]⟩ ⟨2, ![R, 2]⟩ ⟨2, ![R, C]⟩ [1] [0, 2] [] [0, 2] [] 1 ![1, C, 1])
    (idx : IVec ⟨2, ![R, 2]⟩ w) (e : Fin R) (c : Fin C) :
    (lastDims N C R wf).operandIdx (ix2 e c) idx
      = ix3 (clampRow N hN (idx (ix2 e (0 : Fin 2))).toInt) c (0 : Fin 1) := by
  funext a
  refine Fin.ext ?_
  match a with
  | ⟨0, _⟩ => exact last_operandIdx_row hN wf idx e c
  | ⟨1, _⟩ => exact last_operandIdx_lane wf idx e c
  | ⟨2, _⟩ => exact last_operandIdx_unit wf idx e c

end Idealize.ShloMosaic.UnitAxisTake

end
-- ==== Proof.RefSide.lean ====
/-
  The reference at the ideal instance, read stage by stage.

  The reference computes maps = x·wᵀ + bias as a [524288,1] column, looks the three groups of class parameters up by the
  label (wrapped, laid as a column; the two rank-3 tables take a second index column of zeros), forms the logits, their
  softmax, the squared distances and the products, sums all 524288 x 3 products and divides by 524288. Each lemma reads one
  stage at an index and states it through the specification's functions; the last says the result is the specification's
  loss with the rows' class parameters read off the tables.
-/
import proofs.«156799_j71476845740091_2_alg».proof.Proof.Gen.ReferenceIdeal.Read
import proofs.«156799_j71476845740091_2_alg».proof.Proof.LibHostLastMax
import proofs.«156799_j71476845740091_2_alg».proof.Proof.LibRowTake
import proofs.«156799_j71476845740091_2_alg».proof.Proof.LibUnitAxisTake
import proofs.«156799_j71476845740091_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefVal

open Cert.ReferenceIdeal Cert.ReferenceIdeal.Read Cert.ReferenceIdeal.Facts₀
open Idealize.ShloMosaic Idealize.ShloMosaic.ValueIdx Idealize.ShloMosaic.RowTake Idealize.ShloMosaic.UnitAxisTake
open Cert.CenterLoss

variable (x0 : (⟨S524288x64, .f32⟩ : BufTy).Contents (Elt Ideal)) (x1 : (⟨S524288, .i32⟩ : BufTy).Contents (Elt Ideal))
  (x2 : (⟨S1x64, .f32⟩ : BufTy).Contents (Elt Ideal)) (x3 : (⟨S1, .f32⟩ : BufTy).Contents (Elt Ideal))
  (x4 : (⟨S1000x1x3, .f32⟩ : BufTy).Contents (Elt Ideal)) (x5 : (⟨S1000x3, .f32⟩ : BufTy).Contents (Elt Ideal))
  (x6 : (⟨S1000x3x1, .f32⟩ : BufTy).Contents (Elt Ideal))

/-- Row b of the features, the weight row, the bias. -/
abbrev xrow (b : Fin 524288) : Fin 64 → EReal := fun j => x0 (ix2 b j)
abbrev wrow : Fin 64 → EReal := fun j => x2 (ix2 (0 : Fin 1) j)
abbrev beta : EReal := x3 (ix1 (0 : Fin 1))

/-- The row of the tables a label selects: the wrapped label, read signed and clamped into [0, 999]. -/
def cls (b : Fin 524288) : Fin 1000 :=
  clampRow 1000 (by norm_num) ((val_main_v12 (F := Ideal) x1) (ix2 b (0 : Fin 1))).toInt

abbrev linR (b : Fin 524288) : Fin 3 → EReal := fun n => x4 (ix3 (cls x1 b) (0 : Fin 1) n)
abbrev biaR (b : Fin 524288) : Fin 3 → EReal := fun n => x5 (ix2 (cls x1 b) n)
abbrev cenR (b : Fin 524288) : Fin 3 → EReal := fun n => x6 (ix3 (cls x1 b) n (0 : Fin 1))

/-! ## The lookups -/

theorem v21_eq : val_main_v21 (F := Ideal) x1 = val_main_v12 (F := Ideal) x1 := rfl
theorem v30_eq : val_main_v30 (F := Ideal) x1 = val_main_v12 (F := Ideal) x1 := rfl

/-- The two-column start indices read, in their first column, the label column. -/
theorem v14_col0 (b : Fin 524288) :
    (val_main_v14 (F := Ideal) x1) (ix2 b (0 : Fin 2)) = (val_main_v12 (F := Ideal) x1) (ix2 b (0 : Fin 1)) := by
  unfold val_main_v14
  exact concatenate_pair_apply_left (t := S524288x2) (s₁ := S524288x1) (s₂ := S524288x1) (1 : Fin 2)
    (val_main_v12 (F := Ideal) x1) (val_main_v13 (F := Ideal)) concatenates_S524288x1_S524288x1_S524288x2_d1
    (ix2 b (0 : Fin 2)) rfl (ix2 b (0 : Fin 1)) (fun a => by
    match a with
    | ⟨0, _⟩ => rfl
    | ⟨1, _⟩ => rfl)

theorem v32_col0 (b : Fin 524288) :
    (val_main_v32 (F := Ideal) x1) (ix2 b (0 : Fin 2)) = (val_main_v12 (F := Ideal) x1) (ix2 b (0 : Fin 1)) := by
  unfold val_main_v32
  exact (concatenate_pair_apply_left (t := S524288x2) (s₁ := S524288x1) (s₂ := S524288x1) (1 : Fin 2)
    (val_main_v30 (F := Ideal) x1) (val_main_v31 (F := Ideal)) concatenates_S524288x1_S524288x1_S524288x2_d1
    (ix2 b (0 : Fin 2)) rfl (ix2 b (0 : Fin 1)) (fun a => by
    match a with
    | ⟨0, _⟩ => rfl
    | ⟨1, _⟩ => rfl)).trans (congrFun (v30_eq x1) _)

theorem v15_apply (b : Fin 524288) (n : Fin 3) : val_main_v15 (F := Ideal) x1 x4 (ix2 b n) = linR x1 x4 b n := by
  show x4 ((gather_S1000x1x3_S524288x2_S524288x3_1_01_n_n_01_1_113).operandIdx (ix2 b n) (val_main_v14 (F := Ideal) x1)) = _
  refine congrArg x4 ((mid_operandIdx (N := 1000) (C := 3) (R := 524288) (by norm_num)
    gather_S1000x1x3_S524288x2_S524288x3_1_01_n_n_01_1_113_wf (val_main_v14 (F := Ideal) x1) b n).trans ?_)
  unfold cls
  rw [v14_col0]

theorem v22_apply (b : Fin 524288) (n : Fin 3) : val_main_v22 (F := Ideal) x1 x5 (ix2 b n) = biaR x1 x5 b n := by
  show x5 ((gather_S1000x3_S524288x1_S524288x3_1_0_n_n_0_1_13).operandIdx (ix2 b n) (val_main_v21 (F := Ideal) x1)) = _
  refine congrArg x5 ((row_operandIdx (N := 1000) (C := 3) (R := 524288) (by norm_num)
    gather_S1000x3_S524288x1_S524288x3_1_0_n_n_0_1_13_wf (val_main_v21 (F := Ideal) x1) b n).trans ?_)
  unfold cls
  rw [v21_eq]

theorem v33_apply (b : Fin 524288) (n : Fin 3) : val_main_v33 (F := Ideal) x1 x6 (ix2 b n) = cenR x1 x6 b n := by
  show x6 ((gather_S1000x3x1_S524288x2_S524288x3_1_02_n_n_02_1_131).operandIdx (ix2 b n) (val_main_v32 (F := Ideal) x1)) = _
  refine congrArg x6 ((last_operandIdx (N := 1000) (C := 3) (R := 524288) (by norm_num)
    gather_S1000x3x1_S524288x2_S524288x3_1_02_n_n_02_1_131_wf (val_main_v32 (F := Ideal) x1) b n).trans ?_)
  unfold cls
  rw [v32_col0]

/-! ## The stages -/

/-- The index functions of the generated reads, at an index given by coordinates. -/
theorem lidx1 (b : Fin 524288) (u : Fin 1) (k : Fin 64) : lidx_main_v1 (ix2 b u) k = ix2 b k :=
  funext fun a => Fin.ext (by
    match a with
    | ⟨0, _⟩ => rfl
    | ⟨1, _⟩ => rfl)
theorem ridx1 (b : Fin 524288) (u : Fin 1) (k : Fin 64) : idx_main_v0 (ridx_main_v1 (ix2 b u) k) = ix2 (0 : Fin 1) k :=
  funext fun a => Fin.ext (by
    match a with
    | ⟨0, _⟩ => show u.val = 0; omega
    | ⟨1, _⟩ => rfl)
theorem col_of3 (b : Fin 524288) (n : Fin 3) : idx_main_v34 (ix2 b n) = ix2 b (0 : Fin 1) :=
  funext fun a => Fin.ext (by
    match a with
    | ⟨0, _⟩ => rfl
    | ⟨1, _⟩ => rfl)
theorem row_of1 (b : Fin 524288) (u : Fin 1) : idx_main_v40 (ix2 b u) = ix1 b :=
  funext fun a => Fin.ext (by
    match a with
    | ⟨0, _⟩ => rfl)
theorem lane_of (b : Fin 524288) (k : Fin 3) : idx_main_v44 (ix1 b) k = ix2 b k :=
  funext fun a => Fin.ext (by
    match a with
    | ⟨0, _⟩ => rfl
    | ⟨1, _⟩ => rfl)
theorem feat_of (b : Fin 524288) (k : Fin 64) : idx_main_v49 (ix1 b) k = ix2 b k :=
  funext fun a => Fin.ext (by
    match a with
    | ⟨0, _⟩ => rfl
    | ⟨1, _⟩ => rfl)

theorem zero_word : (FloatOps.ofBits (F := Ideal) .f32 0x00000000#32 : EReal) = 0 := Ideal.ofBits_zero_f32

/-- maps, as a column. -/
theorem v4_apply (b : Fin 524288) (u : Fin 1) :
    val_main_v4 (F := Ideal) x0 x2 x3 (ix2 b u) = maps (xrow x0 b) (wrow x2) (beta x3) := by
  rw [val_main_v4_apply, val_main_v1_apply, val_main_v3_apply, val_main_v2_apply]
  unfold maps
  refine congrArg₂ (· + ·) (Finset.sum_congr rfl fun k _ => ?_) ?_
  · rw [val_main_v0_apply, lidx1, ridx1]
  · exact congrArg x3 (funext fun a => Fin.ext (by
      match a with
      | ⟨0, _⟩ => rfl))

/-- The logits. -/
theorem v36_apply (b : Fin 524288) (n : Fin 3) :
    val_main_v36 (F := Ideal) x0 x1 x2 x3 x4 x5 (ix2 b n)
      = logit (xrow x0 b) (wrow x2) (beta x3) (linR x1 x4 b) (biaR x1 x5 b) n := by
  rw [val_main_v36_apply, val_main_v35_apply, val_main_v34_apply, col_of3, v4_apply, v15_apply, v22_apply]
  rfl

/-- The logits of row b, as a function of the lane. -/
abbrev zrow (b : Fin 524288) : Fin 3 → EReal := fun k => val_main_v36 (F := Ideal) x0 x1 x2 x3 x4 x5 (ix2 b k)

/-- The shift: max(−∞, max of the row's logits). -/
theorem v39_apply (b : Fin 524288) :
    val_main_v39 (F := Ideal) x0 x1 x2 x3 x4 x5 (ix1 b) = top (zrow x0 x1 x2 x3 x4 x5 b) := by
  rw [val_main_v39_apply, val_main_v38_apply, val_main_cst_7_apply]
  unfold val_main_v37
  rw [HostLastMax.apply2 (val_main_v36 (F := Ideal) x0 x1 x2 x3 x4 x5) (val_main_cst (F := Ideal))
    reducesTo_S524288x3_S524288_d1 (by decide) h_S_ b]
  rw [val_main_cst_apply]
  show max (Ideal.ofBits .f32 0xFF800000#32) ((Finset.univ : Finset (Fin 3)).fold max (Ideal.ofBits .f32 0xFF800000#32) _) = _
  have hinf : Ideal.ofBits .f32 0xFF800000#32 = (⊥ : EReal) := by simp [Ideal.ofBits, Ideal.ieee]
  rw [hinf]
  rfl

/-- The shifted exponentials. -/
theorem v43_apply (b : Fin 524288) (n : Fin 3) :
    val_main_v43 (F := Ideal) x0 x1 x2 x3 x4 x5 (ix2 b n)
      = Ideal.exp (zrow x0 x1 x2 x3 x4 x5 b n - top (zrow x0 x1 x2 x3 x4 x5 b)) := by
  have h41 : idx_main_v41 (ix2 b n) = ix2 b (0 : Fin 1) := col_of3 b n
  have h40 : idx_main_v40 (ix2 b (0 : Fin 1)) = ix1 b := row_of1 b 0
  rw [val_main_v43_apply, val_main_v42_apply, val_main_v41_apply, h41, val_main_v40_apply, h40, v39_apply]
  rfl

/-- The softmax. -/
theorem v47_apply (b : Fin 524288) (n : Fin 3) :
    val_main_v47 (F := Ideal) x0 x1 x2 x3 x4 x5 (ix2 b n) = gamma (zrow x0 x1 x2 x3 x4 x5 b) n := by
  have h46 : idx_main_v46 (ix2 b n) = ix2 b (0 : Fin 1) := col_of3 b n
  have h45 : idx_main_v45 (ix2 b (0 : Fin 1)) = ix1 b := row_of1 b 0
  rw [val_main_v47_apply, val_main_v46_apply, h46, val_main_v45_apply, h45, val_main_v44_apply, val_main_cst_8_apply,
    v43_apply]
  unfold gamma
  show Ideal.div _ (FloatOps.ofBits (F := Ideal) .f32 0x00000000#32 + _) = _
  rw [zero_word, zero_add]
  refine congrArg (Ideal.div _) (Finset.sum_congr rfl fun k _ => ?_)
  rw [lane_of, v43_apply]

/-- The squared distances. -/
theorem v62_apply (b : Fin 524288) (n : Fin 3) :
    val_main_v62 (F := Ideal) x0 x1 x6 (ix2 b n) = sqdist (xrow x0 b) (cenR x1 x6 b) n := by
  rw [val_main_v62_apply, val_main_v58_apply, val_main_v61_apply, val_main_v60_apply, val_main_v59_apply, val_main_cst_12_apply,
    val_main_v57_apply, val_main_v56_apply, val_main_v54_apply, val_main_v53_apply, val_main_cst_11_apply, val_main_v55_apply,
    v33_apply]
  have h57 : idx_main_v57 (ix2 b n) = ix2 b (0 : Fin 1) := col_of3 b n
  have h55 : idx_main_v55 (ix2 b n) = ix2 b (0 : Fin 1) := col_of3 b n
  rw [h57, h55, val_main_v50_apply, val_main_v52_apply]
  have h50 : idx_main_v50 (ix2 b (0 : Fin 1)) = ix1 b := row_of1 b 0
  have h52 : idx_main_v52 (ix2 b (0 : Fin 1)) = ix1 b := row_of1 b 0
  rw [h50, h52, val_main_v49_apply, val_main_v51_apply, val_main_cst_9_apply, val_main_cst_10_apply]
  unfold sqdist
  show ((FloatOps.ofBits (F := Ideal) .f32 0x00000000#32 + ∑ k : Fin 64, val_main_v48 (F := Ideal) x0 (idx_main_v49 (ix1 b) k))
        - (Ideal.ofBits .f32 0x40000000#32 * cenR x1 x6 b n) * (FloatOps.ofBits (F := Ideal) .f32 0x00000000#32 + ∑ k : Fin 64, x0 (idx_main_v51 (ix1 b) k)))
      + (Ideal.ofBits .f32 0x42800000#32 * cenR x1 x6 b n) * cenR x1 x6 b n = _
  rw [zero_word, zero_add, zero_add]
  have hs1 : ∑ k : Fin 64, val_main_v48 (F := Ideal) x0 (idx_main_v49 (ix1 b) k) = ∑ j, xrow x0 b j * xrow x0 b j :=
    Finset.sum_congr rfl fun k _ => by rw [feat_of]; rfl
  have hs2 : ∑ k : Fin 64, x0 (idx_main_v51 (ix1 b) k) = ∑ j, xrow x0 b j :=
    Finset.sum_congr rfl fun k _ => by rw [show idx_main_v51 (ix1 b) k = ix2 b k from feat_of b k]
  rw [hs1, hs2]

/-- One product. -/
theorem v63_apply (b : Fin 524288) (n : Fin 3) :
    val_main_v63 (F := Ideal) x0 x1 x2 x3 x4 x5 x6 (ix2 b n)
      = term (xrow x0 b) (wrow x2) (beta x3) (linR x1 x4 b) (biaR x1 x5 b) (cenR x1 x6 b) n := by
  rw [val_main_v63_apply, v47_apply, v62_apply]
  unfold term
  refine congrArg (· * _) (congrArg (fun z => gamma z n) (funext fun k => ?_))
  exact v36_apply x0 x1 x2 x3 x4 x5 b k

/-- The reference's result: the loss. -/
theorem result_apply (i : S_.Idx) :
    val_main_v65 (F := Ideal) x0 x1 x2 x3 x4 x5 x6 i
      = Ideal.div (∑ b : Fin 524288, rowSum (xrow x0 b) (wrow x2) (beta x3) (linR x1 x4 b) (biaR x1 x5 b) (cenR x1 x6 b)) rows := by
  rw [val_main_v65_apply, val_main_v64_apply, val_main_cst_13_apply, val_main_cst_14_apply]
  show Ideal.div (FloatOps.ofBits (F := Ideal) .f32 0x00000000#32 + _) _ = _
  rw [zero_word, zero_add, sum_idx2]
  refine congrArg (Ideal.div · rows) (Finset.sum_congr rfl fun b _ => ?_)
  unfold rowSum
  exact Finset.sum_congr rfl fun n _ => v63_apply x0 x1 x2 x3 x4 x5 x6 b n

end Cert.ReferenceIdeal.RefVal

end
-- ==== Proof.lean ====
/- The proof of Cert.Claim (proofs.«156799_j71476845740091_2_alg».proof.Defs).

   The kernel computes a center loss: per row, a softmax over three class centers of maps·lin + bias, weighted squared
   distances (Σx² − 2c·Σx + 64c²), summed over all 524288 rows and divided by 524288. It walks the rows in 128 blocks of
   4096, 64 blocks per core, keeping a running sum per core and adding the two at the end; the reference sums all rows at
   once. On the extended reals the two are one number, because addition is commutative and associative: no finiteness of
   the inputs is used.

   frame_Kernel, frame_KernelIdeal: the frame of the pipelined region with the host lines around it (Proof/BitsFrame,
   Proof/IdealFrame). frame_ReferenceIdeal: the reference's run with the result dropped. preserves: the ideal pass rewrote
   nothing. algebraic: the kernel's result read off its frame run (Proof/IdealBridge) and the reference's read off its run
   (Proof/RefSide) are the specification's loss (Proof/Spec) of the same arguments; the class a label selects is the same
   term in both programs. -/
import proofs.«156799_j71476845740091_2_alg».proof.Defs
import proofs.«156799_j71476845740091_2_alg».proof.Proof.Gen.Kernel
import proofs.«156799_j71476845740091_2_alg».proof.Proof.Gen.Kernel.Skeleton
import proofs.«156799_j71476845740091_2_alg».proof.Proof.Gen.Kernel.Launch
import proofs.«156799_j71476845740091_2_alg».proof.Proof.Gen.Kernel.Points
import proofs.«156799_j71476845740091_2_alg».proof.Proof.Gen.KernelIdeal
import proofs.«156799_j71476845740091_2_alg».proof.Proof.Gen.KernelIdeal.Skeleton
import proofs.«156799_j71476845740091_2_alg».proof.Proof.Gen.KernelIdeal.Launch
import proofs.«156799_j71476845740091_2_alg».proof.Proof.Gen.KernelIdeal.Points
import proofs.«156799_j71476845740091_2_alg».proof.Proof.Gen.ReferenceIdeal
import proofs.«156799_j71476845740091_2_alg».proof.Proof.Gen.ReferenceIdeal.Run
import proofs.«156799_j71476845740091_2_alg».proof.Proof.Gen.Pre_finite_inputs
import proofs.«156799_j71476845740091_2_alg».proof.Proof.BitsFrame
import proofs.«156799_j71476845740091_2_alg».proof.Proof.IdealRun
import proofs.«156799_j71476845740091_2_alg».proof.Proof.IdealBridge
import proofs.«156799_j71476845740091_2_alg».proof.Proof.RefSide
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Frm.frame m ρ

theorem frame_ki : Cert.frame_KernelIdeal := fun m ρ _ => Cert.KernelIdeal.Frm.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs read the same arguments, and the row of the tables a label selects is the same term in both: the two
    results are the specification's loss. -/
theorem algebraic : Cert.algebraic_KernelIdeal_ReferenceIdeal := by
  intro m ρ m' ρ' _ hagree
  refine ⟨fun c => Pipeline.afterTail₀ Cert.KernelIdeal.cfgs (Cert.KernelIdeal.Frm.dats m) 0 (Cert.KernelIdeal.Frm.V0 m)
    [Cert.KernelIdeal.Gen.hostOps1] c Cert.KernelIdeal.main_v17, Cert.KernelIdeal.Frm.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v65_eq]
  obtain ⟨h0, h1, h2, h3, h4, h5, h6⟩ := hagree c
  rw [h0, h1, h2, h3, h4, h5, h6]
  funext i
  rw [Cert.ReferenceIdeal.RefVal.result_apply]
  exact (Cert.KernelIdeal.Val.kernel_result m c i).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
